-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v140)) (v1 : (c : Dev Cert.KernelIdeal.nD) → Buf (Elt Ideal) ((c.tc : Thread Cert.KernelIdeal.nD Cert.KernelIdeal.τ).loc Cert.KernelIdeal.main_v142)) (v2 : (c : Dev Cert.KernelIdeal.nD) → Buf (Elt Ideal) ((c.tc : Thread Cert.KernelIdeal.nD Cert.KernelIdeal.τ).loc Cert.KernelIdeal.main_v141)) (v3 : (c : Dev Cert.KernelIdeal.nD) → Buf (Elt Ideal) ((c.tc : Thread Cert.KernelIdeal.nD Cert.KernelIdeal.τ).loc Cert.KernelIdeal.main_v143)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v140) = v0 c
          ∧ r.2.mem ((c.tc : Thread Cert.KernelIdeal.nD Cert.KernelIdeal.τ).loc Cert.KernelIdeal.main_v142) = v1 c
          ∧ r.2.mem ((c.tc : Thread Cert.KernelIdeal.nD Cert.KernelIdeal.τ).loc Cert.KernelIdeal.main_v141) = v2 c
          ∧ r.2.mem ((c.tc : Thread Cert.KernelIdeal.nD Cert.KernelIdeal.τ).loc Cert.KernelIdeal.main_v143) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_v157) = v1 c
          ∧ r.2.mem ((c.tc : Thread Cert.ReferenceIdeal.nD Cert.ReferenceIdeal.τ).loc Cert.ReferenceIdeal.main_v168) = v2 c
          ∧ r.2.mem ((c.tc : Thread Cert.ReferenceIdeal.nD Cert.ReferenceIdeal.τ).loc Cert.ReferenceIdeal.main_v178) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x3x224x224 : Shape := ⟨5, ![8, 32, 3, 224, 224]⟩
abbrev S8x3x224x224 : Shape := ⟨4, ![8, 3, 224, 224]⟩
abbrev S1005 : Shape := ⟨1, ![1005]⟩
abbrev S_ : Shape := ⟨0, ![]⟩

class Facts : Prop where
  bcast_S_S8x32x3x224x224 : S_.BroadcastsInDim S8x32x3x224x224 (![] : Fin 0 → Fin S8x32x3x224x224.rank)
  reducesTo_S8x32x3x224x224_S_d0_1_2_3_4 : S8x32x3x224x224.ReducesTo [0, 1, 2, 3, 4] S_
  h_S_ : 0 < S_.numel
  bcast_S_S8x3x224x224 : S_.BroadcastsInDim S8x3x224x224 (![] : Fin 0 → Fin S8x3x224x224.rank)
  reducesTo_S8x3x224x224_S_d0_1_2_3 : S8x3x224x224.ReducesTo [0, 1, 2, 3] S_
  bcast_S_S1005 : S_.BroadcastsInDim S1005 (![] : Fin 0 → Fin S1005.rank)
  reducesTo_S1005_S_d0 : S1005.ReducesTo [0] S_

variable [Facts]

def fn_part1 {F : FTy → Type} [FloatOps F] (main_arg4 : FVec F S1005 .f32) (main_arg5 : FVec F S1005 .f32) (main_v13 : IVec S_ 1) (main_v16 : IVec S8x3x224x224 1) : IVec S_ 1 :=
  let main_c_5 : IVec S_ 1 := constantI S_ 1 1#1
  let main_v17 : IVec S_ 1 := (fun x v => Host.reduce IntOp.andi x v reducesTo_S8x3x224x224_S_d0_1_2_3 h_S_) main_v16 main_c_5
  let main_v18 : IVec S_ 1 := andi main_v13 main_v17
  let main_v19 : FVec F S1005 .f32 := Host.absf main_arg4
  let main_cst_6 : FVec F S_ .f32 := constant S_ .f32 0x7F800000#32
  let main_v20 : FVec F S1005 .f32 := broadcastInDim S1005 ![] bcast_S_S1005 main_cst_6
  let main_v21 : IVec S1005 1 := cmpf .olt main_v19 main_v20
  let main_c_7 : IVec S_ 1 := constantI S_ 1 1#1
  let main_v22 : IVec S_ 1 := (fun x v => Host.reduce IntOp.andi x v reducesTo_S1005_S_d0 h_S_) main_v21 main_c_7
  let main_v23 : IVec S_ 1 := andi main_v18 main_v22
  let main_v24 : FVec F S1005 .f32 := Host.absf main_arg5
  let main_cst_8 : FVec F S_ .f32 := constant S_ .f32 0x7F800000#32
  let main_v25 : FVec F S1005 .f32 := broadcastInDim S1005 ![] bcast_S_S1005 main_cst_8
  let main_v26 : IVec S1005 1 := cmpf .olt main_v24 main_v25
  let main_c_9 : IVec S_ 1 := constantI S_ 1 1#1
  let main_v27 : IVec S_ 1 := (fun x v => Host.reduce IntOp.andi x v reducesTo_S1005_S_d0 h_S_) main_v26 main_c_9
  let main_v28 : IVec S_ 1 := andi main_v23 main_v27
  main_v28

def fn {F : FTy → Type} [FloatOps F] (main_arg0 : FVec F S8x32x3x224x224 .f32) (main_arg1 : FVec F S8x32x3x224x224 .f32) (main_arg2 : FVec F S8x3x224x224 .f32) (main_arg3 : FVec F S8x3x224x224 .f32) (main_arg4 : FVec F S1005 .f32) (main_arg5 : FVec F S1005 .f32) : IVec S_ 1 :=
  let main_v0 : FVec F S8x32x3x224x224 .f32 := Host.absf main_arg0
  let main_cst : FVec F S_ .f32 := constant S_ .f32 0x7F800000#32
  let main_v1 : FVec F S8x32x3x224x224 .f32 := broadcastInDim S8x32x3x224x224 ![] bcast_S_S8x32x3x224x224 main_cst
  let main_v2 : IVec S8x32x3x224x224 1 := cmpf .olt main_v0 main_v1
  let main_c : IVec S_ 1 := constantI S_ 1 1#1
  let main_v3 : IVec S_ 1 := (fun x v => Host.reduce IntOp.andi x v reducesTo_S8x32x3x224x224_S_d0_1_2_3_4 h_S_) main_v2 main_c
  let main_v4 : FVec F S8x32x3x224x224 .f32 := Host.absf main_arg1
  let main_cst_0 : FVec F S_ .f32 := constant S_ .f32 0x7F800000#32
  let main_v5 : FVec F S8x32x3x224x224 .f32 := broadcastInDim S8x32x3x224x224 ![] bcast_S_S8x32x3x224x224 main_cst_0
  let main_v6 : IVec S8x32x3x224x224 1 := cmpf .olt main_v4 main_v5
  let main_c_1 : IVec S_ 1 := constantI S_ 1 1#1
  let main_v7 : IVec S_ 1 := (fun x v => Host.reduce IntOp.andi x v reducesTo_S8x32x3x224x224_S_d0_1_2_3_4 h_S_) main_v6 main_c_1
  let main_v8 : IVec S_ 1 := andi main_v3 main_v7
  let main_v9 : FVec F S8x3x224x224 .f32 := Host.absf main_arg2
  let main_cst_2 : FVec F S_ .f32 := constant S_ .f32 0x7F800000#32
  let main_v10 : FVec F S8x3x224x224 .f32 := broadcastInDim S8x3x224x224 ![] bcast_S_S8x3x224x224 main_cst_2
  let main_v11 : IVec S8x3x224x224 1 := cmpf .olt main_v9 main_v10
  let main_c_3 : IVec S_ 1 := constantI S_ 1 1#1
  let main_v12 : IVec S_ 1 := (fun x v => Host.reduce IntOp.andi x v reducesTo_S8x3x224x224_S_d0_1_2_3 h_S_) main_v11 main_c_3
  let main_v13 : IVec S_ 1 := andi main_v8 main_v12
  let main_v14 : FVec F S8x3x224x224 .f32 := Host.absf main_arg3
  let main_cst_4 : FVec F S_ .f32 := constant S_ .f32 0x7F800000#32
  let main_v15 : FVec F S8x3x224x224 .f32 := broadcastInDim S8x3x224x224 ![] bcast_S_S8x3x224x224 main_cst_4
  let main_v16 : IVec S8x3x224x224 1 := cmpf .olt main_v14 main_v15
  fn_part1 (F := F) main_arg4 main_arg5 main_v13 main_v16
-- ==== Kernel.lean ====
abbrev S8x32x3x224x224 : Shape := ⟨5, ![8, 32, 3, 224, 224]⟩
abbrev S8x3x224x224 : Shape := ⟨4, ![8, 3, 224, 224]⟩
abbrev S1005 : Shape := ⟨1, ![1005]⟩
abbrev S_ : Shape := ⟨0, ![]⟩
abbrev S8x3x224x224x1 : Shape := ⟨5, ![8, 3, 224, 224, 1]⟩
abbrev S8x32x3x50176 : Shape := ⟨4, ![8, 32, 3, 50176]⟩
abbrev S8x3x50176 : Shape := ⟨3, ![8, 3, 50176]⟩
abbrev S8x1x32 : Shape := ⟨3, ![8, 1, 32]⟩
abbrev S1x32x3x6272 : Shape := ⟨4, ![1, 32, 3, 6272]⟩
abbrev S1x3x6272 : Shape := ⟨3, ![1, 3, 6272]⟩
abbrev S1x1x32 : Shape := ⟨3, ![1, 1, 32]⟩
abbrev S1x32 : Shape := ⟨2, ![1, 32]⟩
abbrev S32x3x6272 : Shape := ⟨3, ![32, 3, 6272]⟩
abbrev S3x6272 : Shape := ⟨2, ![3, 6272]⟩
abbrev S32x3 : Shape := ⟨2, ![32, 3]⟩
abbrev S32 : Shape := ⟨1, ![32]⟩
abbrev S8x32 : Shape := ⟨2, ![8, 32]⟩

abbrev nBuf : Space → Nat
  | .hbm => 195
  | .vmem => 22
  | .smem => 0
  | _ => 0

abbrev hbmTy0_0 (i : Nat) : BufTy := match i % 128 with
  | 0 => ⟨S8x32x3x224x224, .f32⟩
  | 1 => ⟨S8x32x3x224x224, .f32⟩
  | 2 => ⟨S8x3x224x224, .f32⟩
  | 3 => ⟨S8x3x224x224, .f32⟩
  | 4 => ⟨S1005, .f32⟩
  | 5 => ⟨S1005, .f32⟩
  | 6 => ⟨S8x3x224x224, .f32⟩
  | 7 => ⟨S_, .f32⟩
  | 8 => ⟨S8x3x224x224, .f32⟩
  | 9 => ⟨S8x3x224x224, .i1⟩
  | 10 => ⟨S8x3x224x224, .f32⟩
  | 11 => ⟨S_, .f32⟩
  | 12 => ⟨S8x3x224x224, .f32⟩
  | 13 => ⟨S8x3x224x224, .i1⟩
  | 14 => ⟨S8x3x224x224, .f32⟩
  | 15 => ⟨S_, .f32⟩
  | 16 => ⟨S8x3x224x224, .f32⟩
  | 17 => ⟨S8x3x224x224, .f32⟩
  | 18 => ⟨S8x3x224x224, .f32⟩
  | 19 => ⟨S8x3x224x224, .f32⟩
  | 20 => ⟨S_, .f32⟩
  | 21 => ⟨S8x3x224x224, .f32⟩
  | 22 => ⟨S8x3x224x224, .f32⟩
  | 23 => ⟨S8x3x224x224, .f32⟩
  | 24 => ⟨S8x3x224x224, .f32⟩
  | 25 => ⟨S_, .f32⟩
  | 26 => ⟨S8x3x224x224, .f32⟩
  | 27 => ⟨S8x3x224x224, .f32⟩
  | 28 => ⟨S_, .f32⟩
  | 29 => ⟨S8x3x224x224, .f32⟩
  | 30 => ⟨S8x3x224x224, .f32⟩
  | 31 => ⟨S8x3x224x224, .f32⟩
  | 32 => ⟨S8x3x224x224, .f32⟩
  | 33 => ⟨S_, .f32⟩
  | 34 => ⟨S8x3x224x224, .f32⟩
  | 35 => ⟨S8x3x224x224, .f32⟩
  | 36 => ⟨S_, .f32⟩
  | 37 => ⟨S8x3x224x224, .f32⟩
  | 38 => ⟨S8x3x224x224, .f32⟩
  | 39 => ⟨S8x3x224x224, .f32⟩
  | 40 => ⟨S8x3x224x224, .f32⟩
  | 41 => ⟨S_, .f32⟩
  | 42 => ⟨S8x3x224x224, .f32⟩
  | 43 => ⟨S8x3x224x224, .f32⟩
  | 44 => ⟨S_, .f32⟩
  | 45 => ⟨S8x3x224x224, .f32⟩
  | 46 => ⟨S8x3x224x224, .f32⟩
  | 47 => ⟨S8x3x224x224, .f32⟩
  | 48 => ⟨S8x3x224x224, .f32⟩
  | 49 => ⟨S_, .f32⟩
  | 50 => ⟨S8x3x224x224, .f32⟩
  | 51 => ⟨S8x3x224x224, .f32⟩
  | 52 => ⟨S_, .f32⟩
  | 53 => ⟨S8x3x224x224, .f32⟩
  | 54 => ⟨S8x3x224x224, .f32⟩
  | 55 => ⟨S8x3x224x224, .f32⟩
  | 56 => ⟨S8x3x224x224, .f32⟩
  | 57 => ⟨S_, .f32⟩
  | 58 => ⟨S8x3x224x224, .f32⟩
  | 59 => ⟨S8x3x224x224, .f32⟩
  | 60 => ⟨S_, .f32⟩
  | 61 => ⟨S8x3x224x224, .f32⟩
  | 62 => ⟨S8x3x224x224, .f32⟩
  | 63 => ⟨S_, .f32⟩
  | 64 => ⟨S8x3x224x224, .f32⟩
  | 65 => ⟨S8x3x224x224, .f32⟩
  | 66 => ⟨S8x3x224x224, .f32⟩
  | 67 => ⟨S8x3x224x224, .f32⟩
  | 68 => ⟨S8x3x224x224, .f32⟩
  | 69 => ⟨S8x3x224x224, .f32⟩
  | 70 => ⟨S8x3x224x224, .f32⟩
  | 71 => ⟨S8x3x224x224, .f32⟩
  | 72 => ⟨S8x3x224x224, .f32⟩
  | 73 => ⟨S8x3x224x224, .f32⟩
  | 74 => ⟨S8x3x224x224, .f32⟩
  | 75 => ⟨S8x3x224x224, .f32⟩
  | 76 => ⟨S8x3x224x224, .f32⟩
  | 77 => ⟨S8x3x224x224, .f32⟩
  | 78 => ⟨S8x3x224x224, .f32⟩
  | 79 => ⟨S_, .f32⟩
  | 80 => ⟨S8x3x224x224, .f32⟩
  | 81 => ⟨S8x3x224x224, .f32⟩
  | 82 => ⟨S8x3x224x224, .f32⟩
  | 83 => ⟨S8x3x224x224, .f32⟩
  | 84 => ⟨S8x3x224x224, .f32⟩
  | 85 => ⟨S8x3x224x224, .f32⟩
  | 86 => ⟨S8x3x224x224, .f32⟩
  | 87 => ⟨S8x3x224x224, .f32⟩
  | 88 => ⟨S8x3x224x224, .f32⟩
  | 89 => ⟨S8x3x224x224, .f32⟩
  | 90 => ⟨S8x3x224x224, .f32⟩
  | 91 => ⟨S8x3x224x224, .f32⟩
  | 92 => ⟨S8x3x224x224, .f32⟩
  | 93 => ⟨S8x3x224x224, .f32⟩
  | 94 => ⟨S8x3x224x224, .f32⟩
  | 95 => ⟨S8x3x224x224, .f32⟩
  | 96 => ⟨S8x3x224x224, .f32⟩
  | 97 => ⟨S_, .f32⟩
  | 98 => ⟨S8x3x224x224, .f32⟩
  | 99 => ⟨S8x3x224x224, .f32⟩
  | 100 => ⟨S8x3x224x224, .i32⟩
  | 101 => ⟨S_, .i32⟩
  | 102 => ⟨S_, .i32⟩
  | 103 => ⟨S_, .i32⟩
  | 104 => ⟨S8x3x224x224, .i32⟩
  | 105 => ⟨S8x3x224x224, .i32⟩
  | 106 => ⟨S_, .i32⟩
  | 107 => ⟨S8x3x224x224, .i32⟩
  | 108 => ⟨S8x3x224x224, .i32⟩
  | 109 => ⟨S_, .i32⟩
  | 110 => ⟨S8x3x224x224, .i32⟩
  | 111 => ⟨S8x3x224x224, .i1⟩
  | 112 => ⟨S_, .i32⟩
  | 113 => ⟨S8x3x224x224, .i32⟩
  | 114 => ⟨S8x3x224x224, .i32⟩
  | 115 => ⟨S8x3x224x224, .i32⟩
  | 116 => ⟨S8x3x224x224x1, .i32⟩
  | 117 => ⟨S8x3x224x224, .f32⟩
  | 118 => ⟨S8x3x224x224, .f32⟩
  | 119 => ⟨S8x3x224x224, .f32⟩
  | 120 => ⟨S_, .f32⟩
  | 121 => ⟨S8x3x224x224, .f32⟩
  | 122 => ⟨S8x3x224x224, .f32⟩
  | 123 => ⟨S_, .f32⟩
  | 124 => ⟨S8x3x224x224, .f32⟩
  | 125 => ⟨S8x3x224x224, .f32⟩
  | 126 => ⟨S8x3x224x224, .f32⟩
  | 127 => ⟨S8x3x224x224, .f32⟩
  | _ => ⟨S8x32x3x224x224, .f32⟩

abbrev hbmTy0_1 (i : Nat) : BufTy := match i % 128 with
  | 0 => ⟨S_, .f32⟩
  | 1 => ⟨S8x3x224x224, .f32⟩
  | 2 => ⟨S8x3x224x224, .f32⟩
  | 3 => ⟨S8x3x224x224, .f32⟩
  | 4 => ⟨S8x3x224x224, .f32⟩
  | 5 => ⟨S8x3x224x224, .f32⟩
  | 6 => ⟨S8x3x224x224, .f32⟩
  | 7 => ⟨S8x3x224x224, .f32⟩
  | 8 => ⟨S8x3x224x224, .f32⟩
  | 9 => ⟨S8x3x224x224, .f32⟩
  | 10 => ⟨S8x3x224x224, .f32⟩
  | 11 => ⟨S_, .f32⟩
  | 12 => ⟨S8x3x224x224, .f32⟩
  | 13 => ⟨S8x3x224x224, .f32⟩
  | 14 => ⟨S8x3x224x224, .i32⟩
  | 15 => ⟨S_, .i32⟩
  | 16 => ⟨S_, .i32⟩
  | 17 => ⟨S_, .i32⟩
  | 18 => ⟨S8x3x224x224, .i32⟩
  | 19 => ⟨S8x3x224x224, .i32⟩
  | 20 => ⟨S_, .i32⟩
  | 21 => ⟨S8x3x224x224, .i32⟩
  | 22 => ⟨S8x3x224x224, .i32⟩
  | 23 => ⟨S_, .i32⟩
  | 24 => ⟨S8x3x224x224, .i32⟩
  | 25 => ⟨S8x3x224x224, .i1⟩
  | 26 => ⟨S_, .i32⟩
  | 27 => ⟨S8x3x224x224, .i32⟩
  | 28 => ⟨S8x3x224x224, .i32⟩
  | 29 => ⟨S8x3x224x224, .i32⟩
  | 30 => ⟨S8x3x224x224x1, .i32⟩
  | 31 => ⟨S8x3x224x224, .f32⟩
  | 32 => ⟨S8x3x224x224, .f32⟩
  | 33 => ⟨S8x3x224x224, .f32⟩
  | 34 => ⟨S_, .f32⟩
  | 35 => ⟨S8x3x224x224, .f32⟩
  | 36 => ⟨S8x3x224x224, .f32⟩
  | 37 => ⟨S_, .f32⟩
  | 38 => ⟨S8x3x224x224, .f32⟩
  | 39 => ⟨S8x3x224x224, .f32⟩
  | 40 => ⟨S8x3x224x224, .f32⟩
  | 41 => ⟨S8x3x224x224, .f32⟩
  | 42 => ⟨S_, .f32⟩
  | 43 => ⟨S8x3x224x224, .f32⟩
  | 44 => ⟨S8x3x224x224, .f32⟩
  | 45 => ⟨S8x3x224x224, .f32⟩
  | 46 => ⟨S8x3x224x224, .f32⟩
  | 47 => ⟨S8x3x224x224, .f32⟩
  | 48 => ⟨S8x3x224x224, .f32⟩
  | 49 => ⟨S8x3x224x224, .f32⟩
  | 50 => ⟨S8x3x224x224, .f32⟩
  | 51 => ⟨S8x3x224x224, .f32⟩
  | 52 => ⟨S8x3x224x224, .f32⟩
  | 53 => ⟨S8x32x3x50176, .f32⟩
  | 54 => ⟨S8x32x3x50176, .f32⟩
  | 55 => ⟨S8x3x50176, .f32⟩
  | 56 => ⟨S8x3x50176, .f32⟩
  | 57 => ⟨S8x3x50176, .f32⟩
  | 58 => ⟨S8x3x50176, .f32⟩
  | 59 => ⟨S8x32x3x50176, .f32⟩
  | 60 => ⟨S8x32x3x50176, .f32⟩
  | 61 => ⟨S8x1x32, .f32⟩
  | 62 => ⟨S8x1x32, .f32⟩
  | 63 => ⟨S8x32x3x224x224, .f32⟩
  | 64 => ⟨S8x32x3x224x224, .f32⟩
  | 65 => ⟨S8x32, .f32⟩
  | 66 => ⟨S8x32, .f32⟩
  | _ => ⟨S8x32x3x224x224, .f32⟩

abbrev hbmTy (i : Nat) : BufTy := match i / 128 with
  | 0 => hbmTy0_0 i
  | 1 => hbmTy0_1 i
  | _ => ⟨S8x32x3x224x224, .f32⟩

abbrev bufTy : (tb : Table) → Fin (tcTables nBuf tb) → BufTy
  | .hbm, ⟨i, _⟩ => hbmTy i
  | .local _ .vmem, ⟨0, _⟩ => ⟨S1x32x3x6272, .f32⟩
  | .local _ .vmem, ⟨1, _⟩ => ⟨S1x32x3x6272, .f32⟩
  | .local _ .vmem, ⟨2, _⟩ => ⟨S1x32x3x6272, .f32⟩
  | .local _ .vmem, ⟨3, _⟩ => ⟨S1x32x3x6272, .f32⟩
  | .local _ .vmem, ⟨4, _⟩ => ⟨S1x3x6272, .f32⟩
  | .local _ .vmem, ⟨5, _⟩ => ⟨S1x3x6272, .f32⟩
  | .local _ .vmem, ⟨6, _⟩ => ⟨S1x3x6272, .f32⟩
  | .local _ .vmem, ⟨7, _⟩ => ⟨S1x3x6272, .f32⟩
  | .local _ .vmem, ⟨8, _⟩ => ⟨S1x3x6272, .f32⟩
  | .local _ .vmem, ⟨9, _⟩ => ⟨S1x3x6272, .f32⟩
  | .local _ .vmem, ⟨10, _⟩ => ⟨S1x3x6272, .f32⟩
  | .local _ .vmem, ⟨11, _⟩ => ⟨S1x3x6272, .f32⟩
  | .local _ .vmem, ⟨12, _⟩ => ⟨S1x32x3x6272, .f32⟩
  | .local _ .vmem, ⟨13, _⟩ => ⟨S1x32x3x6272, .f32⟩
  | .local _ .vmem, ⟨14, _⟩ => ⟨S1x32x3x6272, .f32⟩
  | .local _ .vmem, ⟨15, _⟩ => ⟨S1x32x3x6272, .f32⟩
  | .local _ .vmem, ⟨16, _⟩ => ⟨S1x1x32, .f32⟩
  | .local _ .vmem, ⟨17, _⟩ => ⟨S1x1x32, .f32⟩
  | .local _ .vmem, ⟨18, _⟩ => ⟨S1x1x32, .f32⟩
  | .local _ .vmem, ⟨19, _⟩ => ⟨S1x1x32, .f32⟩
  | .local _ .vmem, ⟨20, _⟩ => ⟨S1x32, .f32⟩
  | .local _ .vmem, ⟨21, _⟩ => ⟨S1x32, .f32⟩
  | _, _ => ⟨S8x32x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_cst_8 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_9 : Ref sig .tc := ⟨.hbm, 49, rfl⟩
abbrev main_v33 : Ref sig .tc := ⟨.hbm, 50, rfl⟩
abbrev main_v34 : Ref sig .tc := ⟨.hbm, 51, rfl⟩
abbrev main_cst_10 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_11 : Ref sig .tc := ⟨.hbm, 57, rfl⟩
abbrev main_v39 : Ref sig .tc := ⟨.hbm, 58, rfl⟩
abbrev main_v40 : Ref sig .tc := ⟨.hbm, 59, rfl⟩
abbrev main_cst_12 : Ref sig .tc := ⟨.hbm, 60, rfl⟩
abbrev main_v41 : Ref sig .tc := ⟨.hbm, 61, rfl⟩
abbrev main_v42 : Ref sig .tc := ⟨.hbm, 62, rfl⟩
abbrev main_cst_13 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_14 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_cst_15 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_c : Ref sig .tc := ⟨.hbm, 101, rfl⟩
abbrev main_c_16 : Ref sig .tc := ⟨.hbm, 102, rfl⟩
abbrev main_call0_v0 : Ref sig .tc := ⟨.hbm, 103, rfl⟩
abbrev main_call0_v1 : Ref sig .tc := ⟨.hbm, 104, rfl⟩
abbrev main_call0_v2 : Ref sig .tc := ⟨.hbm, 105, rfl⟩
abbrev main_call0_v3 : Ref sig .tc := ⟨.hbm, 106, rfl⟩
abbrev main_call0_v4 : Ref sig .tc := ⟨.hbm, 107, rfl⟩
abbrev main_v78 : Ref sig .tc := ⟨.hbm, 108, rfl⟩
abbrev main_c_17 : Ref sig .tc := ⟨.hbm, 109, rfl⟩
abbrev main_v79 : Ref sig .tc := ⟨.hbm, 110, rfl⟩
abbrev main_v80 : Ref sig .tc := ⟨.hbm, 111, rfl⟩
abbrev main_c_18 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_19 : Ref sig .tc := ⟨.hbm, 120, rfl⟩
abbrev main_v88 : Ref sig .tc := ⟨.hbm, 121, rfl⟩
abbrev main_v89 : Ref sig .tc := ⟨.hbm, 122, rfl⟩
abbrev main_cst_20 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_cst_21 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_cst_22 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_c_23 : Ref sig .tc := ⟨.hbm, 143, rfl⟩
abbrev main_c_24 : Ref sig .tc := ⟨.hbm, 144, rfl⟩
abbrev main_call1_v0 : Ref sig .tc := ⟨.hbm, 145, rfl⟩
abbrev main_call1_v1 : Ref sig .tc := ⟨.hbm, 146, rfl⟩
abbrev main_call1_v2 : Ref sig .tc := ⟨.hbm, 147, rfl⟩
abbrev main_call1_v3 : Ref sig .tc := ⟨.hbm, 148, rfl⟩
abbrev main_call1_v4 : Ref sig .tc := ⟨.hbm, 149, rfl⟩
abbrev main_v107 : Ref sig .tc := ⟨.hbm, 150, rfl⟩
abbrev main_c_25 : Ref sig .tc := ⟨.hbm, 151, rfl⟩
abbrev main_v108 : Ref sig .tc := ⟨.hbm, 152, rfl⟩
abbrev main_v109 : Ref sig .tc := ⟨.hbm, 153, rfl⟩
abbrev main_c_26 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_cst_27 : Ref sig .tc := ⟨.hbm, 162, rfl⟩
abbrev main_v117 : Ref sig .tc := ⟨.hbm, 163, rfl⟩
abbrev main_v118 : Ref sig .tc := ⟨.hbm, 164, rfl⟩
abbrev main_cst_28 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_cst_29 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139_0 : Ref sig .tc := ⟨.hbm, 187, rfl⟩
abbrev main_v139_1 : Ref sig .tc := ⟨.hbm, 188, rfl⟩
abbrev main_v139_2 : Ref sig .tc := ⟨.hbm, 189, rfl⟩
abbrev main_v139_3 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v69 : BitVec 1 := Scalar.cmpi .eq arg1 c7_i32
  let v70 : BitVec 32 := Scalar.extui v69
  let c0_i32_41 : BitVec 32 := 0#32
  let v71 : BitVec 1 := Scalar.cmpi .ne v70 c0_i32_41
  v71

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x3x6272 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x3x6272 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x6272 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x6272 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3x6272 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x3x6272 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x32x3x6272 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x3x6272 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

class Facts₀ : Prop where
  bcast_S_S8x3x224x224 : S_.BroadcastsInDim S8x3x224x224 (![] : Fin 0 → Fin S8x3x224x224.rank)
  bcast_S8x3x224x224_S8x3x224x224x1_0_1_2_3 : S8x3x224x224.BroadcastsInDim S8x3x224x224x1 (![0, 1, 2, 3] : Fin 4 → Fin S8x3x224x224x1.rank)
  shapeCasts_S8x32x3x224x224_S8x32x3x50176 : S8x32x3x224x224.ShapeCasts S8x32x3x50176
  shapeCasts_S8x3x224x224_S8x3x50176 : S8x3x224x224.ShapeCasts S8x3x50176
  inb_S1x32x3x6272_S1x32x3x6272_0_0_0_0 : ∀ a, (![0, 0, 0, 0] : Fin 4 → Nat) a + S1x32x3x6272.size a ≤ S1x32x3x6272.size a
  h_S1x32x3x6272 : 0 < S1x32x3x6272.numel
  shapeCasts_S1x32x3x6272_S32x3x6272 : S1x32x3x6272.ShapeCasts S32x3x6272
  inb_S1x3x6272_S1x3x6272_0_0_0 : ∀ a, (![0, 0, 0] : Fin 3 → Nat) a + S1x3x6272.size a ≤ S1x3x6272.size a
  h_S1x3x6272 : 0 < S1x3x6272.numel
  shapeCasts_S1x3x6272_S3x6272 : S1x3x6272.ShapeCasts S3x6272
  shapeCasts_S3x6272_S1x3x6272 : S3x6272.ShapeCasts S1x3x6272
  shapeCasts_S1x3x6272_S1x3x6272 : S1x3x6272.ShapeCasts S1x3x6272
  broadcasts_S1x3x6272_S32x3x6272 : S1x3x6272.Broadcasts S32x3x6272
  shapeCasts_S32x3x6272_S1x32x3x6272 : S32x3x6272.ShapeCasts S1x32x3x6272
  reduces_S32x3x6272_S32x3 : S32x3x6272.Reduces [2] S32x3
  reduces_S32x3_S32 : S32x3.Reduces [1] S32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  shapeCasts_S32_S1x32 : S32.ShapeCasts S1x32
  shapeCasts_S1x32_S32 : S1x32.ShapeCasts S32
  inb_S1x1x32_S1x1x32_0_0_0 : ∀ a, (![0, 0, 0] : Fin 3 → Nat) a + S1x1x32.size a ≤ S1x1x32.size a
  h_S1x1x32 : 0 < S1x1x32.numel
  shapeCasts_S1x1x32_S32 : S1x1x32.ShapeCasts S32
  shapeCasts_S32_S1x1x32 : S32.ShapeCasts S1x1x32
  shapeCasts_S8x32x3x50176_S8x32x3x224x224 : S8x32x3x50176.ShapeCasts S8x32x3x224x224
  shapeCasts_S8x1x32_S8x32 : S8x1x32.ShapeCasts S8x32
  gather_S1005_S8x3x224x224x1_S8x3x224x224_n_0_n_n_0_4_1_wf : GatherDims.WF S1005 S8x3x224x224x1 S8x3x224x224 [] [0] [] [0] [] 4 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x3x6272.size a ≤ S8x32x3x50176.size a
  hwx0_0 : ∀ i : grid0.Coords, EltTy.bits .f32 = 32 ∨ (Rect.block (s := S8x32x3x50176) S1x32x3x6272.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x3x6272.size a ≤ S8x32x3x50176.size a
  hwx0_1 : ∀ i : grid0.Coords, EltTy.bits .f32 = 32 ∨ (Rect.block (s := S8x32x3x50176) S1x32x3x6272.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x6272.size a ≤ S8x3x50176.size a
  hwx0_2 : ∀ i : grid0.Coords, EltTy.bits .f32 = 32 ∨ (Rect.block (s := S8x3x50176) S1x3x6272.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x3x6272.size a ≤ S8x3x50176.size a
  hwx0_3 : ∀ i : grid0.Coords, EltTy.bits .f32 = 32 ∨ (Rect.block (s := S8x3x50176) S1x3x6272.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x3x6272.size a ≤ S8x3x50176.size a
  hwx0_4 : ∀ i : grid0.Coords, EltTy.bits .f32 = 32 ∨ (Rect.block (s := S8x3x50176) S1x3x6272.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x3x6272.size a ≤ S8x3x50176.size a
  hwx0_5 : ∀ i : grid0.Coords, EltTy.bits .f32 = 32 ∨ (Rect.block (s := S8x3x50176) S1x3x6272.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x32x3x6272.size a ≤ S8x32x3x50176.size a
  hwx0_6 : ∀ i : grid0.Coords, EltTy.bits .f32 = 32 ∨ (Rect.block (s := S8x32x3x50176) S1x32x3x6272.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x32x3x6272.size a ≤ S8x32x3x50176.size a
  hwx0_7 : ∀ i : grid0.Coords, EltTy.bits .f32 = 32 ∨ (Rect.block (s := S8x32x3x50176) S1x32x3x6272.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x32.size a ≤ S8x1x32.size a
  hwx0_8 : ∀ i : grid0.Coords, EltTy.bits .f32 = 32 ∨ (Rect.block (s := S8x1x32) S1x1x32.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x32.size a ≤ S8x1x32.size a
  hwx0_9 : ∀ i : grid0.Coords, EltTy.bits .f32 = 32 ∨ (Rect.block (s := S8x1x32) S1x1x32.size (cc0_transform_9 i) (hinb0_9 i)).WholeWords (EltTy.packing .f32)

variable [Facts₀]

def gather_S1005_S8x3x224x224x1_S8x3x224x224_n_0_n_n_0_4_1 : GatherDims S1005 S8x3x224x224x1 S8x3x224x224 where
  offsetDims := []
  collapsedSliceDims := [0]
  operandBatchingDims := []
  startIndicesBatchingDims := []
  startIndexMap := [0]
  indexVectorDim := 4
  sliceSizes := ![1]
  wf := gather_S1005_S8x3x224x224x1_S8x3x224x224_n_0_n_n_0_4_1_wf

abbrev win0_0 : Pipeline.Window sig grid0 :=
  Pipeline.Window.ofSpec (Memref.whole main_v133) S1x32x3x6272.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v134) S1x32x3x6272.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v135) S1x3x6272.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v136) S1x3x6272.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v137) S1x3x6272.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v138) S1x3x6272.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v139_0) S1x32x3x6272.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v139_1) S1x32x3x6272.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v139_2) S1x1x32.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v139_3) S1x1x32.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | 9 => fun i => !(k0_cond2 i == 1#1) | ⟨_ + 10, h⟩ => absurd h (Nat.not_lt.2 (Nat.le_add_left _ _))

class Facts : Prop extends Facts₀ where

variable [Facts]
-- ==== ReferenceIdeal.lean ====
abbrev S8x32x3x224x224 : Shape := ⟨5, ![8, 32, 3, 224, 224]⟩
abbrev S8x3x224x224 : Shape := ⟨4, ![8, 3, 224, 224]⟩
abbrev S1005 : Shape := ⟨1, ![1005]⟩
abbrev S_ : Shape := ⟨0, ![]⟩
abbrev S8x3x224x224x1 : Shape := ⟨5, ![8, 3, 224, 224, 1]⟩
abbrev S8x1x3x224x224 : Shape := ⟨5, ![8, 1, 3, 224, 224]⟩
abbrev S8x32x150528 : Shape := ⟨3, ![8, 32, 150528]⟩
abbrev S8x32 : Shape := ⟨2, ![8, 32]⟩

abbrev nBuf : Space → Nat
  | .hbm => 235
  | .vmem => 0
  | .smem => 0
  | _ => 0

abbrev hbmTy0_0 (i : Nat) : BufTy := match i % 128 with
  | 0 => ⟨S8x32x3x224x224, .f32⟩
  | 1 => ⟨S8x32x3x224x224, .f32⟩
  | 2 => ⟨S8x3x224x224, .f32⟩
  | 3 => ⟨S8x3x224x224, .f32⟩
  | 4 => ⟨S1005, .f32⟩
  | 5 => ⟨S1005, .f32⟩
  | 6 => ⟨S8x3x224x224, .f32⟩
  | 7 => ⟨S_, .f32⟩
  | 8 => ⟨S8x3x224x224, .f32⟩
  | 9 => ⟨S8x3x224x224, .i1⟩
  | 10 => ⟨S8x3x224x224, .f32⟩
  | 11 => ⟨S_, .f32⟩
  | 12 => ⟨S8x3x224x224, .f32⟩
  | 13 => ⟨S8x3x224x224, .i1⟩
  | 14 => ⟨S8x3x224x224, .f32⟩
  | 15 => ⟨S_, .f32⟩
  | 16 => ⟨S8x3x224x224, .f32⟩
  | 17 => ⟨S8x3x224x224, .f32⟩
  | 18 => ⟨S8x3x224x224, .f32⟩
  | 19 => ⟨S8x3x224x224, .f32⟩
  | 20 => ⟨S_, .f32⟩
  | 21 => ⟨S8x3x224x224, .f32⟩
  | 22 => ⟨S8x3x224x224, .f32⟩
  | 23 => ⟨S8x3x224x224, .f32⟩
  | 24 => ⟨S8x3x224x224, .f32⟩
  | 25 => ⟨S_, .f32⟩
  | 26 => ⟨S8x3x224x224, .f32⟩
  | 27 => ⟨S8x3x224x224, .f32⟩
  | 28 => ⟨S_, .f32⟩
  | 29 => ⟨S8x3x224x224, .f32⟩
  | 30 => ⟨S8x3x224x224, .f32⟩
  | 31 => ⟨S8x3x224x224, .f32⟩
  | 32 => ⟨S8x3x224x224, .f32⟩
  | 33 => ⟨S_, .f32⟩
  | 34 => ⟨S8x3x224x224, .f32⟩
  | 35 => ⟨S8x3x224x224, .f32⟩
  | 36 => ⟨S_, .f32⟩
  | 37 => ⟨S8x3x224x224, .f32⟩
  | 38 => ⟨S8x3x224x224, .f32⟩
  | 39 => ⟨S8x3x224x224, .f32⟩
  | 40 => ⟨S8x3x224x224, .f32⟩
  | 41 => ⟨S_, .f32⟩
  | 42 => ⟨S8x3x224x224, .f32⟩
  | 43 => ⟨S8x3x224x224, .f32⟩
  | 44 => ⟨S_, .f32⟩
  | 45 => ⟨S8x3x224x224, .f32⟩
  | 46 => ⟨S8x3x224x224, .f32⟩
  | 47 => ⟨S8x3x224x224, .f32⟩
  | 48 => ⟨S8x3x224x224, .f32⟩
  | 49 => ⟨S_, .f32⟩
  | 50 => ⟨S8x3x224x224, .f32⟩
  | 51 => ⟨S8x3x224x224, .f32⟩
  | 52 => ⟨S_, .f32⟩
  | 53 => ⟨S8x3x224x224, .f32⟩
  | 54 => ⟨S8x3x224x224, .f32⟩
  | 55 => ⟨S8x3x224x224, .f32⟩
  | 56 => ⟨S8x3x224x224, .f32⟩
  | 57 => ⟨S_, .f32⟩
  | 58 => ⟨S8x3x224x224, .f32⟩
  | 59 => ⟨S8x3x224x224, .f32⟩
  | 60 => ⟨S_, .f32⟩
  | 61 => ⟨S8x3x224x224, .f32⟩
  | 62 => ⟨S8x3x224x224, .f32⟩
  | 63 => ⟨S_, .f32⟩
  | 64 => ⟨S8x3x224x224, .f32⟩
  | 65 => ⟨S8x3x224x224, .f32⟩
  | 66 => ⟨S8x3x224x224, .f32⟩
  | 67 => ⟨S8x3x224x224, .f32⟩
  | 68 => ⟨S8x3x224x224, .f32⟩
  | 69 => ⟨S8x3x224x224, .f32⟩
  | 70 => ⟨S8x3x224x224, .f32⟩
  | 71 => ⟨S8x3x224x224, .f32⟩
  | 72 => ⟨S8x3x224x224, .f32⟩
  | 73 => ⟨S8x3x224x224, .f32⟩
  | 74 => ⟨S8x3x224x224, .f32⟩
  | 75 => ⟨S8x3x224x224, .f32⟩
  | 76 => ⟨S8x3x224x224, .f32⟩
  | 77 => ⟨S8x3x224x224, .f32⟩
  | 78 => ⟨S8x3x224x224, .f32⟩
  | 79 => ⟨S_, .f32⟩
  | 80 => ⟨S8x3x224x224, .f32⟩
  | 81 => ⟨S8x3x224x224, .f32⟩
  | 82 => ⟨S8x3x224x224, .f32⟩
  | 83 => ⟨S8x3x224x224, .f32⟩
  | 84 => ⟨S8x3x224x224, .f32⟩
  | 85 => ⟨S8x3x224x224, .f32⟩
  | 86 => ⟨S8x3x224x224, .f32⟩
  | 87 => ⟨S8x3x224x224, .f32⟩
  | 88 => ⟨S8x3x224x224, .f32⟩
  | 89 => ⟨S8x3x224x224, .f32⟩
  | 90 => ⟨S8x3x224x224, .f32⟩
  | 91 => ⟨S8x3x224x224, .f32⟩
  | 92 => ⟨S8x3x224x224, .f32⟩
  | 93 => ⟨S8x3x224x224, .f32⟩
  | 94 => ⟨S8x3x224x224, .f32⟩
  | 95 => ⟨S8x3x224x224, .f32⟩
  | 96 => ⟨S8x3x224x224, .f32⟩
  | 97 => ⟨S_, .f32⟩
  | 98 => ⟨S8x3x224x224, .f32⟩
  | 99 => ⟨S8x3x224x224, .f32⟩
  | 100 => ⟨S8x3x224x224, .i32⟩
  | 101 => ⟨S_, .i32⟩
  | 102 => ⟨S_, .i32⟩
  | 103 => ⟨S_, .i32⟩
  | 104 => ⟨S8x3x224x224, .i32⟩
  | 105 => ⟨S8x3x224x224, .i32⟩
  | 106 => ⟨S_, .i32⟩
  | 107 => ⟨S8x3x224x224, .i32⟩
  | 108 => ⟨S8x3x224x224, .i32⟩
  | 109 => ⟨S_, .i32⟩
  | 110 => ⟨S8x3x224x224, .i32⟩
  | 111 => ⟨S8x3x224x224, .i1⟩
  | 112 => ⟨S_, .i32⟩
  | 113 => ⟨S8x3x224x224, .i32⟩
  | 114 => ⟨S8x3x224x224, .i32⟩
  | 115 => ⟨S8x3x224x224, .i32⟩
  | 116 => ⟨S8x3x224x224x1, .i32⟩
  | 117 => ⟨S8x3x224x224, .f32⟩
  | 118 => ⟨S8x3x224x224, .f32⟩
  | 119 => ⟨S8x3x224x224, .f32⟩
  | 120 => ⟨S_, .f32⟩
  | 121 => ⟨S8x3x224x224, .f32⟩
  | 122 => ⟨S8x3x224x224, .f32⟩
  | 123 => ⟨S_, .f32⟩
  | 124 => ⟨S8x3x224x224, .f32⟩
  | 125 => ⟨S8x3x224x224, .f32⟩
  | 126 => ⟨S8x3x224x224, .f32⟩
  | 127 => ⟨S8x3x224x224, .f32⟩
  | _ => ⟨S8x32x3x224x224, .f32⟩

abbrev hbmTy0_1 (i : Nat) : BufTy := match i % 128 with
  | 0 => ⟨S_, .f32⟩
  | 1 => ⟨S8x3x224x224, .f32⟩
  | 2 => ⟨S8x3x224x224, .f32⟩
  | 3 => ⟨S8x3x224x224, .f32⟩
  | 4 => ⟨S8x3x224x224, .f32⟩
  | 5 => ⟨S8x3x224x224, .f32⟩
  | 6 => ⟨S8x3x224x224, .f32⟩
  | 7 => ⟨S8x3x224x224, .f32⟩
  | 8 => ⟨S8x3x224x224, .f32⟩
  | 9 => ⟨S8x3x224x224, .f32⟩
  | 10 => ⟨S8x3x224x224, .f32⟩
  | 11 => ⟨S_, .f32⟩
  | 12 => ⟨S8x3x224x224, .f32⟩
  | 13 => ⟨S8x3x224x224, .f32⟩
  | 14 => ⟨S8x3x224x224, .i32⟩
  | 15 => ⟨S_, .i32⟩
  | 16 => ⟨S_, .i32⟩
  | 17 => ⟨S_, .i32⟩
  | 18 => ⟨S8x3x224x224, .i32⟩
  | 19 => ⟨S8x3x224x224, .i32⟩
  | 20 => ⟨S_, .i32⟩
  | 21 => ⟨S8x3x224x224, .i32⟩
  | 22 => ⟨S8x3x224x224, .i32⟩
  | 23 => ⟨S_, .i32⟩
  | 24 => ⟨S8x3x224x224, .i32⟩
  | 25 => ⟨S8x3x224x224, .i1⟩
  | 26 => ⟨S_, .i32⟩
  | 27 => ⟨S8x3x224x224, .i32⟩
  | 28 => ⟨S8x3x224x224, .i32⟩
  | 29 => ⟨S8x3x224x224, .i32⟩
  | 30 => ⟨S8x3x224x224x1, .i32⟩
  | 31 => ⟨S8x3x224x224, .f32⟩
  | 32 => ⟨S8x3x224x224, .f32⟩
  | 33 => ⟨S8x3x224x224, .f32⟩
  | 34 => ⟨S_, .f32⟩
  | 35 => ⟨S8x3x224x224, .f32⟩
  | 36 => ⟨S8x3x224x224, .f32⟩
  | 37 => ⟨S_, .f32⟩
  | 38 => ⟨S8x3x224x224, .f32⟩
  | 39 => ⟨S8x3x224x224, .f32⟩
  | 40 => ⟨S8x3x224x224, .f32⟩
  | 41 => ⟨S8x3x224x224, .f32⟩
  | 42 => ⟨S_, .f32⟩
  | 43 => ⟨S8x3x224x224, .f32⟩
  | 44 => ⟨S8x3x224x224, .f32⟩
  | 45 => ⟨S8x3x224x224, .f32⟩
  | 46 => ⟨S8x3x224x224, .f32⟩
  | 47 => ⟨S8x3x224x224, .f32⟩
  | 48 => ⟨S8x3x224x224, .f32⟩
  | 49 => ⟨S8x3x224x224, .f32⟩
  | 50 => ⟨S8x3x224x224, .f32⟩
  | 51 => ⟨S8x3x224x224, .f32⟩
  | 52 => ⟨S8x3x224x224, .f32⟩
  | 53 => ⟨S8x1x3x224x224, .f32⟩
  | 54 => ⟨S8x1x3x224x224, .f32⟩
  | 55 => ⟨S8x1x3x224x224, .f32⟩
  | 56 => ⟨S8x1x3x224x224, .f32⟩
  | 57 => ⟨S_, .f32⟩
  | 58 => ⟨S8x32x3x224x224, .f32⟩
  | 59 => ⟨S8x32x3x224x224, .i1⟩
  | 60 => ⟨S8x32x3x224x224, .f32⟩
  | 61 => ⟨S8x32x3x224x224, .f32⟩
  | 62 => ⟨S8x32x3x224x224, .f32⟩
  | 63 => ⟨S_, .f32⟩
  | 64 => ⟨S8x32x3x224x224, .f32⟩
  | 65 => ⟨S8x32x3x224x224, .f32⟩
  | 66 => ⟨S8x32x3x224x224, .f32⟩
  | 67 => ⟨S8x32x3x224x224, .f32⟩
  | 68 => ⟨S8x32x3x224x224, .f32⟩
  | 69 => ⟨S8x32x3x224x224, .f32⟩
  | 70 => ⟨S8x32x3x224x224, .f32⟩
  | 71 => ⟨S8x32x3x224x224, .f32⟩
  | 72 => ⟨S_, .f32⟩
  | 73 => ⟨S8x32x3x224x224, .f32⟩
  | 74 => ⟨S8x32x3x224x224, .f32⟩
  | 75 => ⟨S8x32x3x224x224, .f32⟩
  | 76 => ⟨S8x32x3x224x224, .f32⟩
  | 77 => ⟨S8x32x3x224x224, .f32⟩
  | 78 => ⟨S8x32x3x224x224, .f32⟩
  | 79 => ⟨S8x32x150528, .f32⟩
  | 80 => ⟨S_, .f32⟩
  | 81 => ⟨S8x32, .f32⟩
  | 82 => ⟨S_, .f32⟩
  | 83 => ⟨S8x32x3x224x224, .f32⟩
  | 84 => ⟨S8x32x3x224x224, .i1⟩
  | 85 => ⟨S8x32x3x224x224, .f32⟩
  | 86 => ⟨S8x32x3x224x224, .f32⟩
  | 87 => ⟨S8x32x3x224x224, .f32⟩
  | 88 => ⟨S_, .f32⟩
  | 89 => ⟨S8x32x3x224x224, .f32⟩
  | 90 => ⟨S8x32x3x224x224, .f32⟩
  | 91 => ⟨S8x32x3x224x224, .f32⟩
  | 92 => ⟨S8x32x3x224x224, .f32⟩
  | 93 => ⟨S8x32x3x224x224, .f32⟩
  | 94 => ⟨S8x32x3x224x224, .f32⟩
  | 95 => ⟨S8x32x3x224x224, .f32⟩
  | 96 => ⟨S8x32x3x224x224, .f32⟩
  | 97 => ⟨S_, .f32⟩
  | 98 => ⟨S8x32x3x224x224, .f32⟩
  | 99 => ⟨S8x32x3x224x224, .f32⟩
  | 100 => ⟨S8x32x3x224x224, .f32⟩
  | 101 => ⟨S8x32x3x224x224, .f32⟩
  | 102 => ⟨S8x32x3x224x224, .f32⟩
  | 103 => ⟨S8x32x3x224x224, .f32⟩
  | 104 => ⟨S8x32x150528, .f32⟩
  | 105 => ⟨S_, .f32⟩
  | 106 => ⟨S8x32, .f32⟩
  | _ => ⟨S8x32x3x224x224, .f32⟩

abbrev hbmTy (i : Nat) : BufTy := match i / 128 with
  | 0 => hbmTy0_0 i
  | 1 => hbmTy0_1 i
  | _ => ⟨S8x32x3x224x224, .f32⟩

abbrev bufTy : (tb : Table) → Fin (tcTables nBuf tb) → BufTy
  | .hbm, ⟨i, _⟩ => hbmTy i
  | _, _ => ⟨S8x32x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_cst_8 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_9 : Ref sig .tc := ⟨.hbm, 49, rfl⟩
abbrev main_v33 : Ref sig .tc := ⟨.hbm, 50, rfl⟩
abbrev main_v34 : Ref sig .tc := ⟨.hbm, 51, rfl⟩
abbrev main_cst_10 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_11 : Ref sig .tc := ⟨.hbm, 57, rfl⟩
abbrev main_v39 : Ref sig .tc := ⟨.hbm, 58, rfl⟩
abbrev main_v40 : Ref sig .tc := ⟨.hbm, 59, rfl⟩
abbrev main_cst_12 : Ref sig .tc := ⟨.hbm, 60, rfl⟩
abbrev main_v41 : Ref sig .tc := ⟨.hbm, 61, rfl⟩
abbrev main_v42 : Ref sig .tc := ⟨.hbm, 62, rfl⟩
abbrev main_cst_13 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_14 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_cst_15 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_c : Ref sig .tc := ⟨.hbm, 101, rfl⟩
abbrev main_c_16 : Ref sig .tc := ⟨.hbm, 102, rfl⟩
abbrev main_call0_v0 : Ref sig .tc := ⟨.hbm, 103, rfl⟩
abbrev main_call0_v1 : Ref sig .tc := ⟨.hbm, 104, rfl⟩
abbrev main_call0_v2 : Ref sig .tc := ⟨.hbm, 105, rfl⟩
abbrev main_call0_v3 : Ref sig .tc := ⟨.hbm, 106, rfl⟩
abbrev main_call0_v4 : Ref sig .tc := ⟨.hbm, 107, rfl⟩
abbrev main_v78 : Ref sig .tc := ⟨.hbm, 108, rfl⟩
abbrev main_c_17 : Ref sig .tc := ⟨.hbm, 109, rfl⟩
abbrev main_v79 : Ref sig .tc := ⟨.hbm, 110, rfl⟩
abbrev main_v80 : Ref sig .tc := ⟨.hbm, 111, rfl⟩
abbrev main_c_18 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_19 : Ref sig .tc := ⟨.hbm, 120, rfl⟩
abbrev main_v88 : Ref sig .tc := ⟨.hbm, 121, rfl⟩
abbrev main_v89 : Ref sig .tc := ⟨.hbm, 122, rfl⟩
abbrev main_cst_20 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_cst_21 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_cst_22 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_c_23 : Ref sig .tc := ⟨.hbm, 143, rfl⟩
abbrev main_c_24 : Ref sig .tc := ⟨.hbm, 144, rfl⟩
abbrev main_call1_v0 : Ref sig .tc := ⟨.hbm, 145, rfl⟩
abbrev main_call1_v1 : Ref sig .tc := ⟨.hbm, 146, rfl⟩
abbrev main_call1_v2 : Ref sig .tc := ⟨.hbm, 147, rfl⟩
abbrev main_call1_v3 : Ref sig .tc := ⟨.hbm, 148, rfl⟩
abbrev main_call1_v4 : Ref sig .tc := ⟨.hbm, 149, rfl⟩
abbrev main_v107 : Ref sig .tc := ⟨.hbm, 150, rfl⟩
abbrev main_c_25 : Ref sig .tc := ⟨.hbm, 151, rfl⟩
abbrev main_v108 : Ref sig .tc := ⟨.hbm, 152, rfl⟩
abbrev main_v109 : Ref sig .tc := ⟨.hbm, 153, rfl⟩
abbrev main_c_26 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_cst_27 : Ref sig .tc := ⟨.hbm, 162, rfl⟩
abbrev main_v117 : Ref sig .tc := ⟨.hbm, 163, rfl⟩
abbrev main_v118 : Ref sig .tc := ⟨.hbm, 164, rfl⟩
abbrev main_cst_28 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_cst_29 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_cst_30 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_cst_31 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_cst_32 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_cst_33 : Ref sig .tc := ⟨.hbm, 208, rfl⟩
abbrev main_v157 : Ref sig .tc := ⟨.hbm, 209, rfl⟩
abbrev main_cst_34 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_cst_35 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_cst_36 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_cst_37 : Ref sig .tc := ⟨.hbm, 233, rfl⟩
abbrev main_v178 : Ref sig .tc := ⟨.hbm, 234, rfl⟩

abbrev nD : Nat := 1
abbrev τ : Topo := Topo.v7x

variable {F : FTy → Type} [FloatOps F]

class Facts₀ : Prop where
  bcast_S_S8x3x224x224 : S_.BroadcastsInDim S8x3x224x224 (![] : Fin 0 → Fin S8x3x224x224.rank)
  bcast_S8x3x224x224_S8x3x224x224x1_0_1_2_3 : S8x3x224x224.BroadcastsInDim S8x3x224x224x1 (![0, 1, 2, 3] : Fin 4 → Fin S8x3x224x224x1.rank)
  bcast_S8x3x224x224_S8x1x3x224x224_0_2_3_4 : S8x3x224x224.BroadcastsInDim S8x1x3x224x224 (![0, 2, 3, 4] : Fin 4 → Fin S8x1x3x224x224.rank)
  bcast_S_S8x32x3x224x224 : S_.BroadcastsInDim S8x32x3x224x224 (![] : Fin 0 → Fin S8x32x3x224x224.rank)
  bcast_S8x1x3x224x224_S8x32x3x224x224_0_1_2_3_4 : S8x1x3x224x224.BroadcastsInDim S8x32x3x224x224 (![0, 1, 2, 3, 4] : Fin 5 → Fin S8x32x3x224x224.rank)
  shapeCasts_S8x32x3x224x224_S8x32x150528 : S8x32x3x224x224.ShapeCasts S8x32x150528
  reducesTo_S8x32x150528_S8x32_d2 : S8x32x150528.ReducesTo [2] S8x32
  h_S_ : 0 < S_.numel
  gather_S1005_S8x3x224x224x1_S8x3x224x224_n_0_n_n_0_4_1_wf : GatherDims.WF S1005 S8x3x224x224x1 S8x3x224x224 [] [0] [] [0] [] 4 ![1]

variable [Facts₀]

def gather_S1005_S8x3x224x224x1_S8x3x224x224_n_0_n_n_0_4_1 : GatherDims S1005 S8x3x224x224x1 S8x3x224x224 where
  offsetDims := []
  collapsedSliceDims := [0]
  operandBatchingDims := []
  startIndicesBatchingDims := []
  startIndexMap := [0]
  indexVectorDim := 4
  sliceSizes := ![1]
  wf := gather_S1005_S8x3x224x224x1_S8x3x224x224_n_0_n_n_0_4_1_wf

class Facts : Prop extends Facts₀ where

variable [Facts]
-- ==== Proof.Pieces.lean ====
/-
  What each control case of the kernel body leaves in its outputs' staging buffers and in the two carried
  accumulators, as the body's pure payload terms of the input blocks (and, after the first pixel tile, of the
  accumulators' previous contents).  Stated for any float instance.

  Case A is the first pixel tile of a batch (the accumulators are reset, then added to), case B a middle tile, case C
  the last tile (the accumulators are also copied out to the bias blocks).
-/
import proofs.«158817_j9990093930707_2_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.SL.Sem
open Cert.KernelIdeal Cert.KernelIdeal.Gen

variable {F : FTy → Type} [FloatOps F]
variable (c : Dev nD) (i : grid0.Coords)
  (arg2 : Memref sig .tc .vmem S1x32x3x6272 .f32) (harg2 : arg2.IsWhole)
  (arg3 : Memref sig .tc .vmem S1x32x3x6272 .f32) (harg3 : arg3.IsWhole)
  (arg4 : Memref sig .tc .vmem S1x3x6272 .f32) (harg4 : arg4.IsWhole)
  (arg5 : Memref sig .tc .vmem S1x3x6272 .f32) (harg5 : arg5.IsWhole)
  (arg6 : Memref sig .tc .vmem S1x3x6272 .f32) (harg6 : arg6.IsWhole)
  (arg7 : Memref sig .tc .vmem S1x3x6272 .f32) (harg7 : arg7.IsWhole)
  (arg8 : Memref sig .tc .vmem S1x32x3x6272 .f32) (harg8 : arg8.IsWhole)
  (arg9 : Memref sig .tc .vmem S1x32x3x6272 .f32) (harg9 : arg9.IsWhole)
  (arg10 : Memref sig .tc .vmem S1x1x32 .f32) (harg10 : arg10.IsWhole)
  (arg11 : Memref sig .tc .vmem S1x1x32 .f32) (harg11 : arg11.IsWhole)
  (arg12 : Memref sig .tc .vmem S1x32 .f32) (harg12 : arg12.IsWhole)
  (arg13 : Memref sig .tc .vmem S1x32 .f32) (harg13 : arg13.IsWhole)
  (x0 x1 : Vec F S1x32x3x6272 .f32) (x2 x3 x4 x5 : Vec F S1x3x6272 .f32) (xs0 xs1 : Vec F S1x32 .f32)

/-! ## The zero offsets of the whole-block loads and stores -/

/-- The literal offset vector of a whole-block access of rank four is the constant zero. -/
private theorem hz4 : (![0, 0, 0, 0] : Fin 4 → Nat) = fun _ => 0 := funext fun a => by fin_cases a <;> rfl

/-- The literal offset vector of a whole-block access of rank three is the constant zero. -/
private theorem hz3 : (![0, 0, 0] : Fin 3 → Nat) = fun _ => 0 := funext fun a => by fin_cases a <;> rfl

/-- The literal offset vector of a whole-block access of rank two is the constant zero. -/
private theorem hz2 : (![0, 0] : Fin 2 → Nat) = fun _ => 0 := funext fun a => by fin_cases a <;> rfl

/-! ## The first tile of a batch -/

/-- The lower matrix block: the lower bound matrix's block times the lower weight where it is positive, the upper weight elsewhere. -/
theorem pout0_A_6 (hc0 : cond0_0 i) (hc1 : ¬cond0_1 i) :
    out0_A_6 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 = k0_pay15 (k0_pay10 x0 x2 x4) := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun0_A
  dsimp only
  sl_unfold_words
  rw [View.canon_unit_zero hz4]
  simp only [View.readAt_eq_ld, harg2.read_unread, harg4.read_unread, harg6.read_unread, View.ld_unit_zero (S := S1x32x3x6272) hz4, View.ld_unit_zero (S := S1x3x6272) hz3]

/-- The upper matrix block: the upper bound matrix's block times the upper weight where it is positive, the lower weight elsewhere. -/
theorem pout0_A_7 (hc0 : cond0_0 i) (hc1 : ¬cond0_1 i) :
    out0_A_7 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 = k0_pay16 (k0_pay4 x1) (k0_pay12 x1) (k0_pay13 x4) (k0_pay14 x2) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun0_A
  dsimp only
  sl_unfold_words
  rw [View.canon_unit_zero hz4]
  simp only [View.readAt_eq_ld, harg3.read_unread, harg4.read_unread, harg6.read_unread, View.ld_unit_zero (S := S1x32x3x6272) hz4, View.ld_unit_zero (S := S1x3x6272) hz3]

/-- The lower accumulator: the zero block plus this tile's partial bias sums. -/
theorem psout0_A_0 (hc0 : cond0_0 i) (hc1 : ¬cond0_1 i) :
    sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 = k0_pay19 (k0_pay11 x0 x3 x5) (k0_pay17 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun0_A
  dsimp only
  sl_unfold_words
  rw [View.canon_cons_unit_zero (S := S1x32) hz2, View.readCov_unit_zero (S := S1x32) _ hz2]
  simp only [View.readAt_eq_ld, harg2.read_unread, harg5.read_unread, harg7.read_unread, View.ld_unit_zero (S := S1x32x3x6272) hz4, View.ld_unit_zero (S := S1x3x6272) hz3]

/-- The upper accumulator: the zero block plus this tile's partial bias sums. -/
theorem psout0_A_1 (hc0 : cond0_0 i) (hc1 : ¬cond0_1 i) :
    sout0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 = k0_pay20 (k0_pay4 x1) (k0_pay6 x3) (k0_pay8 x5) (k0_pay12 x1) (k0_pay18 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun0_A
  dsimp only
  sl_unfold_words
  rw [View.canon_cons_unit_zero (S := S1x32) hz2, View.readCov_unit_zero (S := S1x32) _ hz2]
  simp only [View.readAt_eq_ld, harg3.read_unread, harg5.read_unread, harg7.read_unread, View.ld_unit_zero (S := S1x32x3x6272) hz4, View.ld_unit_zero (S := S1x3x6272) hz3]

/-! ## A middle tile -/

/-- The lower matrix block, as at every tile. -/
theorem pout0_B_6 (hc0 : ¬cond0_0 i) (hc1 : ¬cond0_1 i) :
    out0_B_6 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 = k0_pay15 (k0_pay10 x0 x2 x4) := by
  unfold out0_B_6
  rw [View.read_writes_eq_canon _ _ _ (cover0_B_6 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1)]
  unfold kernelRun0_B
  dsimp only
  sl_unfold_words
  rw [View.canon_unit_zero hz4]
  simp only [View.readAt_eq_ld, harg2.read_unread, harg4.read_unread, harg6.read_unread, View.ld_unit_zero (S := S1x32x3x6272) hz4, View.ld_unit_zero (S := S1x3x6272) hz3]

/-- The upper matrix block, as at every tile. -/
theorem pout0_B_7 (hc0 : ¬cond0_0 i) (hc1 : ¬cond0_1 i) :
    out0_B_7 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 = k0_pay16 (k0_pay4 x1) (k0_pay12 x1) (k0_pay13 x4) (k0_pay14 x2) := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1)]
  unfold kernelRun0_B
  dsimp only
  sl_unfold_words
  rw [View.canon_unit_zero hz4]
  simp only [View.readAt_eq_ld, harg3.read_unread, harg4.read_unread, harg6.read_unread, View.ld_unit_zero (S := S1x32x3x6272) hz4, View.ld_unit_zero (S := S1x3x6272) hz3]

/-- The lower accumulator: its previous contents plus this tile's partial bias sums. -/
theorem psout0_B_0 (hc0 : ¬cond0_0 i) (hc1 : ¬cond0_1 i) :
    sout0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 = k0_pay19 (k0_pay11 x0 x3 x5) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1)]
  unfold kernelRun0_B
  dsimp only
  sl_unfold_words
  rw [View.canon_unit_zero hz2]
  simp only [View.readAt_eq_ld, harg2.read_unread, harg5.read_unread, harg7.read_unread, harg12.read_unread, View.ld_unit_zero (S := S1x32x3x6272) hz4, View.ld_unit_zero (S := S1x3x6272) hz3, View.ld_unit_zero (S := S1x32) hz2]

/-- The upper accumulator: its previous contents plus this tile's partial bias sums. -/
theorem psout0_B_1 (hc0 : ¬cond0_0 i) (hc1 : ¬cond0_1 i) :
    sout0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 = k0_pay20 (k0_pay4 x1) (k0_pay6 x3) (k0_pay8 x5) (k0_pay12 x1) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1)]
  unfold kernelRun0_B
  dsimp only
  sl_unfold_words
  rw [View.canon_unit_zero hz2]
  simp only [View.readAt_eq_ld, harg3.read_unread, harg5.read_unread, harg7.read_unread, harg13.read_unread, View.ld_unit_zero (S := S1x32x3x6272) hz4, View.ld_unit_zero (S := S1x3x6272) hz3, View.ld_unit_zero (S := S1x32) hz2]

/-! ## The last tile of a batch -/

/-- The lower matrix block, as at every tile. -/
theorem pout0_C_6 (hc0 : ¬cond0_0 i) (hc1 : cond0_1 i) :
    out0_C_6 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 = k0_pay15 (k0_pay10 x0 x2 x4) := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1)]
  unfold kernelRun0_C
  dsimp only
  sl_unfold_words
  rw [View.canon_unit_zero hz4]
  simp only [View.readAt_eq_ld, harg2.read_unread, harg4.read_unread, harg6.read_unread, View.ld_unit_zero (S := S1x32x3x6272) hz4, View.ld_unit_zero (S := S1x3x6272) hz3]

/-- The upper matrix block, as at every tile. -/
theorem pout0_C_7 (hc0 : ¬cond0_0 i) (hc1 : cond0_1 i) :
    out0_C_7 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 = k0_pay16 (k0_pay4 x1) (k0_pay12 x1) (k0_pay13 x4) (k0_pay14 x2) := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1)]
  unfold kernelRun0_C
  dsimp only
  sl_unfold_words
  rw [View.canon_unit_zero hz4]
  simp only [View.readAt_eq_ld, harg3.read_unread, harg4.read_unread, harg6.read_unread, View.ld_unit_zero (S := S1x32x3x6272) hz4, View.ld_unit_zero (S := S1x3x6272) hz3]

/-- The lower accumulator: its previous contents plus this tile's partial bias sums. -/
theorem psout0_C_0 (hc0 : ¬cond0_0 i) (hc1 : cond0_1 i) :
    sout0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 = k0_pay19 (k0_pay11 x0 x3 x5) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1)]
  unfold kernelRun0_C
  dsimp only
  sl_unfold_words
  rw [View.canon_unit_zero hz2]
  simp only [View.readAt_eq_ld, harg2.read_unread, harg5.read_unread, harg7.read_unread, harg12.read_unread, View.ld_unit_zero (S := S1x32x3x6272) hz4, View.ld_unit_zero (S := S1x3x6272) hz3, View.ld_unit_zero (S := S1x32) hz2]

/-- The upper accumulator: its previous contents plus this tile's partial bias sums. -/
theorem psout0_C_1 (hc0 : ¬cond0_0 i) (hc1 : cond0_1 i) :
    sout0_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 = k0_pay20 (k0_pay4 x1) (k0_pay6 x3) (k0_pay8 x5) (k0_pay12 x1) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1)]
  unfold kernelRun0_C
  dsimp only
  sl_unfold_words
  rw [View.canon_unit_zero hz2]
  simp only [View.readAt_eq_ld, harg3.read_unread, harg5.read_unread, harg7.read_unread, harg13.read_unread, View.ld_unit_zero (S := S1x32x3x6272) hz4, View.ld_unit_zero (S := S1x3x6272) hz3, View.ld_unit_zero (S := S1x32) hz2]

/-- The lower bias block: the lower accumulator after this tile's update, given two leading unit axes. -/
theorem pout0_C_8 (hc0 : ¬cond0_0 i) (hc1 : cond0_1 i) :
    out0_C_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 = k0_pay1 (k0_pay19 (k0_pay11 x0 x3 x5) xs0) := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1)]
  unfold kernelRun0_C
  dsimp only
  sl_unfold_words
  rw [View.canon_unit_zero hz3, View.readCov_unit_zero (S := S1x32) _ hz2]
  simp only [View.readAt_eq_ld, harg2.read_unread, harg5.read_unread, harg7.read_unread, harg12.read_unread, View.ld_unit_zero (S := S1x32x3x6272) hz4, View.ld_unit_zero (S := S1x3x6272) hz3, View.ld_unit_zero (S := S1x32) hz2]

/-- The upper bias block: the upper accumulator after this tile's update, given two leading unit axes. -/
theorem pout0_C_9 (hc0 : ¬cond0_0 i) (hc1 : cond0_1 i) :
    out0_C_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 = k0_pay2 (k0_pay20 (k0_pay4 x1) (k0_pay6 x3) (k0_pay8 x5) (k0_pay12 x1) xs1) := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1)]
  unfold kernelRun0_C
  dsimp only
  sl_unfold_words
  rw [View.canon_unit_zero hz3, View.readCov_unit_zero (S := S1x32) _ hz2]
  simp only [View.readAt_eq_ld, harg3.read_unread, harg5.read_unread, harg7.read_unread, harg13.read_unread, View.ld_unit_zero (S := S1x32x3x6272) hz4, View.ld_unit_zero (S := S1x3x6272) hz3, View.ld_unit_zero (S := S1x32) hz2]

end Cert.KernelIdeal.Pieces

end
-- ==== Proof.Cases.lean ====
/-
  What the outputs' staging buffers and the two carried accumulators hold after each grid point, component by
  component, as the body's payload terms of the point's input blocks (and of the accumulators' contents after the
  point before).  Stated for any float instance.
-/
import proofs.«158817_j9990093930707_2_alg».proof.Proof.Gen.KernelIdeal.Frame
import proofs.«158817_j9990093930707_2_alg».proof.Proof.Pieces

set_option maxRecDepth 16384

noncomputable section

namespace Cert.KernelIdeal.Cases

open Idealize.ShloMosaic Idealize.ShloMosaic.TcCoe Idealize.SL.Sem
open Cert.KernelIdeal Cert.KernelIdeal.Gen Cert.KernelIdeal.Pieces

variable {F : FTy → Type} [FloatOps F]
variable (m : (ℓ : Loc nD τ sig) → Buf (Elt F) ℓ)

/-! ## The two matrix blocks, at every point -/

/-- After every point the lower matrix block's buffer holds the lower bound matrix's block times the selected weight: the three control cases agree. -/
theorem out6_eq (c : Dev nD) (t : Fin cfg0.N) :
    (outsAt0 m c t.val t.isLt).1 = k0_pay15 (k0_pay10 (iblk m c 0 t) (iblk m c 2 t) (iblk m c 4 t)) := by
  by_cases h0 : t.val % 8 = 0
  · have h1 : ¬t.val % 8 = 7 := by omega
    rw [outsAt0_A m c t h0 h1]
    dsimp only
    exact pout0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) ((hcond0_0 t).mpr h0) (fun h => h1 ((hcond0_1 t).mp h))
  · by_cases h1 : t.val % 8 = 7
    · rw [outsAt0_C m c t h0 h1]
      dsimp only
      exact pout0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) ((hcond0_1 t).mpr h1)
    · rw [outsAt0_B m c t h0 h1]
      dsimp only
      exact pout0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) (fun h => h1 ((hcond0_1 t).mp h))

/-- After every point the upper matrix block's buffer holds the upper bound matrix's block times the selected weight: the three control cases agree. -/
theorem out7_eq (c : Dev nD) (t : Fin cfg0.N) :
    (outsAt0 m c t.val t.isLt).2.1 = k0_pay16 (k0_pay4 (iblk m c 1 t)) (k0_pay12 (iblk m c 1 t)) (k0_pay13 (iblk m c 4 t)) (k0_pay14 (iblk m c 2 t)) := by
  by_cases h0 : t.val % 8 = 0
  · have h1 : ¬t.val % 8 = 7 := by omega
    rw [outsAt0_A m c t h0 h1]
    dsimp only
    exact pout0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) ((hcond0_0 t).mpr h0) (fun h => h1 ((hcond0_1 t).mp h))
  · by_cases h1 : t.val % 8 = 7
    · rw [outsAt0_C m c t h0 h1]
      dsimp only
      exact pout0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) ((hcond0_1 t).mpr h1)
    · rw [outsAt0_B m c t h0 h1]
      dsimp only
      exact pout0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) (fun h => h1 ((hcond0_1 t).mp h))

/-! ## The accumulators at the first tile of a batch -/

/-- At the first pixel tile of a batch the lower accumulator is the zero block plus the tile's partial sums. -/
theorem acc0_first_at (c : Dev nD) (t : Fin cfg0.N) (h0 : t.val % 8 = 0) :
    (outsAt0 m c t.val t.isLt).2.2.2.2.1 = k0_pay19 (k0_pay11 (iblk m c 0 t) (iblk m c 3 t) (iblk m c 5 t)) (k0_pay17 (F := F)) := by
  have h1 : ¬t.val % 8 = 7 := by omega
  rw [outsAt0_A m c t h0 h1]
  dsimp only
  exact psout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) ((hcond0_0 t).mpr h0) (fun h => h1 ((hcond0_1 t).mp h))

/-- At the first pixel tile of a batch the upper accumulator is the zero block plus the tile's partial sums. -/
theorem acc1_first_at (c : Dev nD) (t : Fin cfg0.N) (h0 : t.val % 8 = 0) :
    (outsAt0 m c t.val t.isLt).2.2.2.2.2 = k0_pay20 (k0_pay4 (iblk m c 1 t)) (k0_pay6 (iblk m c 3 t)) (k0_pay8 (iblk m c 5 t)) (k0_pay12 (iblk m c 1 t)) (k0_pay18 (F := F)) := by
  have h1 : ¬t.val % 8 = 7 := by omega
  rw [outsAt0_A m c t h0 h1]
  dsimp only
  exact psout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) ((hcond0_0 t).mpr h0) (fun h => h1 ((hcond0_1 t).mp h))

/-- The lower accumulator at the first tile of a batch, the point given by its position. -/
theorem acc0_first (c : Dev nD) (n : ℕ) (h : n < cfg0.N) (h0 : n % 8 = 0) :
    (outsAt0 m c n h).2.2.2.2.1 = k0_pay19 (k0_pay11 (iblk m c 0 ⟨n, h⟩) (iblk m c 3 ⟨n, h⟩) (iblk m c 5 ⟨n, h⟩)) (k0_pay17 (F := F)) :=
  acc0_first_at m c ⟨n, h⟩ h0

/-- The upper accumulator at the first tile of a batch, the point given by its position. -/
theorem acc1_first (c : Dev nD) (n : ℕ) (h : n < cfg0.N) (h0 : n % 8 = 0) :
    (outsAt0 m c n h).2.2.2.2.2 = k0_pay20 (k0_pay4 (iblk m c 1 ⟨n, h⟩)) (k0_pay6 (iblk m c 3 ⟨n, h⟩)) (k0_pay8 (iblk m c 5 ⟨n, h⟩)) (k0_pay12 (iblk m c 1 ⟨n, h⟩)) (k0_pay18 (F := F)) :=
  acc1_first_at m c ⟨n, h⟩ h0

/-! ## The accumulators at a later tile -/

/-- At a later pixel tile (a middle or the last one) the lower accumulator is its contents after the point before plus the tile's partial sums. -/
theorem acc0_next_at (c : Dev nD) (t : Fin cfg0.N) (h0 : ¬t.val % 8 = 0) :
    (outsAt0 m c t.val t.isLt).2.2.2.2.1 = k0_pay19 (k0_pay11 (iblk m c 0 t) (iblk m c 3 t) (iblk m c 5 t)) (outsAt0 m c (t.val - 1) (Nat.lt_of_le_of_lt (Nat.sub_le _ _) t.isLt)).2.2.2.2.1 := by
  by_cases h1 : t.val % 8 = 7
  · rw [outsAt0_C m c t h0 h1]
    dsimp only
    exact psout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) ((hcond0_1 t).mpr h1)
  · rw [outsAt0_B m c t h0 h1]
    dsimp only
    exact psout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) (fun h => h1 ((hcond0_1 t).mp h))

/-- At a later pixel tile (a middle or the last one) the upper accumulator is its contents after the point before plus the tile's partial sums. -/
theorem acc1_next_at (c : Dev nD) (t : Fin cfg0.N) (h0 : ¬t.val % 8 = 0) :
    (outsAt0 m c t.val t.isLt).2.2.2.2.2 = k0_pay20 (k0_pay4 (iblk m c 1 t)) (k0_pay6 (iblk m c 3 t)) (k0_pay8 (iblk m c 5 t)) (k0_pay12 (iblk m c 1 t)) (outsAt0 m c (t.val - 1) (Nat.lt_of_le_of_lt (Nat.sub_le _ _) t.isLt)).2.2.2.2.2 := by
  by_cases h1 : t.val % 8 = 7
  · rw [outsAt0_C m c t h0 h1]
    dsimp only
    exact psout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) ((hcond0_1 t).mpr h1)
  · rw [outsAt0_B m c t h0 h1]
    dsimp only
    exact psout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) (fun h => h1 ((hcond0_1 t).mp h))

/-- The lower accumulator at a later tile, the point given as a successor position. -/
theorem acc0_next (c : Dev nD) (n : ℕ) (h : n + 1 < cfg0.N) (h0 : ¬(n + 1) % 8 = 0) :
    (outsAt0 m c (n + 1) h).2.2.2.2.1 = k0_pay19 (k0_pay11 (iblk m c 0 ⟨n + 1, h⟩) (iblk m c 3 ⟨n + 1, h⟩) (iblk m c 5 ⟨n + 1, h⟩)) ((outsAt0 m c n (Nat.lt_of_succ_lt h)).2.2.2.2.1) :=
  acc0_next_at m c ⟨n + 1, h⟩ h0

/-- The upper accumulator at a later tile, the point given as a successor position. -/
theorem acc1_next (c : Dev nD) (n : ℕ) (h : n + 1 < cfg0.N) (h0 : ¬(n + 1) % 8 = 0) :
    (outsAt0 m c (n + 1) h).2.2.2.2.2 = k0_pay20 (k0_pay4 (iblk m c 1 ⟨n + 1, h⟩)) (k0_pay6 (iblk m c 3 ⟨n + 1, h⟩)) (k0_pay8 (iblk m c 5 ⟨n + 1, h⟩)) (k0_pay12 (iblk m c 1 ⟨n + 1, h⟩)) ((outsAt0 m c n (Nat.lt_of_succ_lt h)).2.2.2.2.2) :=
  acc1_next_at m c ⟨n + 1, h⟩ h0

/-! ## The bias blocks at the last tile of a batch -/

/-- At the last pixel tile of a batch the lower bias block is the lower accumulator's final contents, given two leading unit axes. -/
theorem out8_last (c : Dev nD) (t : Fin cfg0.N) (h1 : t.val % 8 = 7) :
    (outsAt0 m c t.val t.isLt).2.2.1 = k0_pay1 ((outsAt0 m c t.val t.isLt).2.2.2.2.1) := by
  have h0 : ¬t.val % 8 = 0 := by omega
  rw [outsAt0_C m c t h0 h1]
  dsimp only
  exact (pout0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) ((hcond0_1 t).mpr h1)).trans
    (congrArg k0_pay1 (psout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) ((hcond0_1 t).mpr h1)).symm)

/-- At the last pixel tile of a batch the upper bias block is the upper accumulator's final contents, given two leading unit axes. -/
theorem out9_last (c : Dev nD) (t : Fin cfg0.N) (h1 : t.val % 8 = 7) :
    (outsAt0 m c t.val t.isLt).2.2.2.1 = k0_pay2 ((outsAt0 m c t.val t.isLt).2.2.2.2.2) := by
  have h0 : ¬t.val % 8 = 0 := by omega
  rw [outsAt0_C m c t h0 h1]
  dsimp only
  exact (pout0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) ((hcond0_1 t).mpr h1)).trans
    (congrArg k0_pay2 (psout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) ((hcond0_1 t).mpr h1)).symm)

end Cert.KernelIdeal.Cases

end
-- ==== Proof.Spec.lean ====
/-
  The specification both programs meet, stated over plain arrays of extended reals and literal extents.

  A bound matrix `x` of shape [8, 32, 3, 224, 224] (batch, spec row, channel, image row, image column) is multiplied,
  entry by entry, by one of two per-pixel coefficients of shape [8, 3, 224, 224] (no spec axis): the first where the
  entry is positive, the second elsewhere (`pick`).  The matrix outputs keep every entry (`outA`); the bias outputs
  sum the products over channel and pixel for each (batch, spec row) (`outB`), from the zero word, over the
  150528 = 3 · 224 · 224 positions of one spec row in row-major order.
-/
import Idealize.ShloMosaic.PureOps.Ideal
import Idealize.ShloMosaic.PureOps.Ideal.Laws
import Idealize.ShloMosaic.Lib.ValueIdx

noncomputable section

namespace Cert.BoundSpec

open Idealize.ShloMosaic Idealize.ShloMosaic.ValueIdx

/-- The bound matrices' shape. -/
abbrev SA : Shape := ⟨5, ![8, 32, 3, 224, 224]⟩
/-- The coefficients' shape. -/
abbrev SW : Shape := ⟨4, ![8, 3, 224, 224]⟩
/-- The biases' shape. -/
abbrev SO : Shape := ⟨2, ![8, 32]⟩

/-- `x` times the candidate its sign picks: `a` where `0 < x`, `b` elsewhere (the test is against the zero word's value). -/
def pick (x a b : EReal) : EReal :=
  x * Scalar.select (Ideal.cmp .ogt x (Ideal.ofBits .f32 0x00000000#32)) a b

/-- The one word: the extended real 1. -/
theorem ofBits_one_f32 : Ideal.ofBits .f32 0x3F800000#32 = 1 := by
  simp [Ideal.ofBits, Ideal.ieee, -EReal.coe_mul]; norm_num

/-- A one-bit word read as an unsigned integer, as an extended real, when the bit is set. -/
theorem uitofp_one : (FloatOps.uitofp (F := Ideal) .f32 (1#1 : BitVec 1) : EReal) = 1 := by
  show (((1#1 : BitVec 1).toNat : ℝ) : EReal) = 1
  simp

/-- ... and when it is clear. -/
theorem uitofp_zero : (FloatOps.uitofp (F := Ideal) .f32 (0#1 : BitVec 1) : EReal) = 0 := by
  show (((0#1 : BitVec 1).toNat : ℝ) : EReal) = 0
  simp

/-- THE LAW joining the two programs, on all extended reals: blending the two candidates by the test's indicator
    `m ∈ {0, 1}` — `m · a + (1 − m) · b` — is choosing by the test, because `1 · a + 0 · b = a` and `0 · a + 1 · b = b`
    whatever `a` and `b` are (zero times an infinity is zero). No finiteness is needed. -/
theorem blend_eq_select (t : BitVec 1) (a b : EReal) :
    (FloatOps.uitofp (F := Ideal) .f32 t : EReal) * a
        + (Ideal.ofBits .f32 0x3F800000#32 - (FloatOps.uitofp (F := Ideal) .f32 t : EReal)) * b
      = Scalar.select t a b := by
  rcases BitVec.eq_zero_or_eq_one t with h | h
  · subst h
    rw [uitofp_zero, ofBits_one_f32, ValueIdx.select_zero]
    simp
  · subst h
    rw [uitofp_one, ofBits_one_f32, ValueIdx.select_one]
    have h11 : (1 : EReal) - 1 = 0 := by
      rw [← EReal.coe_one, ← EReal.coe_sub, sub_self, EReal.coe_zero]
    rw [h11, one_mul, zero_mul, add_zero]

/-- So the reference's product with the blend is `pick`. -/
theorem mul_blend_eq_pick (x a b : EReal) :
    x * ((FloatOps.uitofp (F := Ideal) .f32 (Ideal.cmp .ogt x (Ideal.ofBits .f32 0x00000000#32)) : EReal) * a
        + (Ideal.ofBits .f32 0x3F800000#32
            - (FloatOps.uitofp (F := Ideal) .f32 (Ideal.cmp .ogt x (Ideal.ofBits .f32 0x00000000#32)) : EReal)) * b)
      = pick x a b := by
  unfold pick
  rw [blend_eq_select]

/-- The coefficient index under a matrix index: the spec axis dropped. -/
def dropSpec (i : SA.Idx) : SW.Idx :=
  ix4 (⟨(i 0).val, (i 0).isLt⟩ : Fin 8) (⟨(i 2).val, (i 2).isLt⟩ : Fin 3) (⟨(i 3).val, (i 3).isLt⟩ : Fin 224)
    (⟨(i 4).val, (i 4).isLt⟩ : Fin 224)

theorem dropSpec_ix5 (b : Fin 8) (s : Fin 32) (c : Fin 3) (r w : Fin 224) :
    dropSpec (ix5 b s c r w) = ix4 b c r w := rfl

/-- The matrix outputs: every entry times the coefficient its sign picks. -/
def outA (x : SA.Idx → EReal) (wp wn : SW.Idx → EReal) : SA.Idx → EReal :=
  fun i => pick (x i) (wp (dropSpec i)) (wn (dropSpec i))

theorem outA_ix5 (x : SA.Idx → EReal) (wp wn : SW.Idx → EReal) (b : Fin 8) (s : Fin 32) (c : Fin 3) (r w : Fin 224) :
    outA x wp wn (ix5 b s c r w) = pick (x (ix5 b s c r w)) (wp (ix4 b c r w)) (wn (ix4 b c r w)) := rfl

/-- Position `k` of a spec row's 150528 entries in row-major order, as (channel, image row, image column). -/
def rowPos (b : Fin 8) (s : Fin 32) (k : Fin 150528) : SA.Idx :=
  ix5 b s (⟨k.val / 50176, by have := k.isLt; omega⟩ : Fin 3) (⟨k.val / 224 % 224, Nat.mod_lt _ (by decide)⟩ : Fin 224)
    (⟨k.val % 224, Nat.mod_lt _ (by decide)⟩ : Fin 224)

/-- The bias outputs: for each (batch, spec row), the zero word plus the sum over the row's positions of the products. -/
def outB (x : SA.Idx → EReal) (bp bn : SW.Idx → EReal) : SO.Idx → EReal :=
  fun j => Ideal.ofBits .f32 0x00000000#32
    + ∑ k : Fin 150528, pick (x (rowPos ⟨(j 0).val, (j 0).isLt⟩ ⟨(j 1).val, (j 1).isLt⟩ k))
        (bp (dropSpec (rowPos ⟨(j 0).val, (j 0).isLt⟩ ⟨(j 1).val, (j 1).isLt⟩ k)))
        (bn (dropSpec (rowPos ⟨(j 0).val, (j 0).isLt⟩ ⟨(j 1).val, (j 1).isLt⟩ k)))

theorem outB_ix2 (x : SA.Idx → EReal) (bp bn : SW.Idx → EReal) (b : Fin 8) (s : Fin 32) :
    outB x bp bn (ix2 b s) = Ideal.ofBits .f32 0x00000000#32
      + ∑ k : Fin 150528, pick (x (rowPos b s k)) (bp (dropSpec (rowPos b s k))) (bn (dropSpec (rowPos b s k))) := rfl

end Cert.BoundSpec

end
-- ==== Proof.PayAt.lean ====
/-
  The body's arithmetic read at an index, on the extended reals.

  One block of a bound matrix is `[1, 32, 3, 6272]` (spec row, channel, pixel of the tile); one block of a coefficient is
  `[1, 3, 6272]`.  The matrix payloads are, entry by entry, `pick` of the matrix entry and the two coefficients of its
  channel and pixel; the accumulator payloads add to the accumulator's previous entry for a spec row the sum over the
  three channels and the tile's 6272 pixels of such products; the bias payloads only re-lay the accumulator.
-/
import proofs.«158817_j9990093930707_2_alg».proof.Proof.Gen.KernelIdeal.Skeleton
import proofs.«158817_j9990093930707_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PayAt

open Idealize.ShloMosaic Idealize.ShloMosaic.ValueIdx
open Cert.KernelIdeal Cert.KernelIdeal.Gen Cert.BoundSpec

/-! ## The layout operations of the body -/

/-- A coefficient block `[1, 3, 6272]` broadcast over the 32 spec rows reads, at (spec row, channel, pixel), the block at
    (0, channel, pixel). -/
theorem bcastRows_at (v : FVec Ideal S1x3x6272 .f32) (s : Fin 32) (c : Fin 3) (t : Fin 6272) :
    broadcastTo S32x3x6272 v broadcasts_S1x3x6272_S32x3x6272 (ix3 s c t) = v (ix3 (0 : Fin 1) c t) :=
  broadcastTo_apply v broadcasts_S1x3x6272_S32x3x6272 (ix3 s c t) (ix3 (0 : Fin 1) c t) (fun a => by
    match a with
    | ⟨0, _⟩ => rfl
    | ⟨1, _⟩ => rfl
    | ⟨2, _⟩ => rfl)

/-- Dropping a coefficient block's leading unit axis and putting it back changes nothing. -/
theorem unitRoundTrip_at (v : Vec Ideal S1x3x6272 .f32) (c : Fin 3) (t : Fin 6272) :
    shapeCast S1x3x6272 (shapeCast S3x6272 v shapeCasts_S1x3x6272_S3x6272) shapeCasts_S3x6272_S1x3x6272 (ix3 (0 : Fin 1) c t)
      = v (ix3 (0 : Fin 1) c t) :=
  (shapeCast_ab_1ab_apply _ shapeCasts_S3x6272_S1x3x6272 (0 : Fin 1) c t).trans
    (shapeCast_1ab_ab_apply v shapeCasts_S1x3x6272_S3x6272 c t)

/-- A matrix block with its leading unit axis dropped. -/
theorem dropLead_at (v : Vec Ideal S1x32x3x6272 .f32) (s : Fin 32) (c : Fin 3) (t : Fin 6272) :
    shapeCast S32x3x6272 v shapeCasts_S1x32x3x6272_S32x3x6272 (ix3 s c t) = v (ix4 (0 : Fin 1) s c t) :=
  shapeCast_1abc_abc_apply v shapeCasts_S1x32x3x6272_S32x3x6272 s c t

/-- ... and put back. -/
theorem addLead_at (v : FVec Ideal S32x3x6272 .f32) (u : Fin 1) (s : Fin 32) (c : Fin 3) (t : Fin 6272) :
    shapeCast S1x32x3x6272 v shapeCasts_S32x3x6272_S1x32x3x6272 (ix4 u s c t) = v (ix3 s c t) :=
  shapeCast_abc_1abc_apply v shapeCasts_S32x3x6272_S1x32x3x6272 u s c t

/-! ## The payloads -/

variable (x0 x1 : Vec Ideal S1x32x3x6272 .f32) (x2 x3 x4 x5 : Vec Ideal S1x3x6272 .f32)

theorem pay3_at (s : Fin 32) (c : Fin 3) (t : Fin 6272) : k0_pay3 x0 (ix3 s c t) = x0 (ix4 (0 : Fin 1) s c t) :=
  dropLead_at x0 s c t

theorem pay4_at (s : Fin 32) (c : Fin 3) (t : Fin 6272) : k0_pay4 x1 (ix3 s c t) = x1 (ix4 (0 : Fin 1) s c t) :=
  dropLead_at x1 s c t

theorem pay5_at (c : Fin 3) (t : Fin 6272) : k0_pay5 x2 (ix3 (0 : Fin 1) c t) = x2 (ix3 (0 : Fin 1) c t) :=
  unitRoundTrip_at x2 c t

theorem pay6_at (c : Fin 3) (t : Fin 6272) : k0_pay6 x3 (ix3 (0 : Fin 1) c t) = x3 (ix3 (0 : Fin 1) c t) :=
  unitRoundTrip_at x3 c t

theorem pay7_at (c : Fin 3) (t : Fin 6272) : k0_pay7 x4 (ix3 (0 : Fin 1) c t) = x4 (ix3 (0 : Fin 1) c t) :=
  unitRoundTrip_at x4 c t

theorem pay8_at (c : Fin 3) (t : Fin 6272) : k0_pay8 x5 (ix3 (0 : Fin 1) c t) = x5 (ix3 (0 : Fin 1) c t) :=
  unitRoundTrip_at x5 c t

/-- A coefficient block, re-laid and broadcast over the spec rows, at an entry. -/
theorem coeff_at (v : FVec Ideal S1x3x6272 .f32) (s : Fin 32) (c : Fin 3) (t : Fin 6272) :
    broadcastTo S32x3x6272 (shapeCast S1x3x6272 v shapeCasts_S1x3x6272_S1x3x6272) broadcasts_S1x3x6272_S32x3x6272 (ix3 s c t)
      = v (ix3 (0 : Fin 1) c t) := by
  rw [shapeCast_self]
  exact bcastRows_at v s c t

/-- The lower matrix product at an entry. -/
theorem pay10_at (s : Fin 32) (c : Fin 3) (t : Fin 6272) :
    k0_pay10 x0 x2 x4 (ix3 s c t)
      = pick (x0 (ix4 (0 : Fin 1) s c t)) (x2 (ix3 (0 : Fin 1) c t)) (x4 (ix3 (0 : Fin 1) c t)) := by
  show k0_pay3 x0 (ix3 s c t)
      * Scalar.select (Ideal.cmp .ogt (k0_pay3 x0 (ix3 s c t)) (Ideal.ofBits .f32 0x00000000#32))
          (broadcastTo S32x3x6272 (shapeCast S1x3x6272 (k0_pay5 x2) shapeCasts_S1x3x6272_S1x3x6272) broadcasts_S1x3x6272_S32x3x6272 (ix3 s c t))
          (broadcastTo S32x3x6272 (shapeCast S1x3x6272 (k0_pay7 x4) shapeCasts_S1x3x6272_S1x3x6272) broadcasts_S1x3x6272_S32x3x6272 (ix3 s c t))
    = _
  rw [coeff_at, coeff_at, pay3_at, pay5_at, pay7_at]
  rfl

/-- The lower bias product at an entry. -/
theorem pay11_at (s : Fin 32) (c : Fin 3) (t : Fin 6272) :
    k0_pay11 x0 x3 x5 (ix3 s c t)
      = pick (x0 (ix4 (0 : Fin 1) s c t)) (x3 (ix3 (0 : Fin 1) c t)) (x5 (ix3 (0 : Fin 1) c t)) := by
  show k0_pay3 x0 (ix3 s c t)
      * Scalar.select (Ideal.cmp .ogt (k0_pay3 x0 (ix3 s c t)) (Ideal.ofBits .f32 0x00000000#32))
          (broadcastTo S32x3x6272 (shapeCast S1x3x6272 (k0_pay6 x3) shapeCasts_S1x3x6272_S1x3x6272) broadcasts_S1x3x6272_S32x3x6272 (ix3 s c t))
          (broadcastTo S32x3x6272 (shapeCast S1x3x6272 (k0_pay8 x5) shapeCasts_S1x3x6272_S1x3x6272) broadcasts_S1x3x6272_S32x3x6272 (ix3 s c t))
    = _
  rw [coeff_at, coeff_at, pay3_at, pay6_at, pay8_at]
  rfl

/-- The lower matrix block's payload at an entry of the block. -/
theorem out6_at (u : Fin 1) (s : Fin 32) (c : Fin 3) (t : Fin 6272) :
    k0_pay15 (k0_pay10 x0 x2 x4) (ix4 u s c t)
      = pick (x0 (ix4 (0 : Fin 1) s c t)) (x2 (ix3 (0 : Fin 1) c t)) (x4 (ix3 (0 : Fin 1) c t)) :=
  (addLead_at (k0_pay10 x0 x2 x4) u s c t).trans (pay10_at x0 x2 x4 s c t)

/-- The upper matrix block's payload at an entry of the block: the upper weight where the entry is positive, the lower
    weight elsewhere. -/
theorem out7_at (u : Fin 1) (s : Fin 32) (c : Fin 3) (t : Fin 6272) :
    k0_pay16 (k0_pay4 x1) (k0_pay12 x1) (k0_pay13 x4) (k0_pay14 x2) (ix4 u s c t)
      = pick (x1 (ix4 (0 : Fin 1) s c t)) (x4 (ix3 (0 : Fin 1) c t)) (x2 (ix3 (0 : Fin 1) c t)) := by
  unfold k0_pay16
  refine (addLead_at _ u s c t).trans ?_
  show k0_pay4 x1 (ix3 s c t)
      * Scalar.select (Ideal.cmp .ogt (k0_pay4 x1 (ix3 s c t)) (Ideal.ofBits .f32 0x00000000#32))
          (broadcastTo S32x3x6272 (shapeCast S1x3x6272 (k0_pay7 x4) shapeCasts_S1x3x6272_S1x3x6272) broadcasts_S1x3x6272_S32x3x6272 (ix3 s c t))
          (broadcastTo S32x3x6272 (shapeCast S1x3x6272 (k0_pay5 x2) shapeCasts_S1x3x6272_S1x3x6272) broadcasts_S1x3x6272_S32x3x6272 (ix3 s c t))
    = _
  rw [coeff_at, coeff_at, pay4_at, pay7_at, pay5_at]
  rfl

/-- The upper bias product at an entry (the term inside the upper accumulator's payload). -/
theorem biasU_at (s : Fin 32) (c : Fin 3) (t : Fin 6272) :
    mulf (k0_pay4 x1) (select (k0_pay12 x1)
        (broadcastTo S32x3x6272 (shapeCast S1x3x6272 (k0_pay8 x5) shapeCasts_S1x3x6272_S1x3x6272) broadcasts_S1x3x6272_S32x3x6272)
        (broadcastTo S32x3x6272 (shapeCast S1x3x6272 (k0_pay6 x3) shapeCasts_S1x3x6272_S1x3x6272) broadcasts_S1x3x6272_S32x3x6272))
      (ix3 s c t)
      = pick (x1 (ix4 (0 : Fin 1) s c t)) (x5 (ix3 (0 : Fin 1) c t)) (x3 (ix3 (0 : Fin 1) c t)) := by
  show k0_pay4 x1 (ix3 s c t)
      * Scalar.select (Ideal.cmp .ogt (k0_pay4 x1 (ix3 s c t)) (Ideal.ofBits .f32 0x00000000#32))
          (broadcastTo S32x3x6272 (shapeCast S1x3x6272 (k0_pay8 x5) shapeCasts_S1x3x6272_S1x3x6272) broadcasts_S1x3x6272_S32x3x6272 (ix3 s c t))
          (broadcastTo S32x3x6272 (shapeCast S1x3x6272 (k0_pay6 x3) shapeCasts_S1x3x6272_S1x3x6272) broadcasts_S1x3x6272_S32x3x6272 (ix3 s c t))
    = _
  rw [coeff_at, coeff_at, pay4_at, pay8_at, pay6_at]
  rfl

/-! ## The two lane sums -/

/-- The sum over a tile's pixels and then over the channels, cast to a one-row block: at spec row `s` the double sum. -/
theorem rowSums_at (v : FVec Ideal S32x3x6272 .f32) (u : Fin 1) (s : Fin 32) :
    shapeCast S1x32
        (multiReduction .add [1] S32
          (multiReduction .add [2] S32x3 v 0x00000000#32 reduces_S32x3x6272_S32x3 (.inl rfl) rfl)
          0x00000000#32 reduces_S32x3_S32 (.inl rfl) rfl)
        shapeCasts_S32_S1x32 (ix2 u s)
      = ∑ c : Fin 3, ∑ t : Fin 6272, v (ix3 s c t) := by
  refine (shapeCast_a_1a_apply _ shapeCasts_S32_S1x32 u s).trans ?_
  refine (Ideal.multiReduction_add_single _ 0x00000000#32 reduces_S32x3_S32 (.inl rfl) rfl (ix1 s)).trans ?_
  show ∑ c : Fin 3, multiReduction .add [2] S32x3 v 0x00000000#32 reduces_S32x3x6272_S32x3 (.inl rfl) rfl
      (reduces_S32x3_S32.lift (ix1 s) c) = _
  refine Finset.sum_congr rfl fun c _ => ?_
  refine (Ideal.multiReduction_add_single v 0x00000000#32 reduces_S32x3x6272_S32x3 (.inl rfl) rfl _).trans ?_
  show ∑ t : Fin 6272, v (reduces_S32x3x6272_S32x3.lift (reduces_S32x3_S32.lift (ix1 s) c) t) = _
  refine Finset.sum_congr rfl fun t _ => congrArg v (funext fun a => Fin.ext ?_)
  match a with
  | ⟨0, _⟩ => rfl
  | ⟨1, _⟩ => rfl
  | ⟨2, _⟩ => rfl

/-- The lower accumulator's payload at a spec row: the previous entry plus the tile's partial bias sum. -/
theorem acc0_at (prev : Vec Ideal S1x32 .f32) (u : Fin 1) (s : Fin 32) :
    k0_pay19 (k0_pay11 x0 x3 x5) prev (ix2 u s)
      = prev (ix2 u s) + ∑ c : Fin 3, ∑ t : Fin 6272,
          pick (x0 (ix4 (0 : Fin 1) s c t)) (x3 (ix3 (0 : Fin 1) c t)) (x5 (ix3 (0 : Fin 1) c t)) := by
  unfold k0_pay19
  rw [shapeCast_self]
  show prev (ix2 u s) + _ = _
  rw [rowSums_at]
  refine congrArg (prev (ix2 u s) + ·) (Finset.sum_congr rfl fun c _ => Finset.sum_congr rfl fun t _ => ?_)
  exact pay11_at x0 x3 x5 s c t

/-- The upper accumulator's payload at a spec row: the upper offset where the entry is positive, the lower elsewhere. -/
theorem acc1_at (prev : Vec Ideal S1x32 .f32) (u : Fin 1) (s : Fin 32) :
    k0_pay20 (k0_pay4 x1) (k0_pay6 x3) (k0_pay8 x5) (k0_pay12 x1) prev (ix2 u s)
      = prev (ix2 u s) + ∑ c : Fin 3, ∑ t : Fin 6272,
          pick (x1 (ix4 (0 : Fin 1) s c t)) (x5 (ix3 (0 : Fin 1) c t)) (x3 (ix3 (0 : Fin 1) c t)) := by
  unfold k0_pay20
  rw [shapeCast_self]
  show prev (ix2 u s) + _ = _
  rw [rowSums_at]
  refine congrArg (prev (ix2 u s) + ·) (Finset.sum_congr rfl fun c _ => Finset.sum_congr rfl fun t _ => ?_)
  exact biasU_at x1 x3 x5 s c t

/-- The reset block is the zero word everywhere. -/
theorem zero0_at (u : Fin 1) (s : Fin 32) : (k0_pay17 (F := Ideal)) (ix2 u s) = Ideal.ofBits .f32 0x00000000#32 := by
  unfold k0_pay17
  rw [shapeCast_self]
  rfl

theorem zero1_at (u : Fin 1) (s : Fin 32) : (k0_pay18 (F := Ideal)) (ix2 u s) = Ideal.ofBits .f32 0x00000000#32 := by
  unfold k0_pay18
  rw [shapeCast_self]
  rfl

/-- A one-row block `[1, 32]` re-laid as `[1, 1, 32]`: the same 32 entries. -/
theorem relay_at (v : Vec Ideal S1x32 .f32) (u u' : Fin 1) (s : Fin 32) :
    shapeCast S1x1x32 (shapeCast S32 v shapeCasts_S1x32_S32) shapeCasts_S32_S1x1x32 (ix3 u u' s) = v (ix2 (0 : Fin 1) s) := by
  refine (shapeCast_apply _ shapeCasts_S32_S1x1x32 (ix3 u u' s) (ix1 s) ?_).trans (shapeCast_1a_a_apply v shapeCasts_S1x32_S32 s)
  have hu : u.val = 0 := by omega
  have hu' : u'.val = 0 := by omega
  rw [Shape.rowMajor_val_one, Shape.rowMajor_val_three]
  show s.val = (u.val * 1 + u'.val) * 32 + s.val
  omega

theorem bias0_at (v : Vec Ideal S1x32 .f32) (u u' : Fin 1) (s : Fin 32) : k0_pay1 v (ix3 u u' s) = v (ix2 (0 : Fin 1) s) :=
  relay_at v u u' s

theorem bias1_at (v : Vec Ideal S1x32 .f32) (u u' : Fin 1) (s : Fin 32) : k0_pay2 v (ix3 u u' s) = v (ix2 (0 : Fin 1) s) :=
  relay_at v u u' s

end Cert.KernelIdeal.PayAt

end
-- ==== Proof.Blocks.lean ====
/-
  Where the blocks sit.  The grid has 64 points, point `t` being batch `t / 8` and pixel tile `t % 8`.  A bound-matrix
  block `[1, 32, 3, 6272]` at point `t` is batch `t / 8`, all spec rows and channels, pixels
  `6272 · (t % 8) … 6272 · (t % 8) + 6271` of the flattened image; a coefficient block `[1, 3, 6272]` likewise; a bias
  block `[1, 1, 32]` is batch `t / 8`'s row of 32 biases whatever the tile.  Each input block, read at an entry, is the
  array the region finds at that position.
-/
import proofs.«158817_j9990093930707_2_alg».proof.Proof.Gen.KernelIdeal.Frame
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen

/-- The batch of a grid point. -/
def bOf (t : Fin cfg0.N) : Fin 8 := ⟨t.val / 8, by have := t.isLt; have hN : cfg0.N = 64 := N_0; omega⟩
/-- The pixel tile of a grid point. -/
def hOf (t : Fin cfg0.N) : Fin 8 := ⟨t.val % 8, Nat.mod_lt _ (by decide)⟩
/-- Pixel `p` of tile `h` in the flattened image. -/
def pix (h : Fin 8) (p : Fin 6272) : Fin 50176 := ⟨h.val * 6272 + p.val, by have := h.isLt; have := p.isLt; omega⟩

theorem bOf_val (t : Fin cfg0.N) : (bOf t).val = t.val / 8 := rfl
theorem hOf_val (t : Fin cfg0.N) : (hOf t).val = t.val % 8 := rfl
theorem pix_val (h : Fin 8) (p : Fin 6272) : (pix h p).val = h.val * 6272 + p.val := rfl

/-! ## The printed index maps, decided over the grid -/

theorem idx0 : ∀ t : Fin cfg0.N, win0_0.index t (0 : Fin 4) = t.val / 8 ∧ win0_0.index t (1 : Fin 4) = 0
    ∧ win0_0.index t (2 : Fin 4) = 0 ∧ win0_0.index t (3 : Fin 4) = t.val % 8 :=
  (by decide +kernel : ∀ t : Fin grid0.N, _)

theorem idx1 : ∀ t : Fin cfg0.N, win0_1.index t (0 : Fin 4) = t.val / 8 ∧ win0_1.index t (1 : Fin 4) = 0
    ∧ win0_1.index t (2 : Fin 4) = 0 ∧ win0_1.index t (3 : Fin 4) = t.val % 8 :=
  (by decide +kernel : ∀ t : Fin grid0.N, _)

theorem idx2 : ∀ t : Fin cfg0.N, win0_2.index t (0 : Fin 3) = t.val / 8 ∧ win0_2.index t (1 : Fin 3) = 0
    ∧ win0_2.index t (2 : Fin 3) = t.val % 8 :=
  (by decide +kernel : ∀ t : Fin grid0.N, _)

theorem idx3 : ∀ t : Fin cfg0.N, win0_3.index t (0 : Fin 3) = t.val / 8 ∧ win0_3.index t (1 : Fin 3) = 0
    ∧ win0_3.index t (2 : Fin 3) = t.val % 8 :=
  (by decide +kernel : ∀ t : Fin grid0.N, _)

theorem idx4 : ∀ t : Fin cfg0.N, win0_4.index t (0 : Fin 3) = t.val / 8 ∧ win0_4.index t (1 : Fin 3) = 0
    ∧ win0_4.index t (2 : Fin 3) = t.val % 8 :=
  (by decide +kernel : ∀ t : Fin grid0.N, _)

theorem idx5 : ∀ t : Fin cfg0.N, win0_5.index t (0 : Fin 3) = t.val / 8 ∧ win0_5.index t (1 : Fin 3) = 0
    ∧ win0_5.index t (2 : Fin 3) = t.val % 8 :=
  (by decide +kernel : ∀ t : Fin grid0.N, _)

theorem idx6 : ∀ t : Fin cfg0.N, win0_6.index t (0 : Fin 4) = t.val / 8 ∧ win0_6.index t (1 : Fin 4) = 0
    ∧ win0_6.index t (2 : Fin 4) = 0 ∧ win0_6.index t (3 : Fin 4) = t.val % 8 :=
  (by decide +kernel : ∀ t : Fin grid0.N, _)

theorem idx7 : ∀ t : Fin cfg0.N, win0_7.index t (0 : Fin 4) = t.val / 8 ∧ win0_7.index t (1 : Fin 4) = 0
    ∧ win0_7.index t (2 : Fin 4) = 0 ∧ win0_7.index t (3 : Fin 4) = t.val % 8 :=
  (by decide +kernel : ∀ t : Fin grid0.N, _)

theorem idx8 : ∀ t : Fin cfg0.N, win0_8.index t (0 : Fin 3) = t.val / 8 ∧ win0_8.index t (1 : Fin 3) = 0
    ∧ win0_8.index t (2 : Fin 3) = 0 :=
  (by decide +kernel : ∀ t : Fin grid0.N, _)

theorem idx9 : ∀ t : Fin cfg0.N, win0_9.index t (0 : Fin 3) = t.val / 8 ∧ win0_9.index t (1 : Fin 3) = 0
    ∧ win0_9.index t (2 : Fin 3) = 0 :=
  (by decide +kernel : ∀ t : Fin grid0.N, _)

/-! ## An entry of a block, in its array -/

theorem emb0_at (t : Fin cfg0.N) (u : Fin 1) (s : Fin 32) (k : Fin 3) (p : Fin 6272) :
    ((cfg0.win 0).blk t).view.emb (ix4 u s k p) = ix4 (bOf t) s k (pix (hOf t) p) := by
  obtain ⟨e0, e1, e2, e3⟩ := idx0 t
  have hu : u.val = 0 := by omega
  funext a; apply Fin.ext
  match a with
  | ⟨0, _⟩ => show win0_0.index t (0 : Fin 4) * 1 + 1 * u.val = t.val / 8; omega
  | ⟨1, _⟩ => show win0_0.index t (1 : Fin 4) * 32 + 1 * s.val = s.val; omega
  | ⟨2, _⟩ => show win0_0.index t (2 : Fin 4) * 3 + 1 * k.val = k.val; omega
  | ⟨3, _⟩ => show win0_0.index t (3 : Fin 4) * 6272 + 1 * p.val = t.val % 8 * 6272 + p.val; omega

theorem emb1_at (t : Fin cfg0.N) (u : Fin 1) (s : Fin 32) (k : Fin 3) (p : Fin 6272) :
    ((cfg0.win 1).blk t).view.emb (ix4 u s k p) = ix4 (bOf t) s k (pix (hOf t) p) := by
  obtain ⟨e0, e1, e2, e3⟩ := idx1 t
  have hu : u.val = 0 := by omega
  funext a; apply Fin.ext
  match a with
  | ⟨0, _⟩ => show win0_1.index t (0 : Fin 4) * 1 + 1 * u.val = t.val / 8; omega
  | ⟨1, _⟩ => show win0_1.index t (1 : Fin 4) * 32 + 1 * s.val = s.val; omega
  | ⟨2, _⟩ => show win0_1.index t (2 : Fin 4) * 3 + 1 * k.val = k.val; omega
  | ⟨3, _⟩ => show win0_1.index t (3 : Fin 4) * 6272 + 1 * p.val = t.val % 8 * 6272 + p.val; omega

theorem emb2_at (t : Fin cfg0.N) (u : Fin 1) (k : Fin 3) (p : Fin 6272) :
    ((cfg0.win 2).blk t).view.emb (ix3 u k p) = ix3 (bOf t) k (pix (hOf t) p) := by
  obtain ⟨e0, e1, e2⟩ := idx2 t
  have hu : u.val = 0 := by omega
  funext a; apply Fin.ext
  match a with
  | ⟨0, _⟩ => show win0_2.index t (0 : Fin 3) * 1 + 1 * u.val = t.val / 8; omega
  | ⟨1, _⟩ => show win0_2.index t (1 : Fin 3) * 3 + 1 * k.val = k.val; omega
  | ⟨2, _⟩ => show win0_2.index t (2 : Fin 3) * 6272 + 1 * p.val = t.val % 8 * 6272 + p.val; omega

theorem emb3_at (t : Fin cfg0.N) (u : Fin 1) (k : Fin 3) (p : Fin 6272) :
    ((cfg0.win 3).blk t).view.emb (ix3 u k p) = ix3 (bOf t) k (pix (hOf t) p) := by
  obtain ⟨e0, e1, e2⟩ := idx3 t
  have hu : u.val = 0 := by omega
  funext a; apply Fin.ext
  match a with
  | ⟨0, _⟩ => show win0_3.index t (0 : Fin 3) * 1 + 1 * u.val = t.val / 8; omega
  | ⟨1, _⟩ => show win0_3.index t (1 : Fin 3) * 3 + 1 * k.val = k.val; omega
  | ⟨2, _⟩ => show win0_3.index t (2 : Fin 3) * 6272 + 1 * p.val = t.val % 8 * 6272 + p.val; omega

theorem emb4_at (t : Fin cfg0.N) (u : Fin 1) (k : Fin 3) (p : Fin 6272) :
    ((cfg0.win 4).blk t).view.emb (ix3 u k p) = ix3 (bOf t) k (pix (hOf t) p) := by
  obtain ⟨e0, e1, e2⟩ := idx4 t
  have hu : u.val = 0 := by omega
  funext a; apply Fin.ext
  match a with
  | ⟨0, _⟩ => show win0_4.index t (0 : Fin 3) * 1 + 1 * u.val = t.val / 8; omega
  | ⟨1, _⟩ => show win0_4.index t (1 : Fin 3) * 3 + 1 * k.val = k.val; omega
  | ⟨2, _⟩ => show win0_4.index t (2 : Fin 3) * 6272 + 1 * p.val = t.val % 8 * 6272 + p.val; omega

theorem emb5_at (t : Fin cfg0.N) (u : Fin 1) (k : Fin 3) (p : Fin 6272) :
    ((cfg0.win 5).blk t).view.emb (ix3 u k p) = ix3 (bOf t) k (pix (hOf t) p) := by
  obtain ⟨e0, e1, e2⟩ := idx5 t
  have hu : u.val = 0 := by omega
  funext a; apply Fin.ext
  match a with
  | ⟨0, _⟩ => show win0_5.index t (0 : Fin 3) * 1 + 1 * u.val = t.val / 8; omega
  | ⟨1, _⟩ => show win0_5.index t (1 : Fin 3) * 3 + 1 * k.val = k.val; omega
  | ⟨2, _⟩ => show win0_5.index t (2 : Fin 3) * 6272 + 1 * p.val = t.val % 8 * 6272 + p.val; omega

theorem emb6_at (t : Fin cfg0.N) (u : Fin 1) (s : Fin 32) (k : Fin 3) (p : Fin 6272) :
    ((cfg0.win 6).blk t).view.emb (ix4 u s k p) = ix4 (bOf t) s k (pix (hOf t) p) := by
  obtain ⟨e0, e1, e2, e3⟩ := idx6 t
  have hu : u.val = 0 := by omega
  funext a; apply Fin.ext
  match a with
  | ⟨0, _⟩ => show win0_6.index t (0 : Fin 4) * 1 + 1 * u.val = t.val / 8; omega
  | ⟨1, _⟩ => show win0_6.index t (1 : Fin 4) * 32 + 1 * s.val = s.val; omega
  | ⟨2, _⟩ => show win0_6.index t (2 : Fin 4) * 3 + 1 * k.val = k.val; omega
  | ⟨3, _⟩ => show win0_6.index t (3 : Fin 4) * 6272 + 1 * p.val = t.val % 8 * 6272 + p.val; omega

theorem emb7_at (t : Fin cfg0.N) (u : Fin 1) (s : Fin 32) (k : Fin 3) (p : Fin 6272) :
    ((cfg0.win 7).blk t).view.emb (ix4 u s k p) = ix4 (bOf t) s k (pix (hOf t) p) := by
  obtain ⟨e0, e1, e2, e3⟩ := idx7 t
  have hu : u.val = 0 := by omega
  funext a; apply Fin.ext
  match a with
  | ⟨0, _⟩ => show win0_7.index t (0 : Fin 4) * 1 + 1 * u.val = t.val / 8; omega
  | ⟨1, _⟩ => show win0_7.index t (1 : Fin 4) * 32 + 1 * s.val = s.val; omega
  | ⟨2, _⟩ => show win0_7.index t (2 : Fin 4) * 3 + 1 * k.val = k.val; omega
  | ⟨3, _⟩ => show win0_7.index t (3 : Fin 4) * 6272 + 1 * p.val = t.val % 8 * 6272 + p.val; omega

theorem emb8_at (t : Fin cfg0.N) (u u' : Fin 1) (s : Fin 32) :
    ((cfg0.win 8).blk t).view.emb (ix3 u u' s) = ix3 (bOf t) (0 : Fin 1) s := by
  obtain ⟨e0, e1, e2⟩ := idx8 t
  have hu : u.val = 0 := by omega
  have hu' : u'.val = 0 := by omega
  funext a; apply Fin.ext
  match a with
  | ⟨0, _⟩ => show win0_8.index t (0 : Fin 3) * 1 + 1 * u.val = t.val / 8; omega
  | ⟨1, _⟩ => show win0_8.index t (1 : Fin 3) * 1 + 1 * u'.val = 0; omega
  | ⟨2, _⟩ => show win0_8.index t (2 : Fin 3) * 32 + 1 * s.val = s.val; omega

theorem emb9_at (t : Fin cfg0.N) (u u' : Fin 1) (s : Fin 32) :
    ((cfg0.win 9).blk t).view.emb (ix3 u u' s) = ix3 (bOf t) (0 : Fin 1) s := by
  obtain ⟨e0, e1, e2⟩ := idx9 t
  have hu : u.val = 0 := by omega
  have hu' : u'.val = 0 := by omega
  funext a; apply Fin.ext
  match a with
  | ⟨0, _⟩ => show win0_9.index t (0 : Fin 3) * 1 + 1 * u.val = t.val / 8; omega
  | ⟨1, _⟩ => show win0_9.index t (1 : Fin 3) * 1 + 1 * u'.val = 0; omega
  | ⟨2, _⟩ => show win0_9.index t (2 : Fin 3) * 32 + 1 * s.val = s.val; omega

/-! ## The input blocks read at an entry -/

variable {F : FTy → Type} [FloatOps F]
variable (m : (ℓ : Loc nD τ sig) → Buf (Elt F) ℓ)

theorem iblk0_at (c : Dev nD) (t : Fin cfg0.N) (u : Fin 1) (s : Fin 32) (k : Fin 3) (p : Fin 6272) :
    iblk m c 0 t (ix4 u s k p) = V m c main_v133 (ix4 (bOf t) s k (pix (hOf t) p)) := by
  unfold iblk
  rw [View.read_apply]
  show V m c main_v133 (((cfg0.win 0).blk t).view.emb (ix4 u s k p)) = _
  rw [emb0_at]

theorem iblk1_at (c : Dev nD) (t : Fin cfg0.N) (u : Fin 1) (s : Fin 32) (k : Fin 3) (p : Fin 6272) :
    iblk m c 1 t (ix4 u s k p) = V m c main_v134 (ix4 (bOf t) s k (pix (hOf t) p)) := by
  unfold iblk
  rw [View.read_apply]
  show V m c main_v134 (((cfg0.win 1).blk t).view.emb (ix4 u s k p)) = _
  rw [emb1_at]

theorem iblk2_at (c : Dev nD) (t : Fin cfg0.N) (u : Fin 1) (k : Fin 3) (p : Fin 6272) :
    iblk m c 2 t (ix3 u k p) = V m c main_v135 (ix3 (bOf t) k (pix (hOf t) p)) := by
  unfold iblk
  rw [View.read_apply]
  show V m c main_v135 (((cfg0.win 2).blk t).view.emb (ix3 u k p)) = _
  rw [emb2_at]

theorem iblk3_at (c : Dev nD) (t : Fin cfg0.N) (u : Fin 1) (k : Fin 3) (p : Fin 6272) :
    iblk m c 3 t (ix3 u k p) = V m c main_v136 (ix3 (bOf t) k (pix (hOf t) p)) := by
  unfold iblk
  rw [View.read_apply]
  show V m c main_v136 (((cfg0.win 3).blk t).view.emb (ix3 u k p)) = _
  rw [emb3_at]

theorem iblk4_at (c : Dev nD) (t : Fin cfg0.N) (u : Fin 1) (k : Fin 3) (p : Fin 6272) :
    iblk m c 4 t (ix3 u k p) = V m c main_v137 (ix3 (bOf t) k (pix (hOf t) p)) := by
  unfold iblk
  rw [View.read_apply]
  show V m c main_v137 (((cfg0.win 4).blk t).view.emb (ix3 u k p)) = _
  rw [emb4_at]

theorem iblk5_at (c : Dev nD) (t : Fin cfg0.N) (u : Fin 1) (k : Fin 3) (p : Fin 6272) :
    iblk m c 5 t (ix3 u k p) = V m c main_v138 (ix3 (bOf t) k (pix (hOf t) p)) := by
  unfold iblk
  rw [View.read_apply]
  show V m c main_v138 (((cfg0.win 5).blk t).view.emb (ix3 u k p)) = _
  rw [emb5_at]

end Cert.KernelIdeal.Blocks

end
-- ==== Proof.Accum.lean ====
/-
  The accumulators over a batch's eight pixel tiles.

  At the first tile of a batch each accumulator is reset to the zero block and the tile's partial bias sums are added;
  at each later tile the tile's partial sums are added to what the tile before left.  So after the last tile an
  accumulator holds, for each spec row, the zero word plus the sum over the eight tiles of the partial sums — each a sum
  over the three channels and the tile's 6272 pixels of `pick` products of the arrays the region finds.
-/
import proofs.«158817_j9990093930707_2_alg».proof.Proof.Cases
import proofs.«158817_j9990093930707_2_alg».proof.Proof.PayAt
import proofs.«158817_j9990093930707_2_alg».proof.Proof.Blocks

set_option maxRecDepth 16384

noncomputable section

namespace Cert.KernelIdeal.Accum

open Idealize.ShloMosaic Idealize.ShloMosaic.TcCoe Idealize.ShloMosaic.ValueIdx Idealize.SL.Sem
open Cert.KernelIdeal Cert.KernelIdeal.Gen Cert.KernelIdeal.Blocks Cert.BoundSpec

variable (m : (ℓ : Loc nD τ sig) → Buf (Elt Ideal) ℓ)

/-! ## The arrays the region finds, by coordinates -/

/-- The lower bound matrix, pixels flattened. -/
def X0 (c : Dev nD) (b : Fin 8) (s : Fin 32) (k : Fin 3) (q : Fin 50176) : EReal := V m c main_v133 (ix4 b s k q)
/-- The upper bound matrix, pixels flattened. -/
def X1 (c : Dev nD) (b : Fin 8) (s : Fin 32) (k : Fin 3) (q : Fin 50176) : EReal := V m c main_v134 (ix4 b s k q)
/-- The lower weight, the lower offset, the upper weight, the upper offset, pixels flattened. -/
def LW (c : Dev nD) (b : Fin 8) (k : Fin 3) (q : Fin 50176) : EReal := V m c main_v135 (ix3 b k q)
def LB (c : Dev nD) (b : Fin 8) (k : Fin 3) (q : Fin 50176) : EReal := V m c main_v136 (ix3 b k q)
def UW (c : Dev nD) (b : Fin 8) (k : Fin 3) (q : Fin 50176) : EReal := V m c main_v137 (ix3 b k q)
def UB (c : Dev nD) (b : Fin 8) (k : Fin 3) (q : Fin 50176) : EReal := V m c main_v138 (ix3 b k q)

/-- Tile `h`'s partial lower bias sum for batch `b` and spec row `s`. -/
def part0 (c : Dev nD) (b h : Fin 8) (s : Fin 32) : EReal :=
  ∑ k : Fin 3, ∑ p : Fin 6272, pick (X0 m c b s k (pix h p)) (LB m c b k (pix h p)) (UB m c b k (pix h p))

/-- Tile `h`'s partial upper bias sum: the upper offset where the entry is positive, the lower elsewhere. -/
def part1 (c : Dev nD) (b h : Fin 8) (s : Fin 32) : EReal :=
  ∑ k : Fin 3, ∑ p : Fin 6272, pick (X1 m c b s k (pix h p)) (UB m c b k (pix h p)) (LB m c b k (pix h p))

/-- Point `n`'s addend to the lower accumulator, as a function of every natural (zero past the grid). -/
def add0 (c : Dev nD) (n : ℕ) (s : Fin 32) : EReal :=
  if h : n < cfg0.N then part0 m c (bOf ⟨n, h⟩) (hOf ⟨n, h⟩) s else 0

def add1 (c : Dev nD) (n : ℕ) (s : Fin 32) : EReal :=
  if h : n < cfg0.N then part1 m c (bOf ⟨n, h⟩) (hOf ⟨n, h⟩) s else 0

/-! ## One point's update, at a spec row -/

/-- The lower accumulator's update at point `t`, read at a spec row: the previous entry plus the point's addend. -/
theorem upd0_at (c : Dev nD) (t : Fin cfg0.N) (prev : Vec Ideal S1x32 .f32) (s : Fin 32) :
    k0_pay19 (k0_pay11 (iblk m c 0 t) (iblk m c 3 t) (iblk m c 5 t)) prev (ix2 (0 : Fin 1) s)
      = prev (ix2 (0 : Fin 1) s) + part0 m c (bOf t) (hOf t) s := by
  rw [PayAt.acc0_at (iblk m c 0 t) (iblk m c 3 t) (iblk m c 5 t) prev (0 : Fin 1) s]
  refine congrArg (prev (ix2 (0 : Fin 1) s) + ·) (Finset.sum_congr rfl fun k _ => Finset.sum_congr rfl fun p _ => ?_)
  rw [iblk0_at m c t (0 : Fin 1) s k p, iblk3_at m c t (0 : Fin 1) k p, iblk5_at m c t (0 : Fin 1) k p]
  rfl

theorem upd1_at (c : Dev nD) (t : Fin cfg0.N) (prev : Vec Ideal S1x32 .f32) (s : Fin 32) :
    k0_pay20 (k0_pay4 (iblk m c 1 t)) (k0_pay6 (iblk m c 3 t)) (k0_pay8 (iblk m c 5 t)) (k0_pay12 (iblk m c 1 t)) prev
        (ix2 (0 : Fin 1) s)
      = prev (ix2 (0 : Fin 1) s) + part1 m c (bOf t) (hOf t) s := by
  rw [PayAt.acc1_at (iblk m c 1 t) (iblk m c 3 t) (iblk m c 5 t) prev (0 : Fin 1) s]
  refine congrArg (prev (ix2 (0 : Fin 1) s) + ·) (Finset.sum_congr rfl fun k _ => Finset.sum_congr rfl fun p _ => ?_)
  rw [iblk1_at m c t (0 : Fin 1) s k p, iblk5_at m c t (0 : Fin 1) k p, iblk3_at m c t (0 : Fin 1) k p]
  rfl

/-! ## The fold -/

/-- The lower accumulator after point `n`, by spec row. -/
def acc0 (c : Dev nD) (n : ℕ) (h : n < cfg0.N) : Fin 32 → EReal :=
  fun s => (outsAt0 m c n h).2.2.2.2.1 (ix2 (0 : Fin 1) s)

def acc1 (c : Dev nD) (n : ℕ) (h : n < cfg0.N) : Fin 32 → EReal :=
  fun s => (outsAt0 m c n h).2.2.2.2.2 (ix2 (0 : Fin 1) s)

/-- At the first tile of a batch: the zero word plus the point's addend. -/
theorem acc0_reset (c : Dev nD) (n : ℕ) (h : n < cfg0.N) (h0 : n % 8 = 0) :
    acc0 m c n h = fun s => Ideal.ofBits .f32 0x00000000#32 + add0 m c n s := by
  funext s
  unfold acc0
  rw [Cases.acc0_first m c n h h0, upd0_at m c ⟨n, h⟩ _ s, PayAt.zero0_at (0 : Fin 1) s]
  unfold add0
  rw [dif_pos h]

theorem acc1_reset (c : Dev nD) (n : ℕ) (h : n < cfg0.N) (h0 : n % 8 = 0) :
    acc1 m c n h = fun s => Ideal.ofBits .f32 0x00000000#32 + add1 m c n s := by
  funext s
  unfold acc1
  rw [Cases.acc1_first m c n h h0, upd1_at m c ⟨n, h⟩ _ s, PayAt.zero1_at (0 : Fin 1) s]
  unfold add1
  rw [dif_pos h]

/-- At a later tile: what the tile before left plus the point's addend. -/
theorem acc0_step (c : Dev nD) (n : ℕ) (h : n + 1 < cfg0.N) (h0 : ¬(n + 1) % 8 = 0) :
    acc0 m c (n + 1) h = fun s => acc0 m c n (Nat.lt_of_succ_lt h) s + add0 m c (n + 1) s := by
  funext s
  unfold acc0
  rw [Cases.acc0_next m c n h h0, upd0_at m c ⟨n + 1, h⟩ _ s]
  unfold add0
  rw [dif_pos h]

theorem acc1_step (c : Dev nD) (n : ℕ) (h : n + 1 < cfg0.N) (h0 : ¬(n + 1) % 8 = 0) :
    acc1 m c (n + 1) h = fun s => acc1 m c n (Nat.lt_of_succ_lt h) s + add1 m c (n + 1) s := by
  funext s
  unfold acc1
  rw [Cases.acc1_next m c n h h0, upd1_at m c ⟨n + 1, h⟩ _ s]
  unfold add1
  rw [dif_pos h]

/-- The points of batch `b` are `8 b, …, 8 b + 7`: point `8 b + j` is batch `b`, tile `j`. -/
theorem add0_batch (c : Dev nD) (b j : Fin 8) (s : Fin 32) : add0 m c (8 * b.val + j.val) s = part0 m c b j s := by
  have hN : cfg0.N = 64 := N_0
  have hlt : 8 * b.val + j.val < cfg0.N := by have := b.isLt; have := j.isLt; omega
  unfold add0
  rw [dif_pos hlt]
  have eb : bOf ⟨8 * b.val + j.val, hlt⟩ = b := Fin.ext (by show (8 * b.val + j.val) / 8 = b.val; have := j.isLt; omega)
  have eh : hOf ⟨8 * b.val + j.val, hlt⟩ = j := Fin.ext (by show (8 * b.val + j.val) % 8 = j.val; have := j.isLt; omega)
  rw [eb, eh]

theorem add1_batch (c : Dev nD) (b j : Fin 8) (s : Fin 32) : add1 m c (8 * b.val + j.val) s = part1 m c b j s := by
  have hN : cfg0.N = 64 := N_0
  have hlt : 8 * b.val + j.val < cfg0.N := by have := b.isLt; have := j.isLt; omega
  unfold add1
  rw [dif_pos hlt]
  have eb : bOf ⟨8 * b.val + j.val, hlt⟩ = b := Fin.ext (by show (8 * b.val + j.val) / 8 = b.val; have := j.isLt; omega)
  have eh : hOf ⟨8 * b.val + j.val, hlt⟩ = j := Fin.ext (by show (8 * b.val + j.val) % 8 = j.val; have := j.isLt; omega)
  rw [eb, eh]

/-- THE FOLD, CLOSED: after the last tile of its batch the lower accumulator holds, at spec row `s`, the zero word plus the
    sum over the batch's eight tiles of the partial sums. -/
theorem acc0_last (c : Dev nD) (t : Fin cfg0.N) (h7 : t.val % 8 = 7) (s : Fin 32) :
    acc0 m c t.val t.isLt s = Ideal.ofBits .f32 0x00000000#32 + ∑ j : Fin 8, part0 m c (bOf t) j s := by
  have hN : cfg0.N = 64 := N_0
  have ht := t.isLt
  have h' : 8 * (t.val / 8) + t.val % 8 < cfg0.N := by omega
  have e1 := Pipeline.eq_accAt_of_mod (N := cfg0.N) (acc0 m c) 8
    (fun n _ => fun s => Ideal.ofBits .f32 0x00000000#32 + add0 m c n s)
    (fun n _ acc => fun s => acc s + add0 m c n s)
    (fun n h h0 => acc0_reset m c n h h0) (fun n h h0 => acc0_step m c n h h0) (by decide) t.val t.isLt h'
  have e2 := Pipeline.accAt_add_apply (N := cfg0.N)
    (fun n _ => fun s => Ideal.ofBits .f32 0x00000000#32 + add0 m c n s)
    (fun n _ acc => fun s => acc s + add0 m c n s)
    (fun _ => Ideal.ofBits .f32 0x00000000#32) (add0 m c) (8 * (t.val / 8)) 7
    (fun _ _ => rfl) (fun _ _ _ _ _ _ => rfl) (t.val % 8) (by omega) h' s
  rw [e1, e2, h7, Finset.sum_range]
  refine congrArg (_ + ·) (Finset.sum_congr rfl fun j _ => ?_)
  exact add0_batch m c (bOf t) j s

theorem acc1_last (c : Dev nD) (t : Fin cfg0.N) (h7 : t.val % 8 = 7) (s : Fin 32) :
    acc1 m c t.val t.isLt s = Ideal.ofBits .f32 0x00000000#32 + ∑ j : Fin 8, part1 m c (bOf t) j s := by
  have hN : cfg0.N = 64 := N_0
  have ht := t.isLt
  have h' : 8 * (t.val / 8) + t.val % 8 < cfg0.N := by omega
  have e1 := Pipeline.eq_accAt_of_mod (N := cfg0.N) (acc1 m c) 8
    (fun n _ => fun s => Ideal.ofBits .f32 0x00000000#32 + add1 m c n s)
    (fun n _ acc => fun s => acc s + add1 m c n s)
    (fun n h h0 => acc1_reset m c n h h0) (fun n h h0 => acc1_step m c n h h0) (by decide) t.val t.isLt h'
  have e2 := Pipeline.accAt_add_apply (N := cfg0.N)
    (fun n _ => fun s => Ideal.ofBits .f32 0x00000000#32 + add1 m c n s)
    (fun n _ acc => fun s => acc s + add1 m c n s)
    (fun _ => Ideal.ofBits .f32 0x00000000#32) (add1 m c) (8 * (t.val / 8)) 7
    (fun _ _ => rfl) (fun _ _ _ _ _ _ => rfl) (t.val % 8) (by omega) h' s
  rw [e1, e2, h7, Finset.sum_range]
  refine congrArg (_ + ·) (Finset.sum_congr rfl fun j _ => ?_)
  exact add1_batch m c (bOf t) j s

end Cert.KernelIdeal.Accum

end
-- ==== Proof.Final.lean ====
/-
  The four arrays the kernel leaves.  Every grid point writes its block of the two matrix outputs back; the last tile of
  each batch writes the batch's row of each bias output back.  The blocks tile the arrays, so the matrix outputs end
  holding, entry by entry, `pick` of the bound matrix and the two weights, and the bias outputs, for each (batch, spec
  row), the zero word plus the sum over the eight tiles of the partial sums.
-/
import proofs.«158817_j9990093930707_2_alg».proof.Proof.Accum

set_option maxRecDepth 16384

noncomputable section

namespace Cert.KernelIdeal.Final

open Idealize.ShloMosaic Idealize.ShloMosaic.TcCoe Idealize.ShloMosaic.ValueIdx Idealize.SL.Sem
open Cert.KernelIdeal Cert.KernelIdeal.Gen Cert.KernelIdeal.Blocks Cert.KernelIdeal.Accum Cert.BoundSpec

variable (m : (ℓ : Loc nD τ sig) → Buf (Elt Ideal) ℓ)

/-! ## The contents -/

/-- The lower matrix output, pixels flattened: the lower weight where the entry is positive, the upper elsewhere. -/
def G6 (c : Dev nD) : S8x32x3x50176.Idx → EReal := fun i =>
  pick (X0 m c ⟨(i 0).val, (i 0).isLt⟩ ⟨(i 1).val, (i 1).isLt⟩ ⟨(i 2).val, (i 2).isLt⟩ ⟨(i 3).val, (i 3).isLt⟩)
    (LW m c ⟨(i 0).val, (i 0).isLt⟩ ⟨(i 2).val, (i 2).isLt⟩ ⟨(i 3).val, (i 3).isLt⟩)
    (UW m c ⟨(i 0).val, (i 0).isLt⟩ ⟨(i 2).val, (i 2).isLt⟩ ⟨(i 3).val, (i 3).isLt⟩)

/-- The upper matrix output: the upper weight where the entry is positive, the lower elsewhere. -/
def G7 (c : Dev nD) : S8x32x3x50176.Idx → EReal := fun i =>
  pick (X1 m c ⟨(i 0).val, (i 0).isLt⟩ ⟨(i 1).val, (i 1).isLt⟩ ⟨(i 2).val, (i 2).isLt⟩ ⟨(i 3).val, (i 3).isLt⟩)
    (UW m c ⟨(i 0).val, (i 0).isLt⟩ ⟨(i 2).val, (i 2).isLt⟩ ⟨(i 3).val, (i 3).isLt⟩)
    (LW m c ⟨(i 0).val, (i 0).isLt⟩ ⟨(i 2).val, (i 2).isLt⟩ ⟨(i 3).val, (i 3).isLt⟩)

/-- The lower bias output, with its unit axis. -/
def G8 (c : Dev nD) : S8x1x32.Idx → EReal := fun i =>
  Ideal.ofBits .f32 0x00000000#32 + ∑ j : Fin 8, part0 m c ⟨(i 0).val, (i 0).isLt⟩ j ⟨(i 2).val, (i 2).isLt⟩

/-- The upper bias output, with its unit axis. -/
def G9 (c : Dev nD) : S8x1x32.Idx → EReal := fun i =>
  Ideal.ofBits .f32 0x00000000#32 + ∑ j : Fin 8, part1 m c ⟨(i 0).val, (i 0).isLt⟩ j ⟨(i 2).val, (i 2).isLt⟩

theorem G6_ix4 (c : Dev nD) (b : Fin 8) (s : Fin 32) (k : Fin 3) (q : Fin 50176) :
    G6 m c (ix4 b s k q) = pick (X0 m c b s k q) (LW m c b k q) (UW m c b k q) := rfl
theorem G7_ix4 (c : Dev nD) (b : Fin 8) (s : Fin 32) (k : Fin 3) (q : Fin 50176) :
    G7 m c (ix4 b s k q) = pick (X1 m c b s k q) (UW m c b k q) (LW m c b k q) := rfl
theorem G8_ix3 (c : Dev nD) (b : Fin 8) (u : Fin 1) (s : Fin 32) :
    G8 m c (ix3 b u s) = Ideal.ofBits .f32 0x00000000#32 + ∑ j : Fin 8, part0 m c b j s := rfl
theorem G9_ix3 (c : Dev nD) (b : Fin 8) (u : Fin 1) (s : Fin 32) :
    G9 m c (ix3 b u s) = Ideal.ofBits .f32 0x00000000#32 + ∑ j : Fin 8, part1 m c b j s := rfl

/-! ## What a point writes back is its block of the contents -/

theorem flushed6_eq (c : Dev nD) (t : Fin cfg0.N) :
    (dats m 0 c).flushed 6 t = ((cfg0.win 6).blk t).view.read (Elt Ideal) (G6 m c) := by
  show (cfg0.win 6).cut (grid0.coords t) ((dats m 0 c).after 6 t) = _
  rw [after0_6, Cases.out6_eq m c t]
  funext j
  obtain ⟨u, s, k, p, rfl⟩ : ∃ (u : Fin 1) (s : Fin 32) (k : Fin 3) (p : Fin 6272), j = ix4 u s k p :=
    ⟨j 0, j 1, j 2, j 3, eq_ix4 j⟩
  rw [View.read_apply]
  show k0_pay15 (k0_pay10 (iblk m c 0 t) (iblk m c 2 t) (iblk m c 4 t)) (ix4 u s k p)
    = G6 m c (((cfg0.win 6).blk t).view.emb (ix4 u s k p))
  rw [emb6_at t u s k p, PayAt.out6_at (iblk m c 0 t) (iblk m c 2 t) (iblk m c 4 t) u s k p,
    iblk0_at m c t (0 : Fin 1) s k p, iblk2_at m c t (0 : Fin 1) k p, iblk4_at m c t (0 : Fin 1) k p]
  rfl

theorem flushed7_eq (c : Dev nD) (t : Fin cfg0.N) :
    (dats m 0 c).flushed 7 t = ((cfg0.win 7).blk t).view.read (Elt Ideal) (G7 m c) := by
  show (cfg0.win 7).cut (grid0.coords t) ((dats m 0 c).after 7 t) = _
  rw [after0_7, Cases.out7_eq m c t]
  funext j
  obtain ⟨u, s, k, p, rfl⟩ : ∃ (u : Fin 1) (s : Fin 32) (k : Fin 3) (p : Fin 6272), j = ix4 u s k p :=
    ⟨j 0, j 1, j 2, j 3, eq_ix4 j⟩
  rw [View.read_apply]
  show k0_pay16 (k0_pay4 (iblk m c 1 t)) (k0_pay12 (iblk m c 1 t)) (k0_pay13 (iblk m c 4 t)) (k0_pay14 (iblk m c 2 t)) (ix4 u s k p)
    = G7 m c (((cfg0.win 7).blk t).view.emb (ix4 u s k p))
  rw [emb7_at t u s k p, PayAt.out7_at (iblk m c 1 t) (iblk m c 2 t) (iblk m c 4 t) u s k p,
    iblk1_at m c t (0 : Fin 1) s k p, iblk4_at m c t (0 : Fin 1) k p, iblk2_at m c t (0 : Fin 1) k p]
  rfl

theorem flushed8_eq (c : Dev nD) (t : Fin cfg0.N) (hf : (cfg0.win 8).flush t = true) :
    (dats m 0 c).flushed 8 t = ((cfg0.win 8).blk t).view.read (Elt Ideal) (G8 m c) := by
  have h7 : t.val % 8 = 7 := (flush0_8 t).mp hf
  show (cfg0.win 8).cut (grid0.coords t) ((dats m 0 c).after 8 t) = _
  rw [after0_8, Cases.out8_last m c t h7]
  funext j
  obtain ⟨u, u', s, rfl⟩ : ∃ (u u' : Fin 1) (s : Fin 32), j = ix3 u u' s := ⟨j 0, j 1, j 2, eq_ix3 j⟩
  rw [View.read_apply]
  show k0_pay1 ((outsAt0 m c t.val t.isLt).2.2.2.2.1) (ix3 u u' s) = G8 m c (((cfg0.win 8).blk t).view.emb (ix3 u u' s))
  rw [emb8_at t u u' s, PayAt.bias0_at _ u u' s, G8_ix3]
  exact acc0_last m c t h7 s

theorem flushed9_eq (c : Dev nD) (t : Fin cfg0.N) (hf : (cfg0.win 9).flush t = true) :
    (dats m 0 c).flushed 9 t = ((cfg0.win 9).blk t).view.read (Elt Ideal) (G9 m c) := by
  have h7 : t.val % 8 = 7 := (flush0_9 t).mp hf
  show (cfg0.win 9).cut (grid0.coords t) ((dats m 0 c).after 9 t) = _
  rw [after0_9, Cases.out9_last m c t h7]
  funext j
  obtain ⟨u, u', s, rfl⟩ : ∃ (u u' : Fin 1) (s : Fin 32), j = ix3 u u' s := ⟨j 0, j 1, j 2, eq_ix3 j⟩
  rw [View.read_apply]
  show k0_pay2 ((outsAt0 m c t.val t.isLt).2.2.2.2.2) (ix3 u u' s) = G9 m c (((cfg0.win 9).blk t).view.emb (ix3 u u' s))
  rw [emb9_at t u u' s, PayAt.bias1_at _ u u' s, G9_ix3]
  exact acc1_last m c t h7 s

/-! ## The blocks tile the arrays -/

theorem mem_blk6 (t : Fin cfg0.N) (i : S8x32x3x50176.Idx) :
    i ∈ ((cfg0.win 6).blk t).view.set ↔ ∀ a : Fin 4, win0_6.index t a * S1x32x3x6272.size a ≤ (i a).val
      ∧ (i a).val < win0_6.index t a * S1x32x3x6272.size a + S1x32x3x6272.size a := by
  show i ∈ ((View.whole main_v139_0).slice (win0_6.rect t)).set ↔ _
  rw [View.set_slice_whole, Rect.mem_set_unit]
  exact Iff.rfl

theorem mem_blk7 (t : Fin cfg0.N) (i : S8x32x3x50176.Idx) :
    i ∈ ((cfg0.win 7).blk t).view.set ↔ ∀ a : Fin 4, win0_7.index t a * S1x32x3x6272.size a ≤ (i a).val
      ∧ (i a).val < win0_7.index t a * S1x32x3x6272.size a + S1x32x3x6272.size a := by
  show i ∈ ((View.whole main_v139_1).slice (win0_7.rect t)).set ↔ _
  rw [View.set_slice_whole, Rect.mem_set_unit]
  exact Iff.rfl

theorem mem_blk8 (t : Fin cfg0.N) (i : S8x1x32.Idx) :
    i ∈ ((cfg0.win 8).blk t).view.set ↔ ∀ a : Fin 3, win0_8.index t a * S1x1x32.size a ≤ (i a).val
      ∧ (i a).val < win0_8.index t a * S1x1x32.size a + S1x1x32.size a := by
  show i ∈ ((View.whole main_v139_2).slice (win0_8.rect t)).set ↔ _
  rw [View.set_slice_whole, Rect.mem_set_unit]
  exact Iff.rfl

theorem mem_blk9 (t : Fin cfg0.N) (i : S8x1x32.Idx) :
    i ∈ ((cfg0.win 9).blk t).view.set ↔ ∀ a : Fin 3, win0_9.index t a * S1x1x32.size a ≤ (i a).val
      ∧ (i a).val < win0_9.index t a * S1x1x32.size a + S1x1x32.size a := by
  show i ∈ ((View.whole main_v139_3).slice (win0_9.rect t)).set ↔ _
  rw [View.set_slice_whole, Rect.mem_set_unit]
  exact Iff.rfl

/-- The point that writes entry (batch, spec row, channel, flat pixel `q`) is batch's tile `q / 6272`. -/
theorem cover6 (i : S8x32x3x50176.Idx) :
    ∃ t : Fin cfg0.N, (cfg0.win 6).flush t = true ∧ i ∈ ((cfg0.win 6).blk t).view.set := by
  have h0 : (i 0).val < 8 := (i 0).isLt
  have h1 : (i 1).val < 32 := (i 1).isLt
  have h2 : (i 2).val < 3 := (i 2).isLt
  have h3 : (i 3).val < 50176 := (i 3).isLt
  have hN : cfg0.N = 64 := N_0
  have hlt : 8 * (i 0).val + (i 3).val / 6272 < cfg0.N := by omega
  refine ⟨⟨8 * (i 0).val + (i 3).val / 6272, hlt⟩, flush0_6 _, ?_⟩
  rw [mem_blk6]
  obtain ⟨e0, e1, e2, e3⟩ := idx6 ⟨8 * (i 0).val + (i 3).val / 6272, hlt⟩
  have v : (⟨8 * (i 0).val + (i 3).val / 6272, hlt⟩ : Fin cfg0.N).val = 8 * (i 0).val + (i 3).val / 6272 := rfl
  rw [v] at e0 e3
  intro a
  match a with
  | ⟨0, _⟩ =>
    show win0_6.index _ (0 : Fin 4) * 1 ≤ (i 0).val ∧ (i 0).val < win0_6.index _ (0 : Fin 4) * 1 + 1
    rw [e0]; omega
  | ⟨1, _⟩ =>
    show win0_6.index _ (1 : Fin 4) * 32 ≤ (i 1).val ∧ (i 1).val < win0_6.index _ (1 : Fin 4) * 32 + 32
    rw [e1]; omega
  | ⟨2, _⟩ =>
    show win0_6.index _ (2 : Fin 4) * 3 ≤ (i 2).val ∧ (i 2).val < win0_6.index _ (2 : Fin 4) * 3 + 3
    rw [e2]; omega
  | ⟨3, _⟩ =>
    show win0_6.index _ (3 : Fin 4) * 6272 ≤ (i 3).val ∧ (i 3).val < win0_6.index _ (3 : Fin 4) * 6272 + 6272
    rw [e3]; omega

theorem cover7 (i : S8x32x3x50176.Idx) :
    ∃ t : Fin cfg0.N, (cfg0.win 7).flush t = true ∧ i ∈ ((cfg0.win 7).blk t).view.set := by
  have h0 : (i 0).val < 8 := (i 0).isLt
  have h1 : (i 1).val < 32 := (i 1).isLt
  have h2 : (i 2).val < 3 := (i 2).isLt
  have h3 : (i 3).val < 50176 := (i 3).isLt
  have hN : cfg0.N = 64 := N_0
  have hlt : 8 * (i 0).val + (i 3).val / 6272 < cfg0.N := by omega
  refine ⟨⟨8 * (i 0).val + (i 3).val / 6272, hlt⟩, flush0_7 _, ?_⟩
  rw [mem_blk7]
  obtain ⟨e0, e1, e2, e3⟩ := idx7 ⟨8 * (i 0).val + (i 3).val / 6272, hlt⟩
  have v : (⟨8 * (i 0).val + (i 3).val / 6272, hlt⟩ : Fin cfg0.N).val = 8 * (i 0).val + (i 3).val / 6272 := rfl
  rw [v] at e0 e3
  intro a
  match a with
  | ⟨0, _⟩ =>
    show win0_7.index _ (0 : Fin 4) * 1 ≤ (i 0).val ∧ (i 0).val < win0_7.index _ (0 : Fin 4) * 1 + 1
    rw [e0]; omega
  | ⟨1, _⟩ =>
    show win0_7.index _ (1 : Fin 4) * 32 ≤ (i 1).val ∧ (i 1).val < win0_7.index _ (1 : Fin 4) * 32 + 32
    rw [e1]; omega
  | ⟨2, _⟩ =>
    show win0_7.index _ (2 : Fin 4) * 3 ≤ (i 2).val ∧ (i 2).val < win0_7.index _ (2 : Fin 4) * 3 + 3
    rw [e2]; omega
  | ⟨3, _⟩ =>
    show win0_7.index _ (3 : Fin 4) * 6272 ≤ (i 3).val ∧ (i 3).val < win0_7.index _ (3 : Fin 4) * 6272 + 6272
    rw [e3]; omega

/-- The point that writes batch `b`'s row of biases is the batch's last tile, `8 b + 7`. -/
theorem cover8 (i : S8x1x32.Idx) :
    ∃ t : Fin cfg0.N, (cfg0.win 8).flush t = true ∧ i ∈ ((cfg0.win 8).blk t).view.set := by
  have h0 : (i 0).val < 8 := (i 0).isLt
  have h1 : (i 1).val < 1 := (i 1).isLt
  have h2 : (i 2).val < 32 := (i 2).isLt
  have hN : cfg0.N = 64 := N_0
  have hlt : 8 * (i 0).val + 7 < cfg0.N := by omega
  refine ⟨⟨8 * (i 0).val + 7, hlt⟩, (flush0_8 _).mpr (by show (8 * (i 0).val + 7) % 8 = 7; omega), ?_⟩
  rw [mem_blk8]
  obtain ⟨e0, e1, e2⟩ := idx8 ⟨8 * (i 0).val + 7, hlt⟩
  have v : (⟨8 * (i 0).val + 7, hlt⟩ : Fin cfg0.N).val = 8 * (i 0).val + 7 := rfl
  rw [v] at e0
  intro a
  match a with
  | ⟨0, _⟩ =>
    show win0_8.index _ (0 : Fin 3) * 1 ≤ (i 0).val ∧ (i 0).val < win0_8.index _ (0 : Fin 3) * 1 + 1
    rw [e0]; omega
  | ⟨1, _⟩ =>
    show win0_8.index _ (1 : Fin 3) * 1 ≤ (i 1).val ∧ (i 1).val < win0_8.index _ (1 : Fin 3) * 1 + 1
    rw [e1]; omega
  | ⟨2, _⟩ =>
    show win0_8.index _ (2 : Fin 3) * 32 ≤ (i 2).val ∧ (i 2).val < win0_8.index _ (2 : Fin 3) * 32 + 32
    rw [e2]; omega

theorem cover9 (i : S8x1x32.Idx) :
    ∃ t : Fin cfg0.N, (cfg0.win 9).flush t = true ∧ i ∈ ((cfg0.win 9).blk t).view.set := by
  have h0 : (i 0).val < 8 := (i 0).isLt
  have h1 : (i 1).val < 1 := (i 1).isLt
  have h2 : (i 2).val < 32 := (i 2).isLt
  have hN : cfg0.N = 64 := N_0
  have hlt : 8 * (i 0).val + 7 < cfg0.N := by omega
  refine ⟨⟨8 * (i 0).val + 7, hlt⟩, (flush0_9 _).mpr (by show (8 * (i 0).val + 7) % 8 = 7; omega), ?_⟩
  rw [mem_blk9]
  obtain ⟨e0, e1, e2⟩ := idx9 ⟨8 * (i 0).val + 7, hlt⟩
  have v : (⟨8 * (i 0).val + 7, hlt⟩ : Fin cfg0.N).val = 8 * (i 0).val + 7 := rfl
  rw [v] at e0
  intro a
  match a with
  | ⟨0, _⟩ =>
    show win0_9.index _ (0 : Fin 3) * 1 ≤ (i 0).val ∧ (i 0).val < win0_9.index _ (0 : Fin 3) * 1 + 1
    rw [e0]; omega
  | ⟨1, _⟩ =>
    show win0_9.index _ (1 : Fin 3) * 1 ≤ (i 1).val ∧ (i 1).val < win0_9.index _ (1 : Fin 3) * 1 + 1
    rw [e1]; omega
  | ⟨2, _⟩ =>
    show win0_9.index _ (2 : Fin 3) * 32 ≤ (i 2).val ∧ (i 2).val < win0_9.index _ (2 : Fin 3) * 32 + 32
    rw [e2]; omega

/-! ## The arrays after the run -/

theorem final6 (c : Dev nD) : (dats m 0 c).arrAt 6 cfg0.N = G6 m c :=
  (dats m 0 c).arrAt_eq_of_cover 6 (G6 m c) (fun t _ => flushed6_eq m c t) cover6

theorem final7 (c : Dev nD) : (dats m 0 c).arrAt 7 cfg0.N = G7 m c :=
  (dats m 0 c).arrAt_eq_of_cover 7 (G7 m c) (fun t _ => flushed7_eq m c t) cover7

theorem final8 (c : Dev nD) : (dats m 0 c).arrAt 8 cfg0.N = G8 m c :=
  (dats m 0 c).arrAt_eq_of_cover 8 (G8 m c) (fun t hf => flushed8_eq m c t hf) cover8

theorem final9 (c : Dev nD) : (dats m 0 c).arrAt 9 cfg0.N = G9 m c :=
  (dats m 0 c).arrAt_eq_of_cover 9 (G9 m c) (fun t hf => flushed9_eq m c t hf) cover9

end Cert.KernelIdeal.Final

end
-- ==== Proof.Coeffs.lean ====
/-
  The four per-pixel coefficients of the activation's linear relaxation — lower weight, lower offset, upper weight, upper
  offset — as functions of the pre-activation bounds and the two tangent tables: both programs compute them by the same
  chain of host operations, named here by the reference's stages of the kernel program's argument arrays.
-/
import proofs.«158817_j9990093930707_2_alg».proof.Proof.Gen.KernelIdeal
import proofs.«158817_j9990093930707_2_alg».proof.Proof.Gen.ReferenceIdeal.Read

noncomputable section

namespace Cert.KernelIdeal.HostPre

open Idealize.ShloMosaic Idealize.ShloMosaic.TcCoe Idealize.SL.Sem
open Cert.KernelIdeal

variable {F : FTy → Type} [FloatOps F]
variable (m : (ℓ : Loc nD τ sig) → Buf (Elt F) ℓ)

/-- The lower weight as a function of the bounds and the lower tangent table. -/
abbrev lwOf (c : Dev nD) : S8x3x224x224.Idx → Elt F .f32 :=
  Cert.ReferenceIdeal.Read.val_main_v98 (F := F) (m ((c : Thread nD τ).loc main_arg2)) (m ((c : Thread nD τ).loc main_arg3))
    (m ((c : Thread nD τ).loc main_arg4))
/-- The lower offset. -/
abbrev lbOf (c : Dev nD) : S8x3x224x224.Idx → Elt F .f32 :=
  Cert.ReferenceIdeal.Read.val_main_v103 (F := F) (m ((c : Thread nD τ).loc main_arg2)) (m ((c : Thread nD τ).loc main_arg3))
    (m ((c : Thread nD τ).loc main_arg4))
/-- The upper weight, from the upper tangent table. -/
abbrev uwOf (c : Dev nD) : S8x3x224x224.Idx → Elt F .f32 :=
  Cert.ReferenceIdeal.Read.val_main_v127 (F := F) (m ((c : Thread nD τ).loc main_arg2)) (m ((c : Thread nD τ).loc main_arg3))
    (m ((c : Thread nD τ).loc main_arg5))
/-- The upper offset. -/
abbrev ubOf (c : Dev nD) : S8x3x224x224.Idx → Elt F .f32 :=
  Cert.ReferenceIdeal.Read.val_main_v132 (F := F) (m ((c : Thread nD τ).loc main_arg2)) (m ((c : Thread nD τ).loc main_arg3))
    (m ((c : Thread nD τ).loc main_arg5))

end Cert.KernelIdeal.HostPre

end
-- ==== Proof.HostX.lean ====
/-
  The two bound matrices as the kernel's windows find them: the host flattens their pixels and nothing else touches them.
-/
import proofs.«158817_j9990093930707_2_alg».proof.Proof.Gen.KernelIdeal.Frame
import proofs.«158817_j9990093930707_2_alg».proof.Proof.Coeffs
import Idealize.ShloMosaic.Lib.StableHlo.Run

set_option maxRecDepth 16384

noncomputable section

namespace Cert.KernelIdeal.HostPre

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ)

set_option maxHeartbeats 20000000 in
/-- The lower bound matrix, pixels flattened. -/
theorem V133_eq (c : Dev nD) : (V m c main_v133 : S8x32x3x50176.Idx → Elt F .f32)
    = shapeCast S8x32x3x50176 (m ((c : Thread nD τ).loc main_arg0)) shapeCasts_S8x32x3x224x224_S8x32x3x50176 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp
  rfl

set_option maxHeartbeats 20000000 in
/-- The upper bound matrix, pixels flattened. -/
theorem V134_eq (c : Dev nD) : (V m c main_v134 : S8x32x3x50176.Idx → Elt F .f32)
    = shapeCast S8x32x3x50176 (m ((c : Thread nD τ).loc main_arg1)) shapeCasts_S8x32x3x224x224_S8x32x3x50176 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp
  rfl

end Cert.KernelIdeal.HostPre

end
-- ==== Proof.HostLW.lean ====
/-
  The lower weight as the kernel's window finds it: computed by the host, pixels flattened. The host operations before the call are run through once; what they leave in the window's array is the reference's stage of the same arguments, the two chains being the same operations.
-/
import proofs.«158817_j9990093930707_2_alg».proof.Proof.Gen.KernelIdeal.Frame
import proofs.«158817_j9990093930707_2_alg».proof.Proof.Coeffs
import Idealize.ShloMosaic.Lib.StableHlo.Run

set_option maxRecDepth 16384

noncomputable section

namespace Cert.KernelIdeal.HostPre

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ)

set_option maxHeartbeats 100000000 in
/-- The lower weight as the kernel's window finds it: computed by the host, pixels flattened. -/
theorem V135_eq (c : Dev nD) : (V m c main_v135 : S8x3x50176.Idx → Elt F .f32)
    = shapeCast S8x3x50176 (lwOf m c) shapeCasts_S8x3x224x224_S8x3x50176 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp
  rfl

end Cert.KernelIdeal.HostPre

end
-- ==== Proof.HostLB.lean ====
/-
  The lower offset as the kernel's window finds it: computed by the host, pixels flattened. The host operations before the call are run through once; what they leave in the window's array is the reference's stage of the same arguments, the two chains being the same operations.
-/
import proofs.«158817_j9990093930707_2_alg».proof.Proof.Gen.KernelIdeal.Frame
import proofs.«158817_j9990093930707_2_alg».proof.Proof.Coeffs
import Idealize.ShloMosaic.Lib.StableHlo.Run

set_option maxRecDepth 16384

noncomputable section

namespace Cert.KernelIdeal.HostPre

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ)

set_option maxHeartbeats 100000000 in
/-- The lower offset as the kernel's window finds it: computed by the host, pixels flattened. -/
theorem V136_eq (c : Dev nD) : (V m c main_v136 : S8x3x50176.Idx → Elt F .f32)
    = shapeCast S8x3x50176 (lbOf m c) shapeCasts_S8x3x224x224_S8x3x50176 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp
  rfl

end Cert.KernelIdeal.HostPre

end
-- ==== Proof.HostUW.lean ====
/-
  The upper weight as the kernel's window finds it: computed by the host, pixels flattened. The host operations before the call are run through once; what they leave in the window's array is the reference's stage of the same arguments, the two chains being the same operations.
-/
import proofs.«158817_j9990093930707_2_alg».proof.Proof.Gen.KernelIdeal.Frame
import proofs.«158817_j9990093930707_2_alg».proof.Proof.Coeffs
import Idealize.ShloMosaic.Lib.StableHlo.Run

set_option maxRecDepth 16384

noncomputable section

namespace Cert.KernelIdeal.HostPre

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ)

set_option maxHeartbeats 100000000 in
/-- The upper weight as the kernel's window finds it: computed by the host, pixels flattened. -/
theorem V137_eq (c : Dev nD) : (V m c main_v137 : S8x3x50176.Idx → Elt F .f32)
    = shapeCast S8x3x50176 (uwOf m c) shapeCasts_S8x3x224x224_S8x3x50176 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp
  rfl

end Cert.KernelIdeal.HostPre

end
-- ==== Proof.HostUB.lean ====
/-
  The upper offset as the kernel's window finds it: computed by the host, pixels flattened. The host operations before the call are run through once; what they leave in the window's array is the reference's stage of the same arguments, the two chains being the same operations.
-/
import proofs.«158817_j9990093930707_2_alg».proof.Proof.Gen.KernelIdeal.Frame
import proofs.«158817_j9990093930707_2_alg».proof.Proof.Coeffs
import Idealize.ShloMosaic.Lib.StableHlo.Run

set_option maxRecDepth 16384

noncomputable section

namespace Cert.KernelIdeal.HostPre

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ)

set_option maxHeartbeats 100000000 in
/-- The upper offset as the kernel's window finds it: computed by the host, pixels flattened. -/
theorem V138_eq (c : Dev nD) : (V m c main_v138 : S8x3x50176.Idx → Elt F .f32)
    = shapeCast S8x3x50176 (ubOf m c) shapeCasts_S8x3x224x224_S8x3x50176 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp
  rfl

end Cert.KernelIdeal.HostPre

end
-- ==== Proof.Layout.lean ====
/-
  The host's reshapes around the kernel, read at an index.  The image's 224 × 224 pixels are flattened row-major to
  50176 before the kernel and cut back after it: flat pixel `q` is (row `q / 224`, column `q % 224`), and (row `r`,
  column `w`) is flat pixel `224 · r + w`.  The bias blocks `[8, 1, 32]` lose their unit axis.
-/
import proofs.«158817_j9990093930707_2_alg».proof.Proof.Gen.KernelIdeal
import Idealize.ShloMosaic.Lib.Pipeline.Value
import Idealize.ShloMosaic.Lib.ValueIdx

noncomputable section

namespace Cert.KernelIdeal.Layout

open Idealize.ShloMosaic Idealize.ShloMosaic.ValueIdx
open Cert.KernelIdeal Cert.KernelIdeal.Gen

variable {α : Type}

/-- The image row of a flat pixel. -/
def rowOf (q : Fin 50176) : Fin 224 := ⟨q.val / 224, by have := q.isLt; omega⟩
/-- The image column of a flat pixel. -/
def colOf (q : Fin 50176) : Fin 224 := ⟨q.val % 224, Nat.mod_lt _ (by decide)⟩
/-- The flat pixel of an image position. -/
def flatOf (r w : Fin 224) : Fin 50176 := ⟨r.val * 224 + w.val, by have := r.isLt; have := w.isLt; omega⟩

theorem rowOf_flatOf (r w : Fin 224) : rowOf (flatOf r w) = r := Fin.ext (by
  show (r.val * 224 + w.val) / 224 = r.val
  have := w.isLt; omega)

theorem colOf_flatOf (r w : Fin 224) : colOf (flatOf r w) = w := Fin.ext (by
  show (r.val * 224 + w.val) % 224 = w.val
  have := w.isLt; omega)

/-- A bound matrix with its pixels flattened, at (batch, spec row, channel, flat pixel). -/
theorem flat5_at (x : S8x32x3x224x224.Idx → α) (b : Fin 8) (s : Fin 32) (k : Fin 3) (q : Fin 50176) :
    shapeCast S8x32x3x50176 x shapeCasts_S8x32x3x224x224_S8x32x3x50176 (ix4 b s k q) = x (ix5 b s k (rowOf q) (colOf q)) :=
  shapeCast_apply x shapeCasts_S8x32x3x224x224_S8x32x3x50176 (ix4 b s k q) (ix5 b s k (rowOf q) (colOf q)) (by
    rw [Shape.rowMajor_val_five, Shape.rowMajor_val_four]
    show (((b.val * 32 + s.val) * 3 + k.val) * 224 + q.val / 224) * 224 + q.val % 224
      = ((b.val * 32 + s.val) * 3 + k.val) * 50176 + q.val
    omega)

/-- A coefficient array with its pixels flattened, at (batch, channel, flat pixel). -/
theorem flat4_at (x : S8x3x224x224.Idx → α) (b : Fin 8) (k : Fin 3) (q : Fin 50176) :
    shapeCast S8x3x50176 x shapeCasts_S8x3x224x224_S8x3x50176 (ix3 b k q) = x (ix4 b k (rowOf q) (colOf q)) :=
  shapeCast_apply x shapeCasts_S8x3x224x224_S8x3x50176 (ix3 b k q) (ix4 b k (rowOf q) (colOf q)) (by
    rw [Shape.rowMajor_val_four, Shape.rowMajor_val_three]
    show ((b.val * 3 + k.val) * 224 + q.val / 224) * 224 + q.val % 224 = (b.val * 3 + k.val) * 50176 + q.val
    omega)

/-- A flattened bound matrix cut back to image rows and columns. -/
theorem unflat5_at (y : S8x32x3x50176.Idx → α) (b : Fin 8) (s : Fin 32) (k : Fin 3) (r w : Fin 224) :
    shapeCast S8x32x3x224x224 y shapeCasts_S8x32x3x50176_S8x32x3x224x224 (ix5 b s k r w) = y (ix4 b s k (flatOf r w)) :=
  shapeCast_apply y shapeCasts_S8x32x3x50176_S8x32x3x224x224 (ix5 b s k r w) (ix4 b s k (flatOf r w)) (by
    rw [Shape.rowMajor_val_four, Shape.rowMajor_val_five]
    show ((b.val * 32 + s.val) * 3 + k.val) * 50176 + (r.val * 224 + w.val)
      = (((b.val * 32 + s.val) * 3 + k.val) * 224 + r.val) * 224 + w.val
    omega)

/-- The bias blocks without their unit axis. -/
theorem squeeze_at (y : S8x1x32.Idx → α) (b : Fin 8) (s : Fin 32) :
    shapeCast S8x32 y shapeCasts_S8x1x32_S8x32 (ix2 b s) = y (ix3 b (0 : Fin 1) s) :=
  shapeCast_apply y shapeCasts_S8x1x32_S8x32 (ix2 b s) (ix3 b (0 : Fin 1) s) (by
    rw [Shape.rowMajor_val_three, Shape.rowMajor_val_two]
    show (b.val * 1 + 0) * 32 + s.val = b.val * 32 + s.val
    omega)

end Cert.KernelIdeal.Layout

end
-- ==== Proof.HostPre.lean ====
/-
  The six arrays the kernel's windows read, at an entry: flat pixel `q` of a window's array is (row `q / 224`, column
  `q % 224`) of a bound matrix or of a coefficient.
-/
import proofs.«158817_j9990093930707_2_alg».proof.Proof.HostX
import proofs.«158817_j9990093930707_2_alg».proof.Proof.HostLW
import proofs.«158817_j9990093930707_2_alg».proof.Proof.HostLB
import proofs.«158817_j9990093930707_2_alg».proof.Proof.HostUW
import proofs.«158817_j9990093930707_2_alg».proof.Proof.HostUB
import proofs.«158817_j9990093930707_2_alg».proof.Proof.Layout

set_option maxRecDepth 16384

noncomputable section

namespace Cert.KernelIdeal.HostPre

open Idealize.ShloMosaic Idealize.ShloMosaic.TcCoe Idealize.ShloMosaic.ValueIdx Idealize.SL.Sem
open Cert.KernelIdeal Cert.KernelIdeal.Gen Cert.KernelIdeal.Layout

variable {F : FTy → Type} [FloatOps F]
variable (m : (ℓ : Loc nD τ sig) → Buf (Elt F) ℓ)

theorem V133_at (c : Dev nD) (b : Fin 8) (s : Fin 32) (k : Fin 3) (q : Fin 50176) :
    V m c main_v133 (ix4 b s k q) = m ((c : Thread nD τ).loc main_arg0) (ix5 b s k (rowOf q) (colOf q)) := by
  rw [V133_eq m c]; exact flat5_at _ b s k q

theorem V134_at (c : Dev nD) (b : Fin 8) (s : Fin 32) (k : Fin 3) (q : Fin 50176) :
    V m c main_v134 (ix4 b s k q) = m ((c : Thread nD τ).loc main_arg1) (ix5 b s k (rowOf q) (colOf q)) := by
  rw [V134_eq m c]; exact flat5_at _ b s k q

theorem V135_at (c : Dev nD) (b : Fin 8) (k : Fin 3) (q : Fin 50176) :
    V m c main_v135 (ix3 b k q) = lwOf m c (ix4 b k (rowOf q) (colOf q)) := by
  rw [V135_eq m c]; exact flat4_at _ b k q

theorem V136_at (c : Dev nD) (b : Fin 8) (k : Fin 3) (q : Fin 50176) :
    V m c main_v136 (ix3 b k q) = lbOf m c (ix4 b k (rowOf q) (colOf q)) := by
  rw [V136_eq m c]; exact flat4_at _ b k q

theorem V137_at (c : Dev nD) (b : Fin 8) (k : Fin 3) (q : Fin 50176) :
    V m c main_v137 (ix3 b k q) = uwOf m c (ix4 b k (rowOf q) (colOf q)) := by
  rw [V137_eq m c]; exact flat4_at _ b k q

theorem V138_at (c : Dev nD) (b : Fin 8) (k : Fin 3) (q : Fin 50176) :
    V m c main_v138 (ix3 b k q) = ubOf m c (ix4 b k (rowOf q) (colOf q)) := by
  rw [V138_eq m c]; exact flat4_at _ b k q

end Cert.KernelIdeal.HostPre

end
-- ==== Proof.SumTiles.lean ====
/-
  The sum over 8 pixel tiles of 6272, inside each over the 3 channels, is the sum over the 150528 = 3 · 50176
  row-major positions (channel, pixel), in any commutative additive monoid.

  Both steps are the same fact: a sum over `Fin (m * n)` is the iterated sum over `Fin m` and `Fin n` of the term at
  `a * n + b` (the product of the two ranges is the range of the product, by quotient and remainder).
-/
import Mathlib.Algebra.BigOperators.Fin
import Mathlib.Logic.Equiv.Fin.Basic

namespace Cert.SumTiles

/-- Position `a * n + b` of a row-major pair lies below `m * n`. -/
theorem mul_add_lt {m n : Nat} (a : Fin m) (b : Fin n) : a.val * n + b.val < m * n :=
  calc a.val * n + b.val < a.val * n + n := Nat.add_lt_add_left b.isLt _
    _ = (a.val + 1) * n := (Nat.add_one_mul _ _).symm
    _ ≤ m * n := Nat.mul_le_mul_right n a.isLt

/-- A sum over `N = m * n` positions is the sum over the `m` rows of the sums over the `n` columns, position
    `a * n + b` being row `a`, column `b`. -/
theorem sum_fin_mul {M : Type*} [AddCommMonoid M] {N : Nat} (m n : Nat) (h : m * n = N) (f : Fin N → M) :
    ∑ k : Fin N, f k = ∑ a : Fin m, ∑ b : Fin n, f ⟨a.val * n + b.val, h ▸ mul_add_lt a b⟩ := by
  subst h
  rw [← Equiv.sum_comp finProdFinEquiv f, Fintype.sum_prod_type]
  refine Finset.sum_congr rfl fun a _ => Finset.sum_congr rfl fun b _ => congrArg f (Fin.ext ?_)
  show b.val + n * a.val = a.val * n + b.val
  rw [Nat.mul_comm, Nat.add_comm]

/-- The tiled sum is the row-major sum. -/
theorem sum_tiles {M : Type*} [AddCommMonoid M] (g : Fin 3 → Fin 50176 → M) :
    ∑ h : Fin 8, ∑ c : Fin 3, ∑ t : Fin 6272, g c ⟨h.val * 6272 + t.val, by have := h.isLt; have := t.isLt; omega⟩
      = ∑ k : Fin 150528, g ⟨k.val / 50176, by have := k.isLt; omega⟩ ⟨k.val % 50176, Nat.mod_lt _ (by decide)⟩ := by
  -- the channel outermost on the left; the right-hand side split into channel and pixel
  rw [Finset.sum_comm]
  refine Eq.trans ?_ (sum_fin_mul 3 50176 rfl _).symm
  refine Finset.sum_congr rfl fun c _ => ?_
  -- one channel: its pixels split into tile and offset
  refine Eq.trans ?_ (sum_fin_mul 8 6272 rfl _).symm
  refine Finset.sum_congr rfl fun h _ => Finset.sum_congr rfl fun t _ => ?_
  have hc := c.isLt; have hh := h.isLt; have ht := t.isLt
  refine congrArg₂ g (Fin.ext ?_) (Fin.ext ?_)
  · show c.val = (c.val * 50176 + (h.val * 6272 + t.val)) / 50176
    omega
  · show h.val * 6272 + t.val = (c.val * 50176 + (h.val * 6272 + t.val)) % 50176
    omega

end Cert.SumTiles
-- ==== Proof.Bridge.lean ====
/-
  Pure index work joining the kernel's tiled form to the specification.

  The matrix outputs: the kernel works on flattened pixels, so an entry at image (row r, column w) is read through its
  flat pixel 224 · r + w, whose row and column are r and w again.

  The bias outputs: the kernel sums, for each (batch, spec row), over 8 pixel tiles, inside each over the 3 channels
  and the tile's 6272 pixels; the specification sums over the spec row's 150528 = 3 · 224 · 224 positions in row-major
  order.  Position k is channel k / 50176 and flat pixel k % 50176, whose image row (k % 50176) / 224 is
  k / 224 % 224 and whose image column (k % 50176) % 224 is k % 224, because 50176 = 224 · 224.
-/
import proofs.«158817_j9990093930707_2_alg».proof.Proof.Spec
import proofs.«158817_j9990093930707_2_alg».proof.Proof.SumTiles
import proofs.«158817_j9990093930707_2_alg».proof.Proof.Layout
import proofs.«158817_j9990093930707_2_alg».proof.Proof.Blocks

namespace Cert.KernelIdeal.Bridge

open Idealize.ShloMosaic Idealize.ShloMosaic.ValueIdx Cert.BoundSpec Cert.KernelIdeal.Layout Cert.KernelIdeal.Blocks

/-- The matrix outputs: an entry at (row r, column w) read through its flat pixel. -/
theorem mat_bridge (x : SA.Idx → EReal) (wp wn : SW.Idx → EReal) (b : Fin 8) (s : Fin 32) (k : Fin 3) (r w : Fin 224) :
    pick (x (ix5 b s k (rowOf (flatOf r w)) (colOf (flatOf r w)))) (wp (ix4 b k (rowOf (flatOf r w)) (colOf (flatOf r w))))
        (wn (ix4 b k (rowOf (flatOf r w)) (colOf (flatOf r w))))
      = outA x wp wn (ix5 b s k r w) := by
  rw [rowOf_flatOf, colOf_flatOf, outA_ix5]

/-- Position k of a spec row, as channel k / 50176 and the image row and column of flat pixel k % 50176. -/
theorem rowPos_eq (b : Fin 8) (s : Fin 32) (k : Fin 150528) (hc : k.val / 50176 < 3) (hq : k.val % 50176 < 50176) :
    rowPos b s k = ix5 b s (⟨k.val / 50176, hc⟩ : Fin 3) (rowOf ⟨k.val % 50176, hq⟩) (colOf ⟨k.val % 50176, hq⟩) := by
  have e3 : (⟨k.val / 224 % 224, Nat.mod_lt _ (by decide)⟩ : Fin 224) = rowOf ⟨k.val % 50176, hq⟩ :=
    Fin.ext (by show k.val / 224 % 224 = k.val % 50176 / 224; omega)
  have e4 : (⟨k.val % 224, Nat.mod_lt _ (by decide)⟩ : Fin 224) = colOf ⟨k.val % 50176, hq⟩ :=
    Fin.ext (by show k.val % 224 = k.val % 50176 % 224; omega)
  exact congrArg₂ (fun r w : Fin 224 => ix5 b s (⟨k.val / 50176, hc⟩ : Fin 3) r w) e3 e4

/-- The bias outputs: the sum over 8 tiles, 3 channels and 6272 pixels of a tile is the sum over the spec row's 150528
    row-major positions. -/
theorem bias_bridge (x : SA.Idx → EReal) (bp bn : SW.Idx → EReal) (b : Fin 8) (s : Fin 32) :
    Ideal.ofBits .f32 0x00000000#32 + ∑ j : Fin 8, ∑ k : Fin 3, ∑ p : Fin 6272,
        pick (x (ix5 b s k (rowOf (pix j p)) (colOf (pix j p)))) (bp (ix4 b k (rowOf (pix j p)) (colOf (pix j p))))
          (bn (ix4 b k (rowOf (pix j p)) (colOf (pix j p))))
      = outB x bp bn (ix2 b s) := by
  rw [outB_ix2]
  refine congrArg (fun z : EReal => (Ideal.ofBits .f32 0x00000000#32 : EReal) + z) ?_
  refine (Cert.SumTiles.sum_tiles (fun (k : Fin 3) (q : Fin 50176) =>
    pick (x (ix5 b s k (rowOf q) (colOf q))) (bp (ix4 b k (rowOf q) (colOf q))) (bn (ix4 b k (rowOf q) (colOf q))))).trans ?_
  refine Finset.sum_congr rfl fun k' _ => ?_
  have hc : k'.val / 50176 < 3 := by have := k'.isLt; omega
  have hq : k'.val % 50176 < 50176 := Nat.mod_lt _ (by decide)
  rw [rowPos_eq b s k' hc hq, dropSpec_ix5]

end Cert.KernelIdeal.Bridge
-- ==== Proof.KRun.lean ====
/-
  The idealized kernel's run, read: after the reshapes that follow the call, the four results are the specification's
  functions of the argument arrays — the two matrix outputs `outA` of a bound matrix and the two weights, the two bias
  outputs `outB` of a bound matrix and the two offsets — and the arguments are unchanged.
-/
import proofs.«158817_j9990093930707_2_alg».proof.Proof.Final
import proofs.«158817_j9990093930707_2_alg».proof.Proof.HostPre
import proofs.«158817_j9990093930707_2_alg».proof.Proof.Bridge
import Idealize.ShloMosaic.Lib.StableHlo.Run

set_option maxRecDepth 16384

noncomputable section

namespace Cert.KernelIdeal.KRun

open Idealize.ShloMosaic Idealize.ShloMosaic.TcCoe Idealize.ShloMosaic.ValueIdx Idealize.SL.Sem Idealize.ShloMosaic.StableHlo
open Cert.KernelIdeal Cert.KernelIdeal.Gen Cert.KernelIdeal.Blocks Cert.KernelIdeal.Accum Cert.KernelIdeal.Final
open Cert.KernelIdeal.Layout Cert.KernelIdeal.HostPre Cert.KernelIdeal.Bridge Cert.BoundSpec

variable (m : (ℓ : Loc nD τ sig) → Buf (Elt Ideal) ℓ) (ρ : Dev nD → PrngReg)

/-! ## The reshapes after the call -/

theorem tail140 (c : Dev nD) : Pipeline.afterTail₀ cfgs (dats m) 0 (V0 m) [hostOps1] c main_v140
    = shapeCast S8x32x3x224x224 (G6 m c) shapeCasts_S8x32x3x50176_S8x32x3x224x224 := by
  unfold Pipeline.afterTail₀
  show StableHlo.after hostOps1 _ (Proc.devRef .tc main_v140) = _
  after_results
  rw [Pipeline.withArrays_arr spec0 launch0.win.arr_inj c _ _ 6, final6 m c]
  rfl

theorem tail141 (c : Dev nD) : Pipeline.afterTail₀ cfgs (dats m) 0 (V0 m) [hostOps1] c main_v141
    = shapeCast S8x32x3x224x224 (G7 m c) shapeCasts_S8x32x3x50176_S8x32x3x224x224 := by
  unfold Pipeline.afterTail₀
  show StableHlo.after hostOps1 _ (Proc.devRef .tc main_v141) = _
  after_results
  rw [Pipeline.withArrays_arr spec0 launch0.win.arr_inj c _ _ 7, final7 m c]
  rfl

theorem tail142 (c : Dev nD) : Pipeline.afterTail₀ cfgs (dats m) 0 (V0 m) [hostOps1] c main_v142
    = shapeCast S8x32 (G8 m c) shapeCasts_S8x1x32_S8x32 := by
  unfold Pipeline.afterTail₀
  show StableHlo.after hostOps1 _ (Proc.devRef .tc main_v142) = _
  after_results
  rw [Pipeline.withArrays_arr spec0 launch0.win.arr_inj c _ _ 8, final8 m c]
  rfl

theorem tail143 (c : Dev nD) : Pipeline.afterTail₀ cfgs (dats m) 0 (V0 m) [hostOps1] c main_v143
    = shapeCast S8x32 (G9 m c) shapeCasts_S8x1x32_S8x32 := by
  unfold Pipeline.afterTail₀
  show StableHlo.after hostOps1 _ (Proc.devRef .tc main_v143) = _
  after_results
  rw [Pipeline.withArrays_arr spec0 launch0.win.arr_inj c _ _ 9, final9 m c]
  rfl

/-! ## The four results -/

/-- The lower matrix result. -/
theorem res140 (c : Dev nD) : Pipeline.afterTail₀ cfgs (dats m) 0 (V0 m) [hostOps1] c main_v140
    = outA (m ((c.tc : Thread nD τ).loc main_arg0)) (lwOf m c) (uwOf m c) := by
  rw [tail140]
  funext i
  obtain ⟨b, s, k, r, w, rfl⟩ : ∃ (b : Fin 8) (s : Fin 32) (k : Fin 3) (r w : Fin 224), i = ix5 b s k r w :=
    ⟨i 0, i 1, i 2, i 3, i 4, eq_ix5 i⟩
  rw [unflat5_at, G6_ix4]
  unfold X0 LW UW
  rw [V133_at m c, V135_at m c, V137_at m c]
  exact mat_bridge _ _ _ b s k r w

/-- The upper matrix result. -/
theorem res141 (c : Dev nD) : Pipeline.afterTail₀ cfgs (dats m) 0 (V0 m) [hostOps1] c main_v141
    = outA (m ((c.tc : Thread nD τ).loc main_arg1)) (uwOf m c) (lwOf m c) := by
  rw [tail141]
  funext i
  obtain ⟨b, s, k, r, w, rfl⟩ : ∃ (b : Fin 8) (s : Fin 32) (k : Fin 3) (r w : Fin 224), i = ix5 b s k r w :=
    ⟨i 0, i 1, i 2, i 3, i 4, eq_ix5 i⟩
  rw [unflat5_at, G7_ix4]
  unfold X1 LW UW
  rw [V134_at m c, V135_at m c, V137_at m c]
  exact mat_bridge _ _ _ b s k r w

/-- The lower bias result. -/
theorem res142 (c : Dev nD) : Pipeline.afterTail₀ cfgs (dats m) 0 (V0 m) [hostOps1] c main_v142
    = outB (m ((c.tc : Thread nD τ).loc main_arg0)) (lbOf m c) (ubOf m c) := by
  rw [tail142]
  funext i
  obtain ⟨b, s, rfl⟩ : ∃ (b : Fin 8) (s : Fin 32), i = ix2 b s := ⟨i 0, i 1, eq_ix2 i⟩
  rw [squeeze_at, G8_ix3]
  simp only [part0, X0, LB, UB, V133_at m c, V136_at m c, V138_at m c]
  exact bias_bridge _ _ _ b s

/-- The upper bias result. -/
theorem res143 (c : Dev nD) : Pipeline.afterTail₀ cfgs (dats m) 0 (V0 m) [hostOps1] c main_v143
    = outB (m ((c.tc : Thread nD τ).loc main_arg1)) (ubOf m c) (lbOf m c) := by
  rw [tail143]
  funext i
  obtain ⟨b, s, rfl⟩ : ∃ (b : Fin 8) (s : Fin 32), i = ix2 b s := ⟨i 0, i 1, eq_ix2 i⟩
  rw [squeeze_at, G9_ix3]
  simp only [part1, X1, LB, UB, V134_at m c, V136_at m c, V138_at m c]
  exact bias_bridge _ _ _ b s

/-! ## The run -/

/-- Every weakly fair execution of the idealized kernel's program terminates, nothing faulting, with the four results at
    the specification's functions of the arguments and the arguments unchanged. -/
theorem run : θ_run defs (onTc (τ := τ) (main (F := Ideal))) ⟨m, fun _ => 0, ρ⟩ (fun r => ∀ c : Dev nD,
      r.2.mem ((c.tc : Thread nD τ).loc main_v140) = outA (m ((c.tc : Thread nD τ).loc main_arg0)) (lwOf m c) (uwOf m c)
      ∧ r.2.mem ((c.tc : Thread nD τ).loc main_v142) = outB (m ((c.tc : Thread nD τ).loc main_arg0)) (lbOf m c) (ubOf m c)
      ∧ r.2.mem ((c.tc : Thread nD τ).loc main_v141) = outA (m ((c.tc : Thread nD τ).loc main_arg1)) (uwOf m c) (lwOf m c)
      ∧ r.2.mem ((c.tc : Thread nD τ).loc main_v143) = outB (m ((c.tc : Thread nD τ).loc main_arg1)) (ubOf m c) (lbOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v140 (Pipeline.mem_restRefs_of main_v140 (by decide) (by decide))).trans (res140 m c),
      ((h c).2 main_v142 (Pipeline.mem_restRefs_of main_v142 (by decide) (by decide))).trans (res142 m c),
      ((h c).2 main_v141 (Pipeline.mem_restRefs_of main_v141 (by decide) (by decide))).trans (res141 m c),
      ((h c).2 main_v143 (Pipeline.mem_restRefs_of main_v143 (by decide) (by decide))).trans (res143 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.KRun

end
-- ==== Proof.RefSide.lean ====
/-
  The reference program's four results are the specification's functions.

  Each matrix result is, entry by entry, the bound matrix's entry times the blend m · a + (1 − m) · b of the two
  coefficients by the indicator m of the entry's sign test, the coefficients read with the spec axis dropped; the blend
  is the choice by the test on all extended reals. Each bias result is the zero word plus the sum over the 150528
  positions of a flattened spec row of such products; position k of row (b, s) of the flattened array is the
  entry (b, s, k / 50176, k / 224 mod 224, k mod 224) of the matrix, by quotient and remainder of the row-major offset
  (b · 32 + s) · 150528 + k.
-/
import proofs.«158817_j9990093930707_2_alg».proof.Proof.Gen.ReferenceIdeal.Read
import proofs.«158817_j9990093930707_2_alg».proof.Proof.Spec

noncomputable section

namespace Cert.ReferenceIdeal.RefValue

open Cert.ReferenceIdeal Cert.ReferenceIdeal.Read Cert.BoundSpec Idealize.ShloMosaic Idealize.ShloMosaic.ValueIdx

/-! ## The index maps of the layout operations -/

/- Broadcasting a coefficient array to a unit spec axis and then along the 32 spec rows reads it with the spec axis
   dropped. The eight composites below are the same map. -/
theorem drop_133_140 (i : S8x32x3x224x224.Idx) : idx_main_v133 (idx_main_v140 i) = dropSpec i :=
  funext fun a => match a with | ⟨0, _⟩ => rfl | ⟨1, _⟩ => rfl | ⟨2, _⟩ => rfl | ⟨3, _⟩ => rfl
theorem drop_135_144 (i : S8x32x3x224x224.Idx) : idx_main_v135 (idx_main_v144 i) = dropSpec i :=
  funext fun a => match a with | ⟨0, _⟩ => rfl | ⟨1, _⟩ => rfl | ⟨2, _⟩ => rfl | ⟨3, _⟩ => rfl
theorem drop_134_148 (i : S8x32x3x224x224.Idx) : idx_main_v134 (idx_main_v148 i) = dropSpec i :=
  funext fun a => match a with | ⟨0, _⟩ => rfl | ⟨1, _⟩ => rfl | ⟨2, _⟩ => rfl | ⟨3, _⟩ => rfl
theorem drop_136_152 (i : S8x32x3x224x224.Idx) : idx_main_v136 (idx_main_v152 i) = dropSpec i :=
  funext fun a => match a with | ⟨0, _⟩ => rfl | ⟨1, _⟩ => rfl | ⟨2, _⟩ => rfl | ⟨3, _⟩ => rfl
theorem drop_135_161 (i : S8x32x3x224x224.Idx) : idx_main_v135 (idx_main_v161 i) = dropSpec i :=
  funext fun a => match a with | ⟨0, _⟩ => rfl | ⟨1, _⟩ => rfl | ⟨2, _⟩ => rfl | ⟨3, _⟩ => rfl
theorem drop_133_165 (i : S8x32x3x224x224.Idx) : idx_main_v133 (idx_main_v165 i) = dropSpec i :=
  funext fun a => match a with | ⟨0, _⟩ => rfl | ⟨1, _⟩ => rfl | ⟨2, _⟩ => rfl | ⟨3, _⟩ => rfl
theorem drop_136_169 (i : S8x32x3x224x224.Idx) : idx_main_v136 (idx_main_v169 i) = dropSpec i :=
  funext fun a => match a with | ⟨0, _⟩ => rfl | ⟨1, _⟩ => rfl | ⟨2, _⟩ => rfl | ⟨3, _⟩ => rfl
theorem drop_134_173 (i : S8x32x3x224x224.Idx) : idx_main_v134 (idx_main_v173 i) = dropSpec i :=
  funext fun a => match a with | ⟨0, _⟩ => rfl | ⟨1, _⟩ => rfl | ⟨2, _⟩ => rfl | ⟨3, _⟩ => rfl

/-- Position `k` of the flattened spec row `(b, s)` is the matrix entry `rowPos b s k`. -/
theorem rowPos_156_157 (b : Fin 8) (s : Fin 32) (k : Fin 150528) :
    idx_main_v156 (idx_main_v157 (ix2 b s) k) = rowPos b s k := by
  have hb := b.isLt; have hs := s.isLt; have hk := k.isLt
  funext a
  match a with
  | ⟨0, _⟩ => exact Fin.ext (by show ((b.val * 32 + s.val) * 150528 + k.val) / 4816896 = b.val; omega)
  | ⟨1, _⟩ => exact Fin.ext (by show ((b.val * 32 + s.val) * 150528 + k.val) / 150528 % 32 = s.val; omega)
  | ⟨2, _⟩ => exact Fin.ext (by show ((b.val * 32 + s.val) * 150528 + k.val) / 50176 % 3 = k.val / 50176; omega)
  | ⟨3, _⟩ => exact Fin.ext (by show ((b.val * 32 + s.val) * 150528 + k.val) / 224 % 224 = k.val / 224 % 224; omega)
  | ⟨4, _⟩ => exact Fin.ext (by show ((b.val * 32 + s.val) * 150528 + k.val) % 224 = k.val % 224; omega)
/-- The same for the second bound matrix. -/
theorem rowPos_177_178 (b : Fin 8) (s : Fin 32) (k : Fin 150528) :
    idx_main_v177 (idx_main_v178 (ix2 b s) k) = rowPos b s k := by
  have hb := b.isLt; have hs := s.isLt; have hk := k.isLt
  funext a
  match a with
  | ⟨0, _⟩ => exact Fin.ext (by show ((b.val * 32 + s.val) * 150528 + k.val) / 4816896 = b.val; omega)
  | ⟨1, _⟩ => exact Fin.ext (by show ((b.val * 32 + s.val) * 150528 + k.val) / 150528 % 32 = s.val; omega)
  | ⟨2, _⟩ => exact Fin.ext (by show ((b.val * 32 + s.val) * 150528 + k.val) / 50176 % 3 = k.val / 50176; omega)
  | ⟨3, _⟩ => exact Fin.ext (by show ((b.val * 32 + s.val) * 150528 + k.val) / 224 % 224 = k.val / 224 % 224; omega)
  | ⟨4, _⟩ => exact Fin.ext (by show ((b.val * 32 + s.val) * 150528 + k.val) % 224 = k.val % 224; omega)

/-! ## The four results -/

variable (x0 x1 : FVec Ideal S8x32x3x224x224 .f32) (x2 x3 : FVec Ideal S8x3x224x224 .f32) (x4 x5 : FVec Ideal S1005 .f32)

theorem v147_eq : val_main_v147 (F := Ideal) x0 x2 x3 x4 x5
    = outA x0 (val_main_v98 (F := Ideal) x2 x3 x4) (val_main_v127 (F := Ideal) x2 x3 x5) := by
  funext i
  rw [val_main_v147_apply, val_main_v146_apply, val_main_v141_apply, val_main_v145_apply, val_main_v143_apply, val_main_v139_apply, val_main_v138_apply, val_main_v137_apply, val_main_cst_30_apply, val_main_v142_apply, val_main_cst_31_apply, val_main_v140_apply, val_main_v133_apply, val_main_v144_apply, val_main_v135_apply,
    drop_133_140, drop_135_144]
  generalize val_main_v98 (F := Ideal) x2 x3 x4 = wp
  generalize val_main_v127 (F := Ideal) x2 x3 x5 = wn
  simp only [Ideal.mulf_def, Ideal.addf_def, Ideal.subf_def, Ideal.cmpf_def, Ideal.ofBits_def]
  exact mul_blend_eq_pick _ _ _

theorem v157_eq : val_main_v157 (F := Ideal) x0 x2 x3 x4 x5
    = outB x0 (val_main_v103 (F := Ideal) x2 x3 x4) (val_main_v132 (F := Ideal) x2 x3 x5) := by
  funext j
  obtain ⟨b, s, rfl⟩ : ∃ (b : Fin 8) (s : Fin 32), j = ix2 b s := ⟨j 0, j 1, eq_ix2 j⟩
  rw [val_main_v157_apply, val_main_cst_33_apply, outB_ix2, Ideal.ofBits_def]
  refine congrArg (Ideal.ofBits .f32 0x00000000#32 + ·) (Finset.sum_congr rfl fun k _ => ?_)
  rw [val_main_v156_apply, rowPos_156_157,
    val_main_v155_apply, val_main_v154_apply, val_main_v149_apply, val_main_v153_apply, val_main_v151_apply, val_main_v139_apply, val_main_v138_apply, val_main_v137_apply, val_main_cst_30_apply, val_main_v150_apply, val_main_cst_32_apply, val_main_v148_apply, val_main_v134_apply, val_main_v152_apply, val_main_v136_apply,
    drop_134_148, drop_136_152]
  generalize val_main_v103 (F := Ideal) x2 x3 x4 = bp
  generalize val_main_v132 (F := Ideal) x2 x3 x5 = bn
  simp only [Ideal.mulf_def, Ideal.addf_def, Ideal.subf_def, Ideal.cmpf_def, Ideal.ofBits_def]
  exact mul_blend_eq_pick _ _ _

theorem v168_eq : val_main_v168 (F := Ideal) x1 x2 x3 x4 x5
    = outA x1 (val_main_v127 (F := Ideal) x2 x3 x5) (val_main_v98 (F := Ideal) x2 x3 x4) := by
  funext i
  rw [val_main_v168_apply, val_main_v167_apply, val_main_v162_apply, val_main_v166_apply, val_main_v164_apply, val_main_v160_apply, val_main_v159_apply, val_main_v158_apply, val_main_cst_34_apply, val_main_v163_apply, val_main_cst_35_apply, val_main_v161_apply, val_main_v135_apply, val_main_v165_apply, val_main_v133_apply,
    drop_135_161, drop_133_165]
  generalize val_main_v98 (F := Ideal) x2 x3 x4 = wn
  generalize val_main_v127 (F := Ideal) x2 x3 x5 = wp
  simp only [Ideal.mulf_def, Ideal.addf_def, Ideal.subf_def, Ideal.cmpf_def, Ideal.ofBits_def]
  exact mul_blend_eq_pick _ _ _

theorem v178_eq : val_main_v178 (F := Ideal) x1 x2 x3 x4 x5
    = outB x1 (val_main_v132 (F := Ideal) x2 x3 x5) (val_main_v103 (F := Ideal) x2 x3 x4) := by
  funext j
  obtain ⟨b, s, rfl⟩ : ∃ (b : Fin 8) (s : Fin 32), j = ix2 b s := ⟨j 0, j 1, eq_ix2 j⟩
  rw [val_main_v178_apply, val_main_cst_37_apply, outB_ix2, Ideal.ofBits_def]
  refine congrArg (Ideal.ofBits .f32 0x00000000#32 + ·) (Finset.sum_congr rfl fun k _ => ?_)
  rw [val_main_v177_apply, rowPos_177_178,
    val_main_v176_apply, val_main_v175_apply, val_main_v170_apply, val_main_v174_apply, val_main_v172_apply, val_main_v160_apply, val_main_v159_apply, val_main_v158_apply, val_main_cst_34_apply, val_main_v171_apply, val_main_cst_36_apply, val_main_v169_apply, val_main_v136_apply, val_main_v173_apply, val_main_v134_apply,
    drop_136_169, drop_134_173]
  generalize val_main_v103 (F := Ideal) x2 x3 x4 = bn
  generalize val_main_v132 (F := Ideal) x2 x3 x5 = bp
  simp only [Ideal.mulf_def, Ideal.addf_def, Ideal.subf_def, Ideal.cmpf_def, Ideal.ofBits_def]
  exact mul_blend_eq_pick _ _ _

end Cert.ReferenceIdeal.RefValue

end
-- ==== Proof.lean ====
/-
  A sigmoid layer's backward bound propagation: a Pallas kernel against its jnp reference, equal on the extended reals.

  Both programs first compute, from the pre-activation bounds `[lower, lower + delta]` and two tables of tangent points,
  the four per-pixel coefficients of the sigmoid's linear relaxation (lower and upper weight, lower and upper offset),
  by the same host operations.  They then combine them with two bound matrices `x` of shape
  [8, 32, 3, 224, 224]: every entry is multiplied by one of two coefficients according to its sign.  The kernel chooses
  with a select — `x · (if 0 < x then a else b)` — and the reference blends with the sign's indicator —
  `x · (m · a + (1 − m) · b)`, `m ∈ {0, 1}`; these agree for all extended reals `a`, `b`, since `1 · a + 0 · b = a` and
  `0 · a + 1 · b = b` (zero times an infinity is zero), so no finiteness of the inputs is used.  The matrix results are
  these products; the bias results sum a second such product over channels and pixels.  The kernel sums tile by tile —
  over the 6272 pixels of a tile, then the 3 channels, accumulated over the 8 tiles of a batch from the zero block —
  and the reference sums the 150528 row-major positions of a spec row at once: the same finite sum of extended reals,
  regrouped.

  The three frames are the generated ones (the reference's is its run with the results dropped); the ideal pass rewrote
  nothing, so the kernel's idealization is the kernel's own text; the last conjunct puts the kernel's run (`KRun.run`:
  the generated frame run read back through the blocks, the accumulators' fold and the host reshapes) beside the
  reference's generated run read at an index (`RefValue`), both at the specification's functions `outA` and `outB`.
-/
import proofs.«158817_j9990093930707_2_alg».proof.Defs
import proofs.«158817_j9990093930707_2_alg».proof.Proof.Gen.Kernel
import proofs.«158817_j9990093930707_2_alg».proof.Proof.Gen.Kernel.Skeleton
import proofs.«158817_j9990093930707_2_alg».proof.Proof.Gen.Kernel.Launch
import proofs.«158817_j9990093930707_2_alg».proof.Proof.Gen.Kernel.Points
import proofs.«158817_j9990093930707_2_alg».proof.Proof.Gen.Kernel.Frame
import proofs.«158817_j9990093930707_2_alg».proof.Proof.Gen.KernelIdeal
import proofs.«158817_j9990093930707_2_alg».proof.Proof.Gen.KernelIdeal.Skeleton
import proofs.«158817_j9990093930707_2_alg».proof.Proof.Gen.KernelIdeal.Launch
import proofs.«158817_j9990093930707_2_alg».proof.Proof.Gen.KernelIdeal.Points
import proofs.«158817_j9990093930707_2_alg».proof.Proof.Gen.KernelIdeal.Frame
import proofs.«158817_j9990093930707_2_alg».proof.Proof.Gen.ReferenceIdeal
import proofs.«158817_j9990093930707_2_alg».proof.Proof.Gen.ReferenceIdeal.Run
import proofs.«158817_j9990093930707_2_alg».proof.Proof.Gen.ReferenceIdeal.Read
import proofs.«158817_j9990093930707_2_alg».proof.Proof.Gen.Pre_finite_inputs
import proofs.«158817_j9990093930707_2_alg».proof.Proof.KRun
import proofs.«158817_j9990093930707_2_alg».proof.Proof.RefSide
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

theorem preserves : Cert.preserves_Kernel_KernelIdeal := trivial

/-- From memories that agree on the six arguments both programs end with the two matrix results at `outA` and the two bias
    results at `outB` of the same arrays: the kernel by its run, the reference by its run read at an index, the shared
    coefficient chain carried as the reference's stages of the agreed arguments. -/
theorem algebraic : Cert.algebraic_KernelIdeal_ReferenceIdeal := by
  intro m ρ m' ρ' _ hagree
  refine ⟨_, _, _, _, Cert.KernelIdeal.KRun.run m ρ, ?_⟩
  refine (θ_run Cert.ReferenceIdeal.defs _ _).mono (fun _ h c => ?_) (Cert.ReferenceIdeal.Value.run (F := Ideal) m' ρ')
  obtain ⟨h0, h1, h2, h3, hargs⟩ := h c
  obtain ⟨a0, a1, a2, a3, a4, a5⟩ := hagree c
  refine ⟨h0.trans ?_, h1.trans ?_, h2.trans ?_, h3.trans ?_, hargs⟩
  · rw [Cert.ReferenceIdeal.Read.val_main_v147_eq, Cert.ReferenceIdeal.RefValue.v147_eq, a0, a2, a3, a4, a5]
  · rw [Cert.ReferenceIdeal.Read.val_main_v157_eq, Cert.ReferenceIdeal.RefValue.v157_eq, a0, a2, a3, a4, a5]
  · rw [Cert.ReferenceIdeal.Read.val_main_v168_eq, Cert.ReferenceIdeal.RefValue.v168_eq, a1, a2, a3, a4, a5]
  · rw [Cert.ReferenceIdeal.Read.val_main_v178_eq, Cert.ReferenceIdeal.RefValue.v178_eq, a1, a2, a3, a4, a5]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
